-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x33x128 : Shape := ⟨3, ![512, 33, 128]⟩
abbrev S128x256 : Shape := ⟨2, ![128, 256]⟩
abbrev S1x256 : Shape := ⟨2, ![1, 256]⟩
abbrev S256x256 : Shape := ⟨2, ![256, 256]⟩
abbrev S256x128 : Shape := ⟨2, ![256, 128]⟩
abbrev S1x128 : Shape := ⟨2, ![1, 128]⟩
abbrev S512x32x128 : Shape := ⟨3, ![512, 32, 128]⟩
abbrev S_ : Shape := ⟨0, ![]⟩

class Facts : Prop where
  bcast_S_S512x33x128 : S_.BroadcastsInDim S512x33x128 (![] : Fin 0 → Fin S512x33x128.rank)
  reducesTo_S512x33x128_S_d0_1_2 : S512x33x128.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S1x256 : S_.BroadcastsInDim S1x256 (![] : Fin 0 → Fin S1x256.rank)
  reducesTo_S1x256_S_d0_1 : S1x256.ReducesTo [0, 1] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_
  bcast_S_S512x32x128 : S_.BroadcastsInDim S512x32x128 (![] : Fin 0 → Fin S512x32x128.rank)
  reducesTo_S512x32x128_S_d0_1_2 : S512x32x128.ReducesTo [0, 1, 2] S_

variable [Facts]

def fn_part2 {F : FTy → Type} [FloatOps F] (main_arg7 : FVec F S512x32x128 .f32) (main_v33 : IVec S_ 1) : IVec S_ 1 :=
  let main_v34 : FVec F S512x32x128 .f32 := Host.absf main_arg7
  let main_cst_12 : FVec F S_ .f32 := constant S_ .f32 0x7F800000#32
  let main_v35 : FVec F S512x32x128 .f32 := broadcastInDim S512x32x128 ![] bcast_S_S512x32x128 main_cst_12
  let main_v36 : IVec S512x32x128 1 := cmpf .olt main_v34 main_v35
  let main_c_13 : IVec S_ 1 := constantI S_ 1 1#1
  let main_v37 : IVec S_ 1 := (fun x v => Host.reduce IntOp.andi x v reducesTo_S512x32x128_S_d0_1_2 h_S_) main_v36 main_c_13
  let main_v38 : IVec S_ 1 := andi main_v33 main_v37
  main_v38

def fn_part1 {F : FTy → Type} [FloatOps F] (main_arg4 : FVec F S1x256 .f32) (main_arg5 : FVec F S256x128 .f32) (main_arg6 : FVec F S1x128 .f32) (main_arg7 : FVec F S512x32x128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg7 main_v33

def fn {F : FTy → Type} [FloatOps F] (main_arg0 : FVec F S512x33x128 .f32) (main_arg1 : FVec F S128x256 .f32) (main_arg2 : FVec F S1x256 .f32) (main_arg3 : FVec F S256x256 .f32) (main_arg4 : FVec F S1x256 .f32) (main_arg5 : FVec F S256x128 .f32) (main_arg6 : FVec F S1x128 .f32) (main_arg7 : FVec F S512x32x128 .f32) : IVec S_ 1 :=
  let main_v0 : FVec F S512x33x128 .f32 := Host.absf main_arg0
  let main_cst : FVec F S_ .f32 := constant S_ .f32 0x7F800000#32
  let main_v1 : FVec F S512x33x128 .f32 := broadcastInDim S512x33x128 ![] bcast_S_S512x33x128 main_cst
  let main_v2 : IVec S512x33x128 1 := cmpf .olt main_v0 main_v1
  let main_c : IVec S_ 1 := constantI S_ 1 1#1
  let main_v3 : IVec S_ 1 := (fun x v => Host.reduce IntOp.andi x v reducesTo_S512x33x128_S_d0_1_2 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_v13 main_v16
-- ==== Kernel.lean ====
abbrev S512x33x128 : Shape := ⟨3, ![512, 33, 128]⟩
abbrev S128x256 : Shape := ⟨2, ![128, 256]⟩
abbrev S1x256 : Shape := ⟨2, ![1, 256]⟩
abbrev S256x256 : Shape := ⟨2, ![256, 256]⟩
abbrev S256x128 : Shape := ⟨2, ![256, 128]⟩
abbrev S1x128 : Shape := ⟨2, ![1, 128]⟩
abbrev S512x32x128 : Shape := ⟨3, ![512, 32, 128]⟩
abbrev S512x1x128 : Shape := ⟨3, ![512, 1, 128]⟩
abbrev S512x128 : Shape := ⟨2, ![512, 128]⟩
abbrev S_ : Shape := ⟨0, ![]⟩
abbrev S127x256 : Shape := ⟨2, ![127, 256]⟩
abbrev S512x8x128 : Shape := ⟨3, ![512, 8, 128]⟩
abbrev S512x1024 : Shape := ⟨2, ![512, 1024]⟩
abbrev S512x256 : Shape := ⟨2, ![512, 256]⟩
abbrev S512x1 : Shape := ⟨2, ![512, 1]⟩
abbrev S512x127 : Shape := ⟨2, ![512, 127]⟩
abbrev S256x8x128 : Shape := ⟨3, ![256, 8, 128]⟩
abbrev S256x1024 : Shape := ⟨2, ![256, 1024]⟩
abbrev S1x1024 : Shape := ⟨2, ![1, 1024]⟩
abbrev S256x1x128 : Shape := ⟨3, ![256, 1, 128]⟩
abbrev S1x1x128 : Shape := ⟨3, ![1, 1, 128]⟩

abbrev nBuf : Space → Nat
  | .hbm => 14
  | .vmem => 12
  | .smem => 0
  | _ => 0

abbrev bufTy : (tb : Table) → Fin (tcTables nBuf tb) → BufTy
  | .hbm, ⟨0, _⟩ => ⟨S512x33x128, .f32⟩
  | .hbm, ⟨1, _⟩ => ⟨S128x256, .f32⟩
  | .hbm, ⟨2, _⟩ => ⟨S1x256, .f32⟩
  | .hbm, ⟨3, _⟩ => ⟨S256x256, .f32⟩
  | .hbm, ⟨4, _⟩ => ⟨S1x256, .f32⟩
  | .hbm, ⟨5, _⟩ => ⟨S256x128, .f32⟩
  | .hbm, ⟨6, _⟩ => ⟨S1x128, .f32⟩
  | .hbm, ⟨7, _⟩ => ⟨S512x32x128, .f32⟩
  | .hbm, ⟨8, _⟩ => ⟨S512x1x128, .f32⟩
  | .hbm, ⟨9, _⟩ => ⟨S512x128, .f32⟩
  | .hbm, ⟨10, _⟩ => ⟨S_, .f32⟩
  | .hbm, ⟨11, _⟩ => ⟨S127x256, .f32⟩
  | .hbm, ⟨12, _⟩ => ⟨S256x256, .f32⟩
  | .hbm, ⟨13, _⟩ => ⟨S512x32x128, .f32⟩
  | .local _ .vmem, ⟨0, _⟩ => ⟨S512x128, .f32⟩
  | .local _ .vmem, ⟨1, _⟩ => ⟨S512x8x128, .f32⟩
  | .local _ .vmem, ⟨2, _⟩ => ⟨S512x8x128, .f32⟩
  | .local _ .vmem, ⟨3, _⟩ => ⟨S256x256, .f32⟩
  | .local _ .vmem, ⟨4, _⟩ => ⟨S256x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S512x8x128, .f32⟩
  | .local _ .vmem, ⟨9, _⟩ => ⟨S512x8x128, .f32⟩
  | .local _ .vmem, ⟨10, _⟩ => ⟨S512x1024, .f32⟩
  | .local _ .vmem, ⟨11, _⟩ => ⟨S512x256, .f32⟩
  | _, _ => ⟨S512x33x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S512x33x128_S512x1x128_0_0_0 : S512x33x128.Slices ![0, 0, 0] S512x1x128
  shapeCasts_S512x1x128_S512x128 : S512x1x128.ShapeCasts S512x128
  bcast_S_S127x256 : S_.BroadcastsInDim S127x256 (![] : Fin 0 → Fin S127x256.rank)
  concatenates_S128x256_S1x256_S127x256_S256x256_d0 : Shape.Concatenates [S128x256, S1x256, S127x256] S256x256 0
  concatenates_S512x1_S512x127_S512x128_d1 : Shape.Concatenates [S512x1, S512x127] S512x128 1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  concatenates_S512x128_S512x128_S512x256_d1 : Shape.Concatenates [S512x128, S512x128] S512x256 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S512x8x128_S256x8x128_0_0_0 : ∀ a, (![0, 0, 0] : Fin 3 → Nat) a + S256x8x128.size a ≤ S512x8x128.size a
  h_S256x8x128 : 0 < S256x8x128.numel
  shapeCasts_S256x8x128_S256x1024 : S256x8x128.ShapeCasts S256x1024
  inb_S1x128_S1x128_0_0 : ∀ a, (![0, 0] : Fin 2 → Nat) a + S1x128.size a ≤ S1x128.size a
  h_S1x128 : 0 < S1x128.numel
  concatenates_S1x128_S1x128_S1x128_S1x128_S1x128_S1x128_S1x128_S1x128_S1x1024_d1 : Shape.Concatenates [S1x128, S1x128, S1x128, S1x128, S1x128, S1x128, S1x128, S1x128] S1x1024 1
  broadcasts_S1x1024_S256x1024 : S1x1024.Broadcasts S256x1024
  inb_S512x1024_S256x1024_0_0 : ∀ a, (![0, 0] : Fin 2 → Nat) a + S256x1024.size a ≤ S512x1024.size a
  h_S256x1024 : 0 < S256x1024.numel
  shapeCasts_S256x1024_S256x1024 : S256x1024.ShapeCasts S256x1024
  inb_S512x8x128_S256x8x128_256_0_0 : ∀ a, (![256, 0, 0] : Fin 3 → Nat) a + S256x8x128.size a ≤ S512x8x128.size a
  inb_S512x1024_S256x1024_256_0 : ∀ a, (![256, 0] : Fin 2 → Nat) a + S256x1024.size a ≤ S512x1024.size a
  inb_S512x256_S256x256_0_0 : ∀ a, (![0, 0] : Fin 2 → Nat) a + S256x256.size a ≤ S512x256.size a
  inb_S512x256_S256x256_256_0 : ∀ a, (![256, 0] : Fin 2 → Nat) a + S256x256.size a ≤ S512x256.size a
  concatenates_S256x256_S256x256_S512x256_d0 : Shape.Concatenates [S256x256, S256x256] S512x256 0
  slices_S512x128_o0_0_S256x128 : S512x128.Slices ![0, 0] S256x128
  inb_S512x1024_S256x128_0_0 : ∀ a, (![0, 0] : Fin 2 → Nat) a + S256x128.size a ≤ S512x1024.size a
  concatenates_S256x128_S256x128_S256x256_d1 : Shape.Concatenates [S256x128, S256x128] S256x256 1
  slices_S512x128_o256_0_S256x128 : S512x128.Slices ![256, 0] S256x128
  inb_S512x1024_S256x128_256_0 : ∀ a, (![256, 0] : Fin 2 → Nat) a + S256x128.size a ≤ S512x1024.size a
  inb_S512x1024_S256x128_0_128 : ∀ a, (![0, 128] : Fin 2 → Nat) a + S256x128.size a ≤ S512x1024.size a
  inb_S512x1024_S256x128_256_128 : ∀ a, (![256, 128] : Fin 2 → Nat) a + S256x128.size a ≤ S512x1024.size a
  inb_S512x1024_S256x128_0_256 : ∀ a, (![0, 256] : Fin 2 → Nat) a + S256x128.size a ≤ S512x1024.size a
  inb_S512x1024_S256x128_256_256 : ∀ a, (![256, 256] : Fin 2 → Nat) a + S256x128.size a ≤ S512x1024.size a
  inb_S512x1024_S256x128_0_384 : ∀ a, (![0, 384] : Fin 2 → Nat) a + S256x128.size a ≤ S512x1024.size a
  inb_S512x1024_S256x128_256_384 : ∀ a, (![256, 384] : Fin 2 → Nat) a + S256x128.size a ≤ S512x1024.size a
  inb_S512x1024_S256x128_0_512 : ∀ a, (![0, 512] : Fin 2 → Nat) a + S256x128.size a ≤ S512x1024.size a
  inb_S512x1024_S256x128_256_512 : ∀ a, (![256, 512] : Fin 2 → Nat) a + S256x128.size a ≤ S512x1024.size a
  inb_S512x1024_S256x128_0_640 : ∀ a, (![0, 640] : Fin 2 → Nat) a + S256x128.size a ≤ S512x1024.size a
  inb_S512x1024_S256x128_256_640 : ∀ a, (![256, 640] : Fin 2 → Nat) a + S256x128.size a ≤ S512x1024.size a
  inb_S512x1024_S256x128_0_768 : ∀ a, (![0, 768] : Fin 2 → Nat) a + S256x128.size a ≤ S512x1024.size a
  inb_S512x1024_S256x128_256_768 : ∀ a, (![256, 768] : Fin 2 → Nat) a + S256x128.size a ≤ S512x1024.size a
  inb_S512x1024_S256x128_0_896 : ∀ a, (![0, 896] : Fin 2 → Nat) a + S256x128.size a ≤ S512x1024.size a
  inb_S512x1024_S256x128_256_896 : ∀ a, (![256, 896] : Fin 2 → Nat) a + S256x128.size a ≤ S512x1024.size a
  shapeCasts_S256x128_S256x1x128 : S256x128.ShapeCasts S256x1x128
  concatenates_S256x1x128_S256x1x128_S256x1x128_S256x1x128_S256x1x128_S256x1x128_S256x1x128_S256x1x128_S256x8x128_d1 : Shape.Concatenates [S256x1x128, S256x1x128, S256x1x128, S256x1x128, S256x1x128, S256x1x128, S256x1x128, S256x1x128] S256x8x128 1
  shapeCasts_S1x128_S1x1x128 : S1x128.ShapeCasts S1x1x128
  broadcasts_S1x1x128_S256x8x128 : S1x1x128.Broadcasts S256x8x128
  dot_S256x256_S256x256_S256x256_1_0_0_1_n_n_wf : DotDims.WF S256x256 S256x256 S256x256 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8x128.size a ≤ S512x32x128.size a
  hwx0_1 : ∀ i : grid0.Coords, EltTy.bits .f32 = 32 ∨ (Rect.block (s := S512x32x128) S512x8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x8x128.size a ≤ S512x32x128.size a
  hwx0_7 : ∀ i : grid0.Coords, EltTy.bits .f32 = 32 ∨ (Rect.block (s := S512x32x128) S512x8x128.size (cc0_transform_7 i) (hinb0_7 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_v1) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S512x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S512x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S512x33x128 : Shape := ⟨3, ![512, 33, 128]⟩
abbrev S128x256 : Shape := ⟨2, ![128, 256]⟩
abbrev S1x256 : Shape := ⟨2, ![1, 256]⟩
abbrev S256x256 : Shape := ⟨2, ![256, 256]⟩
abbrev S256x128 : Shape := ⟨2, ![256, 128]⟩
abbrev S1x128 : Shape := ⟨2, ![1, 128]⟩
abbrev S512x32x128 : Shape := ⟨3, ![512, 32, 128]⟩
abbrev S512x1x128 : Shape := ⟨3, ![512, 1, 128]⟩
abbrev S512x128 : Shape := ⟨2, ![512, 128]⟩
abbrev S512x4096 : Shape := ⟨2, ![512, 4096]⟩
abbrev S512x256 : Shape := ⟨2, ![512, 256]⟩

abbrev nBuf : Space → Nat
  | .hbm => 13
  | .vmem => 9
  | .smem => 0
  | _ => 0

abbrev bufTy : (tb : Table) → Fin (tcTables nBuf tb) → BufTy
  | .hbm, ⟨0, _⟩ => ⟨S512x33x128, .f32⟩
  | .hbm, ⟨1, _⟩ => ⟨S128x256, .f32⟩
  | .hbm, ⟨2, _⟩ => ⟨S1x256, .f32⟩
  | .hbm, ⟨3, _⟩ => ⟨S256x256, .f32⟩
  | .hbm, ⟨4, _⟩ => ⟨S1x256, .f32⟩
  | .hbm, ⟨5, _⟩ => ⟨S256x128, .f32⟩
  | .hbm, ⟨6, _⟩ => ⟨S1x128, .f32⟩
  | .hbm, ⟨7, _⟩ => ⟨S512x32x128, .f32⟩
  | .hbm, ⟨8, _⟩ => ⟨S512x1x128, .f32⟩
  | .hbm, ⟨9, _⟩ => ⟨S512x128, .f32⟩
  | .hbm, ⟨10, _⟩ => ⟨S512x4096, .f32⟩
  | .hbm, ⟨11, _⟩ => ⟨S512x4096, .f32⟩
  | .hbm, ⟨12, _⟩ => ⟨S512x32x128, .f32⟩
  | .local _ .vmem, ⟨0, _⟩ => ⟨S512x128, .f32⟩
  | .local _ .vmem, ⟨1, _⟩ => ⟨S512x4096, .f32⟩
  | .local _ .vmem, ⟨2, _⟩ => ⟨S128x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S512x4096, .f32⟩
  | _, _ => ⟨S512x33x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  slices_S512x33x128_S512x1x128_0_0_0 : S512x33x128.Slices ![0, 0, 0] S512x1x128
  shapeCasts_S512x1x128_S512x128 : S512x1x128.ShapeCasts S512x128
  shapeCasts_S512x32x128_S512x4096 : S512x32x128.ShapeCasts S512x4096
  inb_S128x256_S128x256_0_0 : ∀ a, (![0, 0] : Fin 2 → Nat) a + S128x256.size a ≤ S128x256.size a
  h_S128x256 : 0 < S128x256.numel
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S512x4096_o0_0_S512x128 : S512x4096.Slices ![0, 0] S512x128
  slices_S512x4096_o0_128_S512x128 : S512x4096.Slices ![0, 128] S512x128
  slices_S512x4096_o0_256_S512x128 : S512x4096.Slices ![0, 256] S512x128
  slices_S512x4096_o0_384_S512x128 : S512x4096.Slices ![0, 384] S512x128
  slices_S512x4096_o0_512_S512x128 : S512x4096.Slices ![0, 512] S512x128
  slices_S512x4096_o0_640_S512x128 : S512x4096.Slices ![0, 640] S512x128
  slices_S512x4096_o0_768_S512x128 : S512x4096.Slices ![0, 768] S512x128
  slices_S512x4096_o0_896_S512x128 : S512x4096.Slices ![0, 896] S512x128
  slices_S512x4096_o0_1024_S512x128 : S512x4096.Slices ![0, 1024] S512x128
  slices_S512x4096_o0_1152_S512x128 : S512x4096.Slices ![0, 1152] S512x128
  slices_S512x4096_o0_1280_S512x128 : S512x4096.Slices ![0, 1280] S512x128
  slices_S512x4096_o0_1408_S512x128 : S512x4096.Slices ![0, 1408] S512x128
  slices_S512x4096_o0_1536_S512x128 : S512x4096.Slices ![0, 1536] S512x128
  slices_S512x4096_o0_1664_S512x128 : S512x4096.Slices ![0, 1664] S512x128
  slices_S512x4096_o0_1792_S512x128 : S512x4096.Slices ![0, 1792] S512x128
  slices_S512x4096_o0_1920_S512x128 : S512x4096.Slices ![0, 1920] S512x128
  slices_S512x4096_o0_2048_S512x128 : S512x4096.Slices ![0, 2048] S512x128
  slices_S512x4096_o0_2176_S512x128 : S512x4096.Slices ![0, 2176] S512x128
  slices_S512x4096_o0_2304_S512x128 : S512x4096.Slices ![0, 2304] S512x128
  slices_S512x4096_o0_2432_S512x128 : S512x4096.Slices ![0, 2432] S512x128
  slices_S512x4096_o0_2560_S512x128 : S512x4096.Slices ![0, 2560] S512x128
  slices_S512x4096_o0_2688_S512x128 : S512x4096.Slices ![0, 2688] S512x128
  slices_S512x4096_o0_2816_S512x128 : S512x4096.Slices ![0, 2816] S512x128
  slices_S512x4096_o0_2944_S512x128 : S512x4096.Slices ![0, 2944] S512x128
  slices_S512x4096_o0_3072_S512x128 : S512x4096.Slices ![0, 3072] S512x128
  slices_S512x4096_o0_3200_S512x128 : S512x4096.Slices ![0, 3200] S512x128
  slices_S512x4096_o0_3328_S512x128 : S512x4096.Slices ![0, 3328] S512x128
  slices_S512x4096_o0_3456_S512x128 : S512x4096.Slices ![0, 3456] S512x128
  slices_S512x4096_o0_3584_S512x128 : S512x4096.Slices ![0, 3584] S512x128
  slices_S512x4096_o0_3712_S512x128 : S512x4096.Slices ![0, 3712] S512x128
  slices_S512x4096_o0_3840_S512x128 : S512x4096.Slices ![0, 3840] S512x128
  concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x4096_d1 : Shape.Concatenates [S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128, S512x128] S512x4096 1
  shapeCasts_S512x4096_S512x32x128 : S512x4096.ShapeCasts S512x32x128
  dot_S512x128_S128x256_S512x256_1_0_0_1_n_n_wf : DotDims.WF S512x128 S128x256 S512x256 [1] [0] [0] [1] [] []
  dot_S512x256_S256x256_S512x256_1_0_0_1_n_n_wf : DotDims.WF S512x256 S256x256 S512x256 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S512x4096.size a
  hwx0_1 : ∀ i : grid0.Coords, EltTy.bits .f32 = 32 ∨ (Rect.block (s := S512x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x4096.size a ≤ S512x4096.size a
  hwx0_8 : ∀ i : grid0.Coords, EltTy.bits .f32 = 32 ∨ (Rect.block (s := S512x4096) S512x4096.size (cc0_transform_8 i) (hinb0_8 i)).WholeWords (EltTy.packing .f32)

variable [Facts₀]

def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_v1) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S512x4096.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== Proof.KBFrameKit.lean ====
/-
  The frame of the rollout kernel's program, first part: @main up to the region, and what the region finds.

  @main is five host operations (the slice and reshape that take x[:, 0, :], a zero constant and its broadcast, and the
  three-way join [W1; b1; 0]) followed by the one pipelined region of four grid points. None of the host operations
  writes an argument array, so the region finds every argument as launched. The body branches once, on "this is the first
  grid point"; it keeps two scratch buffers, the prepared noise (rewritten at every point before it is read) and the state
  (written whole at the first point, read and rewritten at every point: it is carried from point to point).
-/
import proofs.«146222_g2000209494350815_pallasbulk_913_23_alg».proof.Proof.Gen.Kernel.Launch
import proofs.«146222_g2000209494350815_pallasbulk_913_23_alg».proof.Proof.Gen.Kernel.Skeleton
import proofs.«146222_g2000209494350815_pallasbulk_913_23_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof data
    whose arrays are the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- A run to the library's frame post gives every argument array unchanged: a staged input by `Dat.arrAt_in`, an array
    no window stages by the post's second clause, each then found as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 1).trans (((dats 0 c).arrAt_in 1 rfl _).trans ((hA c 1).trans (V_main_arg7 m c)))⟩) h

/-! ## The body's one branch -/

/-- "This is the first grid point", as the body computes it from the grid coordinate. -/
abbrev cond0_0 (i : grid0.Coords) : Prop := (Scalar.cmpi .ne (Scalar.extui (Scalar.cmpi .eq (BitVec.ofNat 32 (i 0).val) 0#32)) 0#32) = 1#1
/-- It holds at point 0 and at no other of the four. -/
theorem hcond0_0 : ∀ t : Fin cfg0.N, cond0_0 (grid0.coords t) ↔ t.val = 0 :=
  (by decide +kernel : ∀ t : Fin grid0.N, cond0_0 (grid0.coords t) ↔ t.val = 0)

/-- No window is ever idle. -/
theorem liveAt0 : ∀ (w : Fin cfg0.W) (t : Fin cfg0.N), cfg0.idle w (grid0.coords t) = false := by decide +kernel

/-! ## The memrefs the body is called with -/

abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x8x128 .f32 := win0_7.stage (cfg0.slots t 7)
abbrev hs0_7 (t : Fin cfg0.N) : (ms0_7 t).IsWhole := hstage0_7 ((cfg0.slots t 7).cast nbuf0_7)
/-- The prepared-noise scratch and the state scratch: whole scoped buffers of the kernel's own. -/
abbrev scM0_0 : Memref sig .tc .vmem S512x1024 .f32 := Memref.whole cc0_scratch0
abbrev scM0_1 : Memref sig .tc .vmem S512x256 .f32 := Memref.whole cc0_scratch1
/-- One staging buffer of the output window, and the scratch buffers, as views through which contents are stated. -/
abbrev VO0_7 : View sig .tc .vmem S512x8x128 .f32 := (Memref.whole cc0_stg7_0 : Memref sig .tc .vmem S512x8x128 .f32).view
abbrev VS0_0 : View sig .tc .vmem S512x1024 .f32 := scM0_0.view
abbrev VS0_1 : View sig .tc .vmem S512x256 .f32 := scM0_1.view

/-- The class invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.KBRunA.lean ====
/-
  The kernel body run once, whole, at the first grid point (the branch taken: the state scratch is first stored whole from the start rows).
  On whole memrefs — the seven inputs at given contents, the output's staging buffer and the prepared-noise scratch at anything,
  the state scratch at anything — the body runs to the end with the inputs as they were and each of the three
  written buffers holding its stores, as lists of pieces (last store first) that the run itself finds.
-/
import proofs.«146222_g2000209494350815_pallasbulk_913_23_alg».proof.Proof.KBFrameKit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun0_A (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) :
    Σ' (L7 : List (View.Piece (Elt F) S512x8x128 .f32)) (LS0 : List (View.Piece (Elt F) S512x1024 .f32)), { LS1 : List (View.Piece (Elt F) S512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__rollout_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__rollout_kernel_eq_skeleton]; unfold cc0__rollout_kernel_skel
    simp only [k0_part1_eq_skeleton]; unfold k0_part1_skel
    simp only [k0_part2_eq_skeleton]; unfold k0_part2_skel
    simp only [k0_part3_eq_skeleton]; unfold k0_part3_skel
    simp only [k0_part4_eq_skeleton]; unfold k0_part4_skel
    simp only [k0_part5_eq_skeleton]; unfold k0_part5_skel
    simp only [k0_part6_eq_skeleton]; unfold k0_part6_skel
    simp only [k0_part7_eq_skeleton]; unfold k0_part7_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    iexists _; iexact HS1

end Cert.Kernel.Hand

end
-- ==== Proof.KBRunB.lean ====
/-
  The kernel body run once, whole, at a later grid point (the branch not taken: the state scratch holds what the point before left).
  On whole memrefs — the seven inputs at given contents, the output's staging buffer and the prepared-noise scratch at anything,
  the state scratch at the carried contents — the body runs to the end with the inputs as they were and each of the three
  written buffers holding its stores, as lists of pieces (last store first) that the run itself finds.
-/
import proofs.«146222_g2000209494350815_pallasbulk_913_23_alg».proof.Proof.KBFrameKit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun0_B (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : ¬cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) (xs1 : Vec F S512x256 .f32) :
    Σ' (L7 : List (View.Piece (Elt F) S512x8x128 .f32)) (LS0 : List (View.Piece (Elt F) S512x1024 .f32)), { LS1 : List (View.Piece (Elt F) S512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__rollout_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__rollout_kernel_eq_skeleton]; unfold cc0__rollout_kernel_skel
    simp only [k0_part1_eq_skeleton]; unfold k0_part1_skel
    simp only [k0_part2_eq_skeleton]; unfold k0_part2_skel
    simp only [k0_part3_eq_skeleton]; unfold k0_part3_skel
    simp only [k0_part4_eq_skeleton]; unfold k0_part4_skel
    simp only [k0_part5_eq_skeleton]; unfold k0_part5_skel
    simp only [k0_part6_eq_skeleton]; unfold k0_part6_skel
    simp only [k0_part7_eq_skeleton]; unfold k0_part7_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg10.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    iexists _; iexact HS1

end Cert.Kernel.Hand

end
-- ==== Proof.KBFrame.lean ====
/-
  The frame of the rollout kernel's program, last part: what each grid point leaves, the proof data, the body
  obligation, the run and the frame.

  After point 0 the output block and the state scratch hold what the first-point run's stores leave, read off the start
  rows and that point's blocks; after point n + 1 what the later-point run's stores leave, read off that point's blocks and
  the state scratch as point n left it. The region's invariant before point 0 is the launch's (both scratch buffers at
  anything); before a later point it names the state scratch's contents and leaves the prepared-noise scratch at anything,
  which is enough because every point rewrites that scratch whole before reading it.
-/
import proofs.«146222_g2000209494350815_pallasbulk_913_23_alg».proof.Proof.KBRunA
import proofs.«146222_g2000209494350815_pallasbulk_913_23_alg».proof.Proof.KBRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's stores into the output window's buffer are its two halves: they cover it. -/
theorem cover0_A_7 (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) (y : S512x8x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4 x5 x6).1 S256x8x128.size (by sl_kernel_rfl) y

/-- What that point leaves in the output window's buffer: its pieces read back. -/
def out0_A_7 (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) : Vec F S512x8x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 x0 x1 x2 x3 x4 x5 x6).1)

/-- Its stores into the state scratch end with the two halves: they cover it. -/
theorem scover0_A_1 (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) (y : S512x256.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4 x5 x6).2.2.1 S256x256.size (by sl_kernel_rfl) y

/-- What that point leaves in the state scratch: its pieces read back. -/
def sout0_A_1 (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) : Vec F S512x256 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 x0 x1 x2 x3 x4 x5 x6).2.2.1)

/-- The later point's stores into the output window's buffer are its two halves: they cover it. -/
theorem cover0_B_7 (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : ¬cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) (xs1 : Vec F S512x256 .f32) (y : S512x8x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 x5 x6 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 x5 x6 xs1).1 S256x8x128.size (by sl_kernel_rfl) y

/-- What that point leaves in the output window's buffer: its pieces read back. -/
def out0_B_7 (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : ¬cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) (xs1 : Vec F S512x256 .f32) : Vec F S512x8x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 x0 x1 x2 x3 x4 x5 x6 xs1).1)

/-- Its stores into the state scratch end with the two halves: they cover it. -/
theorem scover0_B_1 (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : ¬cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) (xs1 : Vec F S512x256 .f32) (y : S512x256.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 x5 x6 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 x5 x6 xs1).2.2.1 S256x256.size (by sl_kernel_rfl) y

/-- What that point leaves in the state scratch: its pieces read back. -/
def sout0_B_1 (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : ¬cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) (xs1 : Vec F S512x256 .f32) : Vec F S512x256 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 x0 x1 x2 x3 x4 x5 x6 xs1).2.2.1)

/-! ## What the output block and the state scratch hold after each point -/

def outsAt0 (c : Dev nD) : (n : ℕ) → n < cfg0.N → Vec F S512x8x128 .f32 × Vec F S512x256 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2)

theorem outsAt0_A (c : Dev nD) (t : Fin cfg0.N) (h0 : t.val = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) := by
  obtain ⟨n, hn⟩ := t
  cases n with
  | zero => exact absurd rfl h0
  | succ n => exact rfl

/-- The region's invariant before position `n`. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [after0_0, after0_1, after0_2, after0_3, after0_4, after0_5, after0_6, after0_7]
  by_cases h0 : t.val = 0
  ·
      rw [outsAt0_A m c t h0]
      unfold out0_A_7 sout0_A_1; (try dsimp only)
      rw [PhiS_castSucc m c t, PhiS_zero m c _ _ h0, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, ⟨%es0, HS0⟩, ⟨%es1, HS1⟩⟩
      isplitl [HS0 HS1 Hg]
      · isplitl [HS0 HS1]
        · isplitl [HS0]
          · iexists _; unfold owns; iexists _; isplitr
            swap; · iexact HS0
            ipureintro; rfl
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ )
  ·
      rw [outsAt0_B m c t h0]
      unfold out0_B_7 sout0_B_1; (try dsimp only)
      rw [PhiS_castSucc m c t, PhiS_pos m c _ _ h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, ⟨%es0, HS0⟩, ⟨%es1, HS1⟩⟩
      isplitl [HS0 HS1 Hg]
      · isplitl [HS0 HS1]
        · isplitl [HS0]
          · iexists _; unfold owns; iexists _; isplitr
            swap; · iexact HS0
            ipureintro; rfl
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ )

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 4 := N_0; omega)

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.KIFrameKit.lean ====
/-
  The frame of the rollout kernel's program, first part: @main up to the region, and what the region finds.

  @main is five host operations (the slice and reshape that take x[:, 0, :], a zero constant and its broadcast, and the
  three-way join [W1; b1; 0]) followed by the one pipelined region of four grid points. None of the host operations
  writes an argument array, so the region finds every argument as launched. The body branches once, on "this is the first
  grid point"; it keeps two scratch buffers, the prepared noise (rewritten at every point before it is read) and the state
  (written whole at the first point, read and rewritten at every point: it is carried from point to point).
-/
import proofs.«146222_g2000209494350815_pallasbulk_913_23_alg».proof.Proof.Gen.KernelIdeal.Launch
import proofs.«146222_g2000209494350815_pallasbulk_913_23_alg».proof.Proof.Gen.KernelIdeal.Skeleton
import proofs.«146222_g2000209494350815_pallasbulk_913_23_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof data
    whose arrays are the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- A run to the library's frame post gives every argument array unchanged: a staged input by `Dat.arrAt_in`, an array
    no window stages by the post's second clause, each then found as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 1).trans (((dats 0 c).arrAt_in 1 rfl _).trans ((hA c 1).trans (V_main_arg7 m c)))⟩) h

/-! ## The body's one branch -/

/-- "This is the first grid point", as the body computes it from the grid coordinate. -/
abbrev cond0_0 (i : grid0.Coords) : Prop := (Scalar.cmpi .ne (Scalar.extui (Scalar.cmpi .eq (BitVec.ofNat 32 (i 0).val) 0#32)) 0#32) = 1#1
/-- It holds at point 0 and at no other of the four. -/
theorem hcond0_0 : ∀ t : Fin cfg0.N, cond0_0 (grid0.coords t) ↔ t.val = 0 :=
  (by decide +kernel : ∀ t : Fin grid0.N, cond0_0 (grid0.coords t) ↔ t.val = 0)

/-- No window is ever idle. -/
theorem liveAt0 : ∀ (w : Fin cfg0.W) (t : Fin cfg0.N), cfg0.idle w (grid0.coords t) = false := by decide +kernel

/-! ## The memrefs the body is called with -/

abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x8x128 .f32 := win0_7.stage (cfg0.slots t 7)
abbrev hs0_7 (t : Fin cfg0.N) : (ms0_7 t).IsWhole := hstage0_7 ((cfg0.slots t 7).cast nbuf0_7)
/-- The prepared-noise scratch and the state scratch: whole scoped buffers of the kernel's own. -/
abbrev scM0_0 : Memref sig .tc .vmem S512x1024 .f32 := Memref.whole cc0_scratch0
abbrev scM0_1 : Memref sig .tc .vmem S512x256 .f32 := Memref.whole cc0_scratch1
/-- One staging buffer of the output window, and the scratch buffers, as views through which contents are stated. -/
abbrev VO0_7 : View sig .tc .vmem S512x8x128 .f32 := (Memref.whole cc0_stg7_0 : Memref sig .tc .vmem S512x8x128 .f32).view
abbrev VS0_0 : View sig .tc .vmem S512x1024 .f32 := scM0_0.view
abbrev VS0_1 : View sig .tc .vmem S512x256 .f32 := scM0_1.view

/-- The class invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KIRunA.lean ====
/-
  The kernel body run once, whole, at the first grid point (the branch taken: the state scratch is first stored whole from the start rows).
  On whole memrefs — the seven inputs at given contents, the output's staging buffer and the prepared-noise scratch at anything,
  the state scratch at anything — the body runs to the end with the inputs as they were and each of the three
  written buffers holding its stores, as lists of pieces (last store first) that the run itself finds.
-/
import proofs.«146222_g2000209494350815_pallasbulk_913_23_alg».proof.Proof.KIFrameKit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun0_A (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) :
    Σ' (L7 : List (View.Piece (Elt F) S512x8x128 .f32)) (LS0 : List (View.Piece (Elt F) S512x1024 .f32)), { LS1 : List (View.Piece (Elt F) S512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__rollout_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__rollout_kernel_eq_skeleton]; unfold cc0__rollout_kernel_skel
    simp only [k0_part1_eq_skeleton]; unfold k0_part1_skel
    simp only [k0_part2_eq_skeleton]; unfold k0_part2_skel
    simp only [k0_part3_eq_skeleton]; unfold k0_part3_skel
    simp only [k0_part4_eq_skeleton]; unfold k0_part4_skel
    simp only [k0_part5_eq_skeleton]; unfold k0_part5_skel
    simp only [k0_part6_eq_skeleton]; unfold k0_part6_skel
    simp only [k0_part7_eq_skeleton]; unfold k0_part7_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    iexists _; iexact HS1

end Cert.KernelIdeal.Hand

end
-- ==== Proof.KIRunB.lean ====
/-
  The kernel body run once, whole, at a later grid point (the branch not taken: the state scratch holds what the point before left).
  On whole memrefs — the seven inputs at given contents, the output's staging buffer and the prepared-noise scratch at anything,
  the state scratch at the carried contents — the body runs to the end with the inputs as they were and each of the three
  written buffers holding its stores, as lists of pieces (last store first) that the run itself finds.
-/
import proofs.«146222_g2000209494350815_pallasbulk_913_23_alg».proof.Proof.KIFrameKit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun0_B (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : ¬cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) (xs1 : Vec F S512x256 .f32) :
    Σ' (L7 : List (View.Piece (Elt F) S512x8x128 .f32)) (LS0 : List (View.Piece (Elt F) S512x1024 .f32)), { LS1 : List (View.Piece (Elt F) S512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__rollout_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__rollout_kernel_eq_skeleton]; unfold cc0__rollout_kernel_skel
    simp only [k0_part1_eq_skeleton]; unfold k0_part1_skel
    simp only [k0_part2_eq_skeleton]; unfold k0_part2_skel
    simp only [k0_part3_eq_skeleton]; unfold k0_part3_skel
    simp only [k0_part4_eq_skeleton]; unfold k0_part4_skel
    simp only [k0_part5_eq_skeleton]; unfold k0_part5_skel
    simp only [k0_part6_eq_skeleton]; unfold k0_part6_skel
    simp only [k0_part7_eq_skeleton]; unfold k0_part7_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg10.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [HS0]; · iexists _; iexact HS0
    iexists _; iexact HS1

end Cert.KernelIdeal.Hand

end
-- ==== Proof.KBlocks.lean ====
/-
  The kernel body's arithmetic, one rollout step at a time, as array-level functions.

  The body keeps the 512 rows as two halves of 256 rows. A half's state is an array of 256 columns: the 128 features,
  then a constant one, then zeros, so that one product with the stacked matrix [W1; b1; 0] is x·W1 + b1.
  One step: each half's second hidden layer, both halves' output products in one product of the stacked halves,
  the halves' slices of it, and each half's state advanced by (its slice + its prepared noise slab) in the feature
  columns and by zero elsewhere. The prepared noise is sigma·noise + b3; the recorded prediction is the slice + b3.
  These definitions repeat the body's operations exactly, so each named piece of the body is one of their
  compositions by unfolding alone.
-/
import proofs.«146222_g2000209494350815_pallasbulk_913_23_alg».proof.Proof.Gen.KernelIdeal.Skeleton

noncomputable section

namespace Cert.KernelIdeal.KSem

open Idealize.ShloMosaic Idealize.SL.Sem Cert.KernelIdeal Cert.KernelIdeal.Gen

variable {F : FTy → Type} [FloatOps F]

/-- max(·, 0) on a 256×256 array. -/
def kRelu (v : FVec F S256x256 .f32) : FVec F S256x256 .f32 :=
  maximumf v (broadcast S256x256 (Scalar.ofBits .f32 0x00000000#32))

/-- A half's state times the stacked first-layer matrix (before the rectifier). -/
def kM1 (w1a : FVec F S256x256 .f32) (xs : FVec F S256x256 .f32) : FVec F S256x256 .f32 :=
  matmul dot_S256x256_S256x256_S256x256_1_0_0_1_n_n none xs w1a (constant S256x256 .f32 0x00000000#32)

/-- The second hidden layer from the first: relu(h1·W2 + b2). -/
def kL2 (w2 : Vec F S256x256 .f32) (b2bc : FVec F S256x256 .f32) (h1 : FVec F S256x256 .f32) : FVec F S256x256 .f32 :=
  kRelu (addf (matmul dot_S256x256_S256x256_S256x256_1_0_0_1_n_n none h1 w2 (constant S256x256 .f32 0x00000000#32)) b2bc)

/-- The second hidden layer of a half from its state. -/
def kH2 (w1a : FVec F S256x256 .f32) (w2 : Vec F S256x256 .f32) (b2bc : FVec F S256x256 .f32) (xs : FVec F S256x256 .f32) :
    FVec F S256x256 .f32 :=
  kL2 w2 b2bc (kRelu (kM1 w1a xs))

/-- Both halves' output products at once: the halves' hidden layers stacked, times W3. -/
def kFall (w3 : Vec F S256x128 .f32) (ha hb : FVec F S256x256 .f32) : FVec F S512x128 .f32 :=
  matmul dot_S512x256_S256x128_S512x128_1_0_0_1_n_n none
    (concatenate S512x256 0 [⟨S256x256, ha⟩, ⟨S256x256, hb⟩] concatenates_S256x256_S256x256_S512x256_d0) w3
    (constant S512x128 .f32 0x00000000#32)

/-- The first half's rows of the stacked product. -/
def kP0 (fall : FVec F S512x128 .f32) : FVec F S256x128 .f32 :=
  extractStridedSlice S256x128 ![0, 0] fall slices_S512x128_o0_0_S256x128

/-- The second half's rows of the stacked product. -/
def kP1 (fall : FVec F S512x128 .f32) : FVec F S256x128 .f32 :=
  extractStridedSlice S256x128 ![256, 0] fall slices_S512x128_o256_0_S256x128

/-- The zero block that pads an update to the state's 256 columns. -/
def kZpad : FVec F S256x128 .f32 := broadcast S256x128 (Scalar.ofBits .f32 0x00000000#32)

/-- A half's state advanced: the feature columns by (slice + prepared noise), the others by the pad. -/
def kUpd (xs : FVec F S256x256 .f32) (p : FVec F S256x128 .f32) (n : Vec F S256x128 .f32) (zpad : FVec F S256x128 .f32) :
    FVec F S256x256 .f32 :=
  addf xs (concatenate S256x256 1 [⟨S256x128, addf p n⟩, ⟨S256x128, zpad⟩] concatenates_S256x128_S256x128_S256x256_d1)

/-- A half's prepared noise for the eight steps of a block: sigma·noise, laid out step by step along the columns, plus b3
    repeated for each step. -/
def kNscr (nblk : Vec F S256x8x128 .f32) (b3 : Vec F S1x128 .f32) : FVec F S256x1024 .f32 :=
  addf (mulf (shapeCast S256x1024 nblk shapeCasts_S256x8x128_S256x1024) (broadcast S256x1024 (Scalar.ofBits .f32 0x3C23D70A#32)))
    (broadcastTo S256x1024
      (concatenate S1x1024 1 [⟨S1x128, b3⟩, ⟨S1x128, b3⟩, ⟨S1x128, b3⟩, ⟨S1x128, b3⟩, ⟨S1x128, b3⟩, ⟨S1x128, b3⟩, ⟨S1x128, b3⟩, ⟨S1x128, b3⟩]
        concatenates_S1x128_S1x128_S1x128_S1x128_S1x128_S1x128_S1x128_S1x128_S1x1024_d1)
      broadcasts_S1x1024_S256x1024)

/-- A half's eight recorded predictions: the eight slices stacked along the step axis, plus b3. -/
def kStack (p0 p1 p2 p3 p4 p5 p6 p7 : FVec F S256x128 .f32) (b3 : Vec F S1x128 .f32) : FVec F S256x8x128 .f32 :=
  addf
    (concatenate S256x8x128 1
      [⟨S256x1x128, shapeCast S256x1x128 p0 shapeCasts_S256x128_S256x1x128⟩, ⟨S256x1x128, shapeCast S256x1x128 p1 shapeCasts_S256x128_S256x1x128⟩,
       ⟨S256x1x128, shapeCast S256x1x128 p2 shapeCasts_S256x128_S256x1x128⟩, ⟨S256x1x128, shapeCast S256x1x128 p3 shapeCasts_S256x128_S256x1x128⟩,
       ⟨S256x1x128, shapeCast S256x1x128 p4 shapeCasts_S256x128_S256x1x128⟩, ⟨S256x1x128, shapeCast S256x1x128 p5 shapeCasts_S256x128_S256x1x128⟩,
       ⟨S256x1x128, shapeCast S256x1x128 p6 shapeCasts_S256x128_S256x1x128⟩, ⟨S256x1x128, shapeCast S256x1x128 p7 shapeCasts_S256x128_S256x1x128⟩]
      concatenates_S256x1x128_S256x1x128_S256x1x128_S256x1x128_S256x1x128_S256x1x128_S256x1x128_S256x1x128_S256x8x128_d1)
    (broadcastTo S256x8x128 (shapeCast S1x1x128 b3 shapeCasts_S1x128_S1x1x128) broadcasts_S1x1x128_S256x8x128)

/-- The state the first block starts from: the start rows, a column of ones, zeros. -/
def kInit (x0 : Vec F S512x128 .f32) : FVec F S512x256 .f32 := k0_pay2 x0

/-! ## One block of eight steps, as a recursion on the step

  `kStep` carries the two halves' states; the noise slabs of step `s` are `n0 s`, `n1 s`. -/

section Block

variable (w1a : FVec F S256x256 .f32) (w2 : Vec F S256x256 .f32) (w3 : Vec F S256x128 .f32) (b2bc : FVec F S256x256 .f32)
  (n0 n1 : ℕ → Vec F S256x128 .f32)

/-- The stacked output product from the two halves' states. -/
def kFallOf (xa xb : FVec F S256x256 .f32) : FVec F S512x128 .f32 :=
  kFall w3 (kH2 w1a w2 b2bc xa) (kH2 w1a w2 b2bc xb)

/-- The two halves' states before step `s` of the block, from the states `xa`, `xb` the block starts with. -/
def kX (xa xb : FVec F S256x256 .f32) : ℕ → FVec F S256x256 .f32 × FVec F S256x256 .f32
  | 0 => (xa, xb)
  | s + 1 =>
    (kUpd (kX xa xb s).1 (kP0 (kFallOf w1a w2 w3 b2bc (kX xa xb s).1 (kX xa xb s).2)) (n0 s) kZpad,
     kUpd (kX xa xb s).2 (kP1 (kFallOf w1a w2 w3 b2bc (kX xa xb s).1 (kX xa xb s).2)) (n1 s) kZpad)

/-- The stacked output product at step `s`. -/
def kFA (xa xb : FVec F S256x256 .f32) (s : ℕ) : FVec F S512x128 .f32 :=
  kFallOf w1a w2 w3 b2bc (kX w1a w2 w3 b2bc n0 n1 xa xb s).1 (kX w1a w2 w3 b2bc n0 n1 xa xb s).2

end Block

end Cert.KernelIdeal.KSem

end
-- ==== Proof.KPay1.lean ====
/-
  Each value the kernel body computes, read as a composition of the one-step blocks: preparation and steps 0 to 3.

  The body is eight unrolled rollout steps on two halves of 256 rows. In terms of the blocks — a half's second hidden
  layer kH2, the stacked output product kFA at step s, its two slices kP0 / kP1, the advanced states (kX … s).1 / .2 —
  every intermediate value of the body is one of these at a definite step. Each statement takes the earlier values
  already in that form (the states as (kX … s).1 / .2, a slice as kP0 (kFA … s) / kP1 (kFA … s), a hidden layer as
  kH2 of a state, the noise slab of step s as n0 s / n1 s, the pad as kZpad) and says which block the next value is.
  Both sides repeat the same operations on the same earlier values, so each statement holds by unfolding definitions.
  Applied innermost first, the statements turn a nested expression of the body into that one form.
-/
import proofs.«146222_g2000209494350815_pallasbulk_913_23_alg».proof.Proof.KBlocks

noncomputable section

namespace Cert.KernelIdeal.KSem

open Idealize.ShloMosaic Idealize.SL.Sem Cert.KernelIdeal Cert.KernelIdeal.Gen

variable {F : FTy → Type} [FloatOps F]
variable (n0 n1 : ℕ → Vec F S256x128 .f32)
variable {v4 : FVec F S256x256 .f32} {v5 : Vec F S256x256 .f32} {v6 : Vec F S256x128 .f32} {v9 : FVec F S256x256 .f32}
  {v32 v33 : Vec F S256x256 .f32}

include n0 n1

/-! ## Preparation: the start state, the stacked matrix, the bias block, the prepared noise, the pad -/

/-- The first block's start state: the start rows, a column of ones, zeros. -/
theorem pay2 {x : Vec F S512x128 .f32} :
    k0_pay2 x =
      kInit x := rfl

/-- The stacked first-layer matrix is used as loaded. -/
theorem pay3 {v3 : Vec F S256x256 .f32} :
    k0_pay3 v3 =
      shapeCast S256x256 v3 shapeCasts_S256x256_S256x256 := rfl

/-- The second layer's bias row repeated down the 256 rows. -/
theorem pay4 {v7 : Vec F S1x256 .f32} :
    k0_pay4 v7 =
      broadcastTo S256x256 (shapeCast S1x256 v7 shapeCasts_S1x256_S1x256) broadcasts_S1x256_S256x256 := rfl

/-- The first half's prepared noise: sigma·noise + b3, step by step along the columns. -/
theorem pay5 {v10 : Vec F S256x8x128 .f32} {v14 : Vec F S1x128 .f32} :
    k0_pay5 v10 v14 =
      shapeCast S256x1024 (kNscr v10 v14) shapeCasts_S256x1024_S256x1024 := rfl

/-- The second half's prepared noise. -/
theorem pay6 {v21 : Vec F S256x8x128 .f32} {v25 : Vec F S1x128 .f32} :
    k0_pay6 v21 v25 =
      kNscr v21 v25 := rfl

/-- The second half's prepared noise is stored as computed. -/
theorem pay7 {x : FVec F S256x1024 .f32} :
    k0_pay7 x =
      shapeCast S256x1024 x shapeCasts_S256x1024_S256x1024 := rfl

/-- The zero block that pads an update to 256 columns. -/
theorem pay8 :
    (k0_pay8 : FVec F S256x128 .f32) =
      kZpad := rfl

/-! ## Step 0, from the states the block starts with -/

/-- The stacked output product at step 0. -/
theorem pay9 :
    k0_pay9 v4 v5 v6 v9 v32 v33 =
      (kFA v4 v5 v6 v9 n0 n1 v32 v33 0) := rfl

/-- The first half's slice at step 0. -/
theorem pay10 :
    k0_pay10 v4 v5 v6 v9 v32 v33 =
      (kP0 (kFA v4 v5 v6 v9 n0 n1 v32 v33 0)) := rfl

/-- The first half's state after step 0. -/
theorem pay11 :
    k0_pay11 v4 v5 v6 v9 v32 v33 (n0 0) =
      (kX v4 v5 v6 v9 n0 n1 v32 v33 1).1 := rfl

/-- The second half's slice at step 0. -/
theorem pay12 :
    k0_pay12 v4 v5 v6 v9 v32 v33 =
      (kP1 (kFA v4 v5 v6 v9 n0 n1 v32 v33 0)) := rfl

/-- The second half's state after step 0. -/
theorem pay13 :
    k0_pay13 v4 v5 v6 v9 v32 v33 (n1 0) =
      (kX v4 v5 v6 v9 n0 n1 v32 v33 1).2 := rfl

/-- The first half's second hidden layer at step 1. -/
theorem pay14 :
    k0_pay14 v4 v5 v6 v9 v32 v33 (n0 0) =
      (kH2 v4 v5 v9 (kX v4 v5 v6 v9 n0 n1 v32 v33 1).1) := rfl

/-! ## Steps 1 and 2: the first half's hidden layer at step 1 arrives finished, the second half's state as it is -/

/-- The first half's slice at step 1. -/
theorem pay16 :
    k0_pay16 v4 v5 v6 v9 (kX v4 v5 v6 v9 n0 n1 v32 v33 1).2 (kH2 v4 v5 v9 (kX v4 v5 v6 v9 n0 n1 v32 v33 1).1) =
      (kP0 (kFA v4 v5 v6 v9 n0 n1 v32 v33 1)) := rfl

/-- The second half's slice at step 1. -/
theorem pay18 :
    k0_pay18 v4 v5 v6 v9 (kX v4 v5 v6 v9 n0 n1 v32 v33 1).2 (kH2 v4 v5 v9 (kX v4 v5 v6 v9 n0 n1 v32 v33 1).1) =
      (kP1 (kFA v4 v5 v6 v9 n0 n1 v32 v33 1)) := rfl

/-- The second half's state after step 1. -/
theorem pay19 :
    k0_pay19 v4 v5 v6 v9 kZpad (kX v4 v5 v6 v9 n0 n1 v32 v33 1).2 (kH2 v4 v5 v9 (kX v4 v5 v6 v9 n0 n1 v32 v33 1).1) (n1 1) =
      (kX v4 v5 v6 v9 n0 n1 v32 v33 2).2 := rfl

/-- The stacked output product at step 2. -/
theorem pay20 :
    k0_pay20 v4 v5 v6 v9 kZpad (kX v4 v5 v6 v9 n0 n1 v32 v33 1).1 (kX v4 v5 v6 v9 n0 n1 v32 v33 1).2 (kH2 v4 v5 v9 (kX v4 v5 v6 v9 n0 n1 v32 v33 1).1) (n0 1) (n1 1) =
      (kFA v4 v5 v6 v9 n0 n1 v32 v33 2) := rfl

/-- The first half's slice at step 2. -/
theorem pay21 :
    k0_pay21 v4 v5 v6 v9 kZpad (kX v4 v5 v6 v9 n0 n1 v32 v33 1).1 (kX v4 v5 v6 v9 n0 n1 v32 v33 1).2 (kH2 v4 v5 v9 (kX v4 v5 v6 v9 n0 n1 v32 v33 1).1) (n0 1) (n1 1) =
      (kP0 (kFA v4 v5 v6 v9 n0 n1 v32 v33 2)) := rfl

/-- The first half's state after step 2. -/
theorem pay22 :
    k0_pay22 v4 v5 v6 v9 kZpad (kX v4 v5 v6 v9 n0 n1 v32 v33 1).1 (kX v4 v5 v6 v9 n0 n1 v32 v33 1).2 (kH2 v4 v5 v9 (kX v4 v5 v6 v9 n0 n1 v32 v33 1).1) (n0 1) (n1 1) (n0 2) =
      (kX v4 v5 v6 v9 n0 n1 v32 v33 3).1 := rfl

/-! ## Steps 2 and 3: the stacked product of step 2 arrives whole -/

/-- The second half's slice of a stacked product. -/
theorem pay23 {f : FVec F S512x128 .f32} :
    k0_pay23 f =
      kP1 f := rfl

/-- The first half's slice at step 3. -/
theorem pay26 :
    k0_pay26 v4 v5 v6 v9 kZpad (kX v4 v5 v6 v9 n0 n1 v32 v33 2).2 (kFA v4 v5 v6 v9 n0 n1 v32 v33 2) (kX v4 v5 v6 v9 n0 n1 v32 v33 3).1 (n1 2) =
      (kP0 (kFA v4 v5 v6 v9 n0 n1 v32 v33 3)) := rfl

/-- The first half's state after step 3. -/
theorem pay27 :
    k0_pay27 v4 v5 v6 v9 kZpad (kX v4 v5 v6 v9 n0 n1 v32 v33 2).2 (kFA v4 v5 v6 v9 n0 n1 v32 v33 2) (kX v4 v5 v6 v9 n0 n1 v32 v33 3).1 (n1 2) (n0 3) =
      (kX v4 v5 v6 v9 n0 n1 v32 v33 4).1 := rfl

/-- The second half's slice at step 3. -/
theorem pay28 :
    k0_pay28 v4 v5 v6 v9 kZpad (kX v4 v5 v6 v9 n0 n1 v32 v33 2).2 (kFA v4 v5 v6 v9 n0 n1 v32 v33 2) (kX v4 v5 v6 v9 n0 n1 v32 v33 3).1 (n1 2) =
      (kP1 (kFA v4 v5 v6 v9 n0 n1 v32 v33 3)) := rfl

/-- The second half's state after step 3. -/
theorem pay29 :
    k0_pay29 v4 v5 v6 v9 kZpad (kX v4 v5 v6 v9 n0 n1 v32 v33 2).2 (kFA v4 v5 v6 v9 n0 n1 v32 v33 2) (kX v4 v5 v6 v9 n0 n1 v32 v33 3).1 (n1 2) (n1 3) =
      (kX v4 v5 v6 v9 n0 n1 v32 v33 4).2 := rfl

/-- The first half's second hidden layer at step 4. -/
theorem pay30 :
    k0_pay30 v4 v5 v6 v9 kZpad (kX v4 v5 v6 v9 n0 n1 v32 v33 2).2 (kFA v4 v5 v6 v9 n0 n1 v32 v33 2) (kX v4 v5 v6 v9 n0 n1 v32 v33 3).1 (n1 2) (n0 3) =
      (kH2 v4 v5 v9 (kX v4 v5 v6 v9 n0 n1 v32 v33 4).1) := rfl

/-- The second half's first product at step 4, before its rectifier. -/
theorem pay31 :
    k0_pay31 v4 v5 v6 v9 kZpad (kX v4 v5 v6 v9 n0 n1 v32 v33 2).2 (kFA v4 v5 v6 v9 n0 n1 v32 v33 2) (kX v4 v5 v6 v9 n0 n1 v32 v33 3).1 (n1 2) (n1 3) =
      kM1 v4 (kX v4 v5 v6 v9 n0 n1 v32 v33 4).2 := rfl

end Cert.KernelIdeal.KSem

end
-- ==== Proof.KPay2.lean ====
/-
  Each value the kernel body computes, read as a composition of the one-step blocks: steps 4 to 7 and the outputs.

  The same reading as for steps 0 to 3: every statement takes the earlier values in the one form (states as
  (kX … s).1 / .2, slices as kP0 (kFA … s) / kP1 (kFA … s), a hidden layer as kH2 of a state, the noise slab of step s
  as n0 s / n1 s, the pad as kZpad) and says which block the next value is. Three values arrive half-finished: the
  second half's first product at step 4 before its rectifier (kM1 of its state), its first hidden layer at step 7
  (kRelu of kM1 of its state), and the zeros those rectifiers and products use. A block of eight steps leaves the two
  states after the eighth step, and, for each half, its eight slices stacked along a new step axis with b3 added.
-/
import proofs.«146222_g2000209494350815_pallasbulk_913_23_alg».proof.Proof.KBlocks

noncomputable section

namespace Cert.KernelIdeal.KSem

open Idealize.ShloMosaic Idealize.SL.Sem Cert.KernelIdeal Cert.KernelIdeal.Gen

variable {F : FTy → Type} [FloatOps F]
variable (n0 n1 : ℕ → Vec F S256x128 .f32)
variable {v4 : FVec F S256x256 .f32} {v5 : Vec F S256x256 .f32} {v6 : Vec F S256x128 .f32} {v9 : FVec F S256x256 .f32}
  {v32 v33 : Vec F S256x256 .f32}

include n0 n1

/-! ## Steps 4 and 5: the first half's hidden layer at step 4 arrives finished, the second half's first product before
  its rectifier, and the rectifier's zero as a scalar -/

/-- The first half's slice at step 4. -/
theorem pay33 :
    k0_pay33 v5 v6 v9 (kH2 v4 v5 v9 (kX v4 v5 v6 v9 n0 n1 v32 v33 4).1) (kM1 v4 (kX v4 v5 v6 v9 n0 n1 v32 v33 4).2) (Scalar.ofBits .f32 0x00000000#32) =
      (kP0 (kFA v4 v5 v6 v9 n0 n1 v32 v33 4)) := rfl

/-- The second half's slice at step 4. -/
theorem pay35 :
    k0_pay35 v5 v6 v9 (kH2 v4 v5 v9 (kX v4 v5 v6 v9 n0 n1 v32 v33 4).1) (kM1 v4 (kX v4 v5 v6 v9 n0 n1 v32 v33 4).2) (Scalar.ofBits .f32 0x00000000#32) =
      (kP1 (kFA v4 v5 v6 v9 n0 n1 v32 v33 4)) := rfl

/-- The second half's state after step 4. -/
theorem pay36 :
    k0_pay36 v5 v6 v9 kZpad (kX v4 v5 v6 v9 n0 n1 v32 v33 4).2 (kH2 v4 v5 v9 (kX v4 v5 v6 v9 n0 n1 v32 v33 4).1) (kM1 v4 (kX v4 v5 v6 v9 n0 n1 v32 v33 4).2) (Scalar.ofBits .f32 0x00000000#32) (n1 4) =
      (kX v4 v5 v6 v9 n0 n1 v32 v33 5).2 := rfl

/-- The first half's slice at step 5. -/
theorem pay38 :
    k0_pay38 v4 v5 v6 v9 kZpad (kX v4 v5 v6 v9 n0 n1 v32 v33 4).1 (kX v4 v5 v6 v9 n0 n1 v32 v33 4).2 (kH2 v4 v5 v9 (kX v4 v5 v6 v9 n0 n1 v32 v33 4).1) (kM1 v4 (kX v4 v5 v6 v9 n0 n1 v32 v33 4).2) (Scalar.ofBits .f32 0x00000000#32) (n0 4) (n1 4) =
      (kP0 (kFA v4 v5 v6 v9 n0 n1 v32 v33 5)) := rfl

/-- The first half's state after step 5. -/
theorem pay39 :
    k0_pay39 v4 v5 v6 v9 kZpad (kX v4 v5 v6 v9 n0 n1 v32 v33 4).1 (kX v4 v5 v6 v9 n0 n1 v32 v33 4).2 (kH2 v4 v5 v9 (kX v4 v5 v6 v9 n0 n1 v32 v33 4).1) (kM1 v4 (kX v4 v5 v6 v9 n0 n1 v32 v33 4).2) (Scalar.ofBits .f32 0x00000000#32) (n0 4) (n1 4) (n0 5) =
      (kX v4 v5 v6 v9 n0 n1 v32 v33 6).1 := rfl

/-- The second half's slice at step 5. -/
theorem pay40 :
    k0_pay40 v4 v5 v6 v9 kZpad (kX v4 v5 v6 v9 n0 n1 v32 v33 4).1 (kX v4 v5 v6 v9 n0 n1 v32 v33 4).2 (kH2 v4 v5 v9 (kX v4 v5 v6 v9 n0 n1 v32 v33 4).1) (kM1 v4 (kX v4 v5 v6 v9 n0 n1 v32 v33 4).2) (Scalar.ofBits .f32 0x00000000#32) (n0 4) (n1 4) =
      (kP1 (kFA v4 v5 v6 v9 n0 n1 v32 v33 5)) := rfl

/-! ## Steps 5 and 6: the second half's slice at step 5 arrives cut, its state one step behind -/

/-- The first half's slice at step 6. -/
theorem pay43 :
    k0_pay43 v4 v5 v6 v9 kZpad (kX v4 v5 v6 v9 n0 n1 v32 v33 5).2 (kX v4 v5 v6 v9 n0 n1 v32 v33 6).1 (kP1 (kFA v4 v5 v6 v9 n0 n1 v32 v33 5)) (n1 5) =
      (kP0 (kFA v4 v5 v6 v9 n0 n1 v32 v33 6)) := rfl

/-- The first half's state after step 6. -/
theorem pay44 :
    k0_pay44 v4 v5 v6 v9 kZpad (kX v4 v5 v6 v9 n0 n1 v32 v33 5).2 (kX v4 v5 v6 v9 n0 n1 v32 v33 6).1 (kP1 (kFA v4 v5 v6 v9 n0 n1 v32 v33 5)) (n1 5) (n0 6) =
      (kX v4 v5 v6 v9 n0 n1 v32 v33 7).1 := rfl

/-- The second half's slice at step 6. -/
theorem pay45 :
    k0_pay45 v4 v5 v6 v9 kZpad (kX v4 v5 v6 v9 n0 n1 v32 v33 5).2 (kX v4 v5 v6 v9 n0 n1 v32 v33 6).1 (kP1 (kFA v4 v5 v6 v9 n0 n1 v32 v33 5)) (n1 5) =
      (kP1 (kFA v4 v5 v6 v9 n0 n1 v32 v33 6)) := rfl

/-- The second half's state after step 6. -/
theorem pay46 :
    k0_pay46 v4 v5 v6 v9 kZpad (kX v4 v5 v6 v9 n0 n1 v32 v33 5).2 (kX v4 v5 v6 v9 n0 n1 v32 v33 6).1 (kP1 (kFA v4 v5 v6 v9 n0 n1 v32 v33 5)) (n1 5) (n1 6) =
      (kX v4 v5 v6 v9 n0 n1 v32 v33 7).2 := rfl

/-- The first half's second hidden layer at step 7. -/
theorem pay47 :
    k0_pay47 v4 v5 v6 v9 kZpad (kX v4 v5 v6 v9 n0 n1 v32 v33 5).2 (kX v4 v5 v6 v9 n0 n1 v32 v33 6).1 (kP1 (kFA v4 v5 v6 v9 n0 n1 v32 v33 5)) (n1 5) (n0 6) =
      (kH2 v4 v5 v9 (kX v4 v5 v6 v9 n0 n1 v32 v33 7).1) := rfl

/-- The second half's first hidden layer at step 7. -/
theorem pay48 :
    k0_pay48 v4 v5 v6 v9 kZpad (kX v4 v5 v6 v9 n0 n1 v32 v33 5).2 (kX v4 v5 v6 v9 n0 n1 v32 v33 6).1 (kP1 (kFA v4 v5 v6 v9 n0 n1 v32 v33 5)) (n1 5) (n1 6) =
      kRelu (kM1 v4 (kX v4 v5 v6 v9 n0 n1 v32 v33 7).2) := rfl

/-! ## Step 7 and what the block leaves: the first half's hidden layer arrives finished, the second half's after its
  first rectifier, and the product's zero accumulator as an array -/

/-- The first half's slice at step 7. -/
theorem pay50 :
    k0_pay50 v5 v6 v9 (kH2 v4 v5 v9 (kX v4 v5 v6 v9 n0 n1 v32 v33 7).1) (kRelu (kM1 v4 (kX v4 v5 v6 v9 n0 n1 v32 v33 7).2)) (constant S256x256 .f32 0x00000000#32) =
      (kP0 (kFA v4 v5 v6 v9 n0 n1 v32 v33 7)) := rfl

/-- The second half's slice at step 7. -/
theorem pay51 :
    k0_pay51 v5 v6 v9 (kH2 v4 v5 v9 (kX v4 v5 v6 v9 n0 n1 v32 v33 7).1) (kRelu (kM1 v4 (kX v4 v5 v6 v9 n0 n1 v32 v33 7).2)) (constant S256x256 .f32 0x00000000#32) =
      (kP1 (kFA v4 v5 v6 v9 n0 n1 v32 v33 7)) := rfl

/-- The first half's state after the eighth step, as stored. -/
theorem pay52 :
    k0_pay52 v5 v6 v9 kZpad (kX v4 v5 v6 v9 n0 n1 v32 v33 7).1 (kH2 v4 v5 v9 (kX v4 v5 v6 v9 n0 n1 v32 v33 7).1) (kRelu (kM1 v4 (kX v4 v5 v6 v9 n0 n1 v32 v33 7).2)) (constant S256x256 .f32 0x00000000#32) (n0 7) =
      shapeCast S256x256 (kX v4 v5 v6 v9 n0 n1 v32 v33 8).1 shapeCasts_S256x256_S256x256 := rfl

/-- The second half's state after the eighth step, as stored. -/
theorem pay54 :
    k0_pay54 v5 v6 v9 kZpad (kX v4 v5 v6 v9 n0 n1 v32 v33 7).2 (kH2 v4 v5 v9 (kX v4 v5 v6 v9 n0 n1 v32 v33 7).1) (kRelu (kM1 v4 (kX v4 v5 v6 v9 n0 n1 v32 v33 7).2)) (constant S256x256 .f32 0x00000000#32) (n1 7) =
      shapeCast S256x256 (kX v4 v5 v6 v9 n0 n1 v32 v33 8).2 shapeCasts_S256x256_S256x256 := rfl

/-- The first half's eight recorded predictions: seven earlier slices and the slice of step 7, stacked, plus b3. -/
theorem pay53 {p0 p1 p2 p3 p4 p5 p6 : FVec F S256x128 .f32} {b3 : Vec F S1x128 .f32} :
    k0_pay53 v5 v6 v9 p0 p1 p2 p3 p4 p5 p6 (kH2 v4 v5 v9 (kX v4 v5 v6 v9 n0 n1 v32 v33 7).1) (kRelu (kM1 v4 (kX v4 v5 v6 v9 n0 n1 v32 v33 7).2)) (constant S256x256 .f32 0x00000000#32) b3 =
      kStack p0 p1 p2 p3 p4 p5 p6 (kP0 (kFA v4 v5 v6 v9 n0 n1 v32 v33 7)) b3 := rfl

/-- A slice given a unit step axis (the second half's, step 0). -/
theorem pay55 {p : FVec F S256x128 .f32} :
    k0_pay55 p =
      shapeCast S256x1x128 p shapeCasts_S256x128_S256x1x128 := rfl

/-- A slice given a unit step axis (the second half's, step 1). -/
theorem pay56 {p : FVec F S256x128 .f32} :
    k0_pay56 p =
      shapeCast S256x1x128 p shapeCasts_S256x128_S256x1x128 := rfl

/-- A slice given a unit step axis (the second half's, step 2). -/
theorem pay57 {p : FVec F S256x128 .f32} :
    k0_pay57 p =
      shapeCast S256x1x128 p shapeCasts_S256x128_S256x1x128 := rfl

/-- A slice given a unit step axis (the second half's, step 3). -/
theorem pay58 {p : FVec F S256x128 .f32} :
    k0_pay58 p =
      shapeCast S256x1x128 p shapeCasts_S256x128_S256x1x128 := rfl

/-- A slice given a unit step axis (the second half's, step 4). -/
theorem pay59 {p : FVec F S256x128 .f32} :
    k0_pay59 p =
      shapeCast S256x1x128 p shapeCasts_S256x128_S256x1x128 := rfl

/-- A slice given a unit step axis (the second half's, step 5). -/
theorem pay60 {p : FVec F S256x128 .f32} :
    k0_pay60 p =
      shapeCast S256x1x128 p shapeCasts_S256x128_S256x1x128 := rfl

/-- The second half's eight recorded predictions: six slices already given a unit step axis and two not yet, stacked, plus b3. -/
theorem pay1 {p0 p1 p2 p3 p4 p5 p6 p7 : FVec F S256x128 .f32} {b3 : Vec F S1x128 .f32} :
    k0_pay1 p6 p7 (shapeCast S256x1x128 p0 shapeCasts_S256x128_S256x1x128) (shapeCast S256x1x128 p1 shapeCasts_S256x128_S256x1x128) (shapeCast S256x1x128 p2 shapeCasts_S256x128_S256x1x128) (shapeCast S256x1x128 p3 shapeCasts_S256x128_S256x1x128) (shapeCast S256x1x128 p4 shapeCasts_S256x128_S256x1x128) (shapeCast S256x1x128 p5 shapeCasts_S256x128_S256x1x128) b3 =
      kStack p0 p1 p2 p3 p4 p5 p6 p7 b3 := rfl

end Cert.KernelIdeal.KSem

end
-- ==== Proof.KILists.lean ====
/-
  What the kernel body's stores are, in terms of the one-step blocks.

  The run of the body finds the pieces it stores as nested expressions of the body's named values. Reading the loads of
  whole input blocks as the blocks themselves, the loads of the carried state as its two halves, and the sixteen loads of
  prepared-noise slabs as the values `n0 s`, `n1 s` of two functions of the step, those expressions are — by the
  syntactic lemmas on the named values — the halves' stacked predictions and the halves' states after eight steps.
-/
import proofs.«146222_g2000209494350815_pallasbulk_913_23_alg».proof.Proof.KIRunA
import proofs.«146222_g2000209494350815_pallasbulk_913_23_alg».proof.Proof.KIRunB
import proofs.«146222_g2000209494350815_pallasbulk_913_23_alg».proof.Proof.KPay1
import proofs.«146222_g2000209494350815_pallasbulk_913_23_alg».proof.Proof.KPay2
import Idealize.ShloMosaic.Lib.Pipeline.Value

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen Cert.KernelIdeal.KSem

variable {F : FTy → Type} [FloatOps F]

theorem hz2 : (![0, 0] : Fin 2 → Nat) = fun _ => 0 := by funext a; fin_cases a <;> rfl
theorem hz3 : (![0, 0, 0] : Fin 3 → Nat) = fun _ => 0 := by funext a; fin_cases a <;> rfl

set_option maxHeartbeats 4000000 in
/-- The later point's stores, in block form: the output block's two halves are the halves' eight stacked predictions,
    the state scratch's two halves the halves' states after eight steps. -/
theorem lists_B (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : ¬cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) (xs1 : Vec F S512x256 .f32) (n0 n1 : ℕ → Vec F S256x128 .f32)
    (h00 : n0 0 = kernelRun0_B.sl.v52 c arg2 harg2 arg3 harg3 arg4 harg4 arg5 harg5 arg6 harg6 arg7 harg7 arg9 x1 x2 x3 x4 x5 x6) (h01 : n0 1 = kernelRun0_B.sl.v78 c arg2 harg2 arg3 harg3 arg4 harg4 arg5 harg5 arg6 harg6 arg7 harg7 arg9 x1 x2 x3 x4 x5 x6) (h02 : n0 2 = kernelRun0_B.sl.v104 c arg2 harg2 arg3 harg3 arg4 harg4 arg5 harg5 arg6 harg6 arg7 harg7 arg9 x1 x2 x3 x4 x5 x6) (h03 : n0 3 = kernelRun0_B.sl.v130 c arg2 harg2 arg3 harg3 arg4 harg4 arg5 harg5 arg6 harg6 arg7 harg7 arg9 x1 x2 x3 x4 x5 x6) (h04 : n0 4 = kernelRun0_B.sl.v156 c arg2 harg2 arg3 harg3 arg4 harg4 arg5 harg5 arg6 harg6 arg7 harg7 arg9 x1 x2 x3 x4 x5 x6) (h05 : n0 5 = kernelRun0_B.sl.v182 c arg2 harg2 arg3 harg3 arg4 harg4 arg5 harg5 arg6 harg6 arg7 harg7 arg9 x1 x2 x3 x4 x5 x6) (h06 : n0 6 = kernelRun0_B.sl.v208 c arg2 harg2 arg3 harg3 arg4 harg4 arg5 harg5 arg6 harg6 arg7 harg7 arg9 x1 x2 x3 x4 x5 x6) (h07 : n0 7 = kernelRun0_B.sl.v234 c arg2 harg2 arg3 harg3 arg4 harg4 arg5 harg5 arg6 harg6 arg7 harg7 arg9 x1 x2 x3 x4 x5 x6)
    (h10 : n1 0 = kernelRun0_B.sl.v57 c arg2 harg2 arg3 harg3 arg4 harg4 arg5 harg5 arg6 harg6 arg7 harg7 arg9 x1 x2 x3 x4 x5 x6) (h11 : n1 1 = kernelRun0_B.sl.v83 c arg2 harg2 arg3 harg3 arg4 harg4 arg5 harg5 arg6 harg6 arg7 harg7 arg9 x1 x2 x3 x4 x5 x6) (h12 : n1 2 = kernelRun0_B.sl.v109 c arg2 harg2 arg3 harg3 arg4 harg4 arg5 harg5 arg6 harg6 arg7 harg7 arg9 x1 x2 x3 x4 x5 x6) (h13 : n1 3 = kernelRun0_B.sl.v135 c arg2 harg2 arg3 harg3 arg4 harg4 arg5 harg5 arg6 harg6 arg7 harg7 arg9 x1 x2 x3 x4 x5 x6) (h14 : n1 4 = kernelRun0_B.sl.v161 c arg2 harg2 arg3 harg3 arg4 harg4 arg5 harg5 arg6 harg6 arg7 harg7 arg9 x1 x2 x3 x4 x5 x6) (h15 : n1 5 = kernelRun0_B.sl.v187 c arg2 harg2 arg3 harg3 arg4 harg4 arg5 harg5 arg6 harg6 arg7 harg7 arg9 x1 x2 x3 x4 x5 x6) (h16 : n1 6 = kernelRun0_B.sl.v213 c arg2 harg2 arg3 harg3 arg4 harg4 arg5 harg5 arg6 harg6 arg7 harg7 arg9 x1 x2 x3 x4 x5 x6) (h17 : n1 7 = kernelRun0_B.sl.v239 c arg2 harg2 arg3 harg3 arg4 harg4 arg5 harg5 arg6 harg6 arg7 harg7 arg9 x1 x2 x3 x4 x5 x6) :
    (kernelRun0_B c i arg1 harg1 arg2 harg2 arg3 harg3 arg4 harg4 arg5 harg5 arg6 harg6 arg7 harg7 arg8 harg8 arg9 harg9 arg10 harg10 hc0 x0 x1 x2 x3 x4 x5 x6 xs1).1
        = [⟨(Rect.unit (s := S512x8x128) ![256, 0, 0] S256x8x128.size inb_S512x8x128_S256x8x128_256_0_0), kStack (kP1 (kFA (k0_pay3 x2) x3 x5 (k0_pay4 x4) n0 n1 (View.ld xs1 (Rect.unit (s := S512x256) ![0, 0] S256x256.size inb_S512x256_S256x256_0_0)) (View.ld xs1 (Rect.unit (s := S512x256) ![256, 0] S256x256.size inb_S512x256_S256x256_256_0)) 0)) (kP1 (kFA (k0_pay3 x2) x3 x5 (k0_pay4 x4) n0 n1 (View.ld xs1 (Rect.unit (s := S512x256) ![0, 0] S256x256.size inb_S512x256_S256x256_0_0)) (View.ld xs1 (Rect.unit (s := S512x256) ![256, 0] S256x256.size inb_S512x256_S256x256_256_0)) 1)) (kP1 (kFA (k0_pay3 x2) x3 x5 (k0_pay4 x4) n0 n1 (View.ld xs1 (Rect.unit (s := S512x256) ![0, 0] S256x256.size inb_S512x256_S256x256_0_0)) (View.ld xs1 (Rect.unit (s := S512x256) ![256, 0] S256x256.size inb_S512x256_S256x256_256_0)) 2)) (kP1 (kFA (k0_pay3 x2) x3 x5 (k0_pay4 x4) n0 n1 (View.ld xs1 (Rect.unit (s := S512x256) ![0, 0] S256x256.size inb_S512x256_S256x256_0_0)) (View.ld xs1 (Rect.unit (s := S512x256) ![256, 0] S256x256.size inb_S512x256_S256x256_256_0)) 3)) (kP1 (kFA (k0_pay3 x2) x3 x5 (k0_pay4 x4) n0 n1 (View.ld xs1 (Rect.unit (s := S512x256) ![0, 0] S256x256.size inb_S512x256_S256x256_0_0)) (View.ld xs1 (Rect.unit (s := S512x256) ![256, 0] S256x256.size inb_S512x256_S256x256_256_0)) 4)) (kP1 (kFA (k0_pay3 x2) x3 x5 (k0_pay4 x4) n0 n1 (View.ld xs1 (Rect.unit (s := S512x256) ![0, 0] S256x256.size inb_S512x256_S256x256_0_0)) (View.ld xs1 (Rect.unit (s := S512x256) ![256, 0] S256x256.size inb_S512x256_S256x256_256_0)) 5)) (kP1 (kFA (k0_pay3 x2) x3 x5 (k0_pay4 x4) n0 n1 (View.ld xs1 (Rect.unit (s := S512x256) ![0, 0] S256x256.size inb_S512x256_S256x256_0_0)) (View.ld xs1 (Rect.unit (s := S512x256) ![256, 0] S256x256.size inb_S512x256_S256x256_256_0)) 6)) (kP1 (kFA (k0_pay3 x2) x3 x5 (k0_pay4 x4) n0 n1 (View.ld xs1 (Rect.unit (s := S512x256) ![0, 0] S256x256.size inb_S512x256_S256x256_0_0)) (View.ld xs1 (Rect.unit (s := S512x256) ![256, 0] S256x256.size inb_S512x256_S256x256_256_0)) 7)) x6⟩,
           ⟨(Rect.unit (s := S512x8x128) ![0, 0, 0] S256x8x128.size inb_S512x8x128_S256x8x128_0_0_0), kStack (kP0 (kFA (k0_pay3 x2) x3 x5 (k0_pay4 x4) n0 n1 (View.ld xs1 (Rect.unit (s := S512x256) ![0, 0] S256x256.size inb_S512x256_S256x256_0_0)) (View.ld xs1 (Rect.unit (s := S512x256) ![256, 0] S256x256.size inb_S512x256_S256x256_256_0)) 0)) (kP0 (kFA (k0_pay3 x2) x3 x5 (k0_pay4 x4) n0 n1 (View.ld xs1 (Rect.unit (s := S512x256) ![0, 0] S256x256.size inb_S512x256_S256x256_0_0)) (View.ld xs1 (Rect.unit (s := S512x256) ![256, 0] S256x256.size inb_S512x256_S256x256_256_0)) 1)) (kP0 (kFA (k0_pay3 x2) x3 x5 (k0_pay4 x4) n0 n1 (View.ld xs1 (Rect.unit (s := S512x256) ![0, 0] S256x256.size inb_S512x256_S256x256_0_0)) (View.ld xs1 (Rect.unit (s := S512x256) ![256, 0] S256x256.size inb_S512x256_S256x256_256_0)) 2)) (kP0 (kFA (k0_pay3 x2) x3 x5 (k0_pay4 x4) n0 n1 (View.ld xs1 (Rect.unit (s := S512x256) ![0, 0] S256x256.size inb_S512x256_S256x256_0_0)) (View.ld xs1 (Rect.unit (s := S512x256) ![256, 0] S256x256.size inb_S512x256_S256x256_256_0)) 3)) (kP0 (kFA (k0_pay3 x2) x3 x5 (k0_pay4 x4) n0 n1 (View.ld xs1 (Rect.unit (s := S512x256) ![0, 0] S256x256.size inb_S512x256_S256x256_0_0)) (View.ld xs1 (Rect.unit (s := S512x256) ![256, 0] S256x256.size inb_S512x256_S256x256_256_0)) 4)) (kP0 (kFA (k0_pay3 x2) x3 x5 (k0_pay4 x4) n0 n1 (View.ld xs1 (Rect.unit (s := S512x256) ![0, 0] S256x256.size inb_S512x256_S256x256_0_0)) (View.ld xs1 (Rect.unit (s := S512x256) ![256, 0] S256x256.size inb_S512x256_S256x256_256_0)) 5)) (kP0 (kFA (k0_pay3 x2) x3 x5 (k0_pay4 x4) n0 n1 (View.ld xs1 (Rect.unit (s := S512x256) ![0, 0] S256x256.size inb_S512x256_S256x256_0_0)) (View.ld xs1 (Rect.unit (s := S512x256) ![256, 0] S256x256.size inb_S512x256_S256x256_256_0)) 6)) (kP0 (kFA (k0_pay3 x2) x3 x5 (k0_pay4 x4) n0 n1 (View.ld xs1 (Rect.unit (s := S512x256) ![0, 0] S256x256.size inb_S512x256_S256x256_0_0)) (View.ld xs1 (Rect.unit (s := S512x256) ![256, 0] S256x256.size inb_S512x256_S256x256_256_0)) 7)) x6⟩]
      ∧ (kernelRun0_B c i arg1 harg1 arg2 harg2 arg3 harg3 arg4 harg4 arg5 harg5 arg6 harg6 arg7 harg7 arg8 harg8 arg9 harg9 arg10 harg10 hc0 x0 x1 x2 x3 x4 x5 x6 xs1).2.2.1
        = [⟨(Rect.unit (s := S512x256) ![256, 0] S256x256.size inb_S512x256_S256x256_256_0), shapeCast S256x256 (kX (k0_pay3 x2) x3 x5 (k0_pay4 x4) n0 n1 (View.ld xs1 (Rect.unit (s := S512x256) ![0, 0] S256x256.size inb_S512x256_S256x256_0_0)) (View.ld xs1 (Rect.unit (s := S512x256) ![256, 0] S256x256.size inb_S512x256_S256x256_256_0)) 8).2 shapeCasts_S256x256_S256x256⟩,
           ⟨(Rect.unit (s := S512x256) ![0, 0] S256x256.size inb_S512x256_S256x256_0_0), shapeCast S256x256 (kX (k0_pay3 x2) x3 x5 (k0_pay4 x4) n0 n1 (View.ld xs1 (Rect.unit (s := S512x256) ![0, 0] S256x256.size inb_S512x256_S256x256_0_0)) (View.ld xs1 (Rect.unit (s := S512x256) ![256, 0] S256x256.size inb_S512x256_S256x256_256_0)) 8).1 shapeCasts_S256x256_S256x256⟩] := by
  unfold kernelRun0_B
  dsimp only
  rw [← h00, ← h01, ← h02, ← h03, ← h04, ← h05, ← h06, ← h07, ← h10, ← h11, ← h12, ← h13, ← h14, ← h15, ← h16, ← h17]
  simp only [View.readAt_eq_ld, harg1.read_unread, harg2.read_unread, harg3.read_unread, harg4.read_unread, harg5.read_unread, harg6.read_unread, harg7.read_unread, harg10.read_unread,
    View.ld_unit_zero (S := S512x128) hz2, View.ld_unit_zero (S := S256x256) hz2, View.ld_unit_zero (S := S1x256) hz2, View.ld_unit_zero (S := S256x128) hz2, View.ld_unit_zero (S := S1x128) hz2]
  simp only [pay2 n0 n1, pay8 n0 n1, pay10 n0 n1, pay11 n0 n1, pay12 n0 n1, pay13 n0 n1, pay14 n0 n1, pay16 n0 n1, pay18 n0 n1, pay19 n0 n1, pay20 n0 n1, pay21 n0 n1, pay22 n0 n1, pay23 n0 n1, pay26 n0 n1, pay27 n0 n1, pay28 n0 n1, pay29 n0 n1, pay30 n0 n1, pay31 n0 n1, pay33 n0 n1, pay35 n0 n1, pay36 n0 n1, pay38 n0 n1, pay39 n0 n1, pay40 n0 n1, pay43 n0 n1, pay44 n0 n1, pay45 n0 n1, pay46 n0 n1, pay47 n0 n1, pay48 n0 n1, pay50 n0 n1, pay51 n0 n1, pay52 n0 n1, pay53 n0 n1, pay54 n0 n1, pay55 n0 n1, pay56 n0 n1, pay57 n0 n1, pay58 n0 n1, pay59 n0 n1, pay60 n0 n1, pay1 n0 n1]
  exact ⟨trivial, trivial⟩

set_option maxHeartbeats 4000000 in
/-- The first point's stores, in block form: the output block's two halves are the halves' eight stacked predictions,
    the state scratch's two halves the halves' states after eight steps (under them the first point's whole-buffer store of the start state). -/
theorem lists_A (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) (n0 n1 : ℕ → Vec F S256x128 .f32)
    (h00 : n0 0 = kernelRun0_A.sl.v52 c arg2 harg2 arg3 harg3 arg4 harg4 arg5 harg5 arg6 harg6 arg7 harg7 arg9 x1 x2 x3 x4 x5 x6) (h01 : n0 1 = kernelRun0_A.sl.v78 c arg2 harg2 arg3 harg3 arg4 harg4 arg5 harg5 arg6 harg6 arg7 harg7 arg9 x1 x2 x3 x4 x5 x6) (h02 : n0 2 = kernelRun0_A.sl.v104 c arg2 harg2 arg3 harg3 arg4 harg4 arg5 harg5 arg6 harg6 arg7 harg7 arg9 x1 x2 x3 x4 x5 x6) (h03 : n0 3 = kernelRun0_A.sl.v130 c arg2 harg2 arg3 harg3 arg4 harg4 arg5 harg5 arg6 harg6 arg7 harg7 arg9 x1 x2 x3 x4 x5 x6) (h04 : n0 4 = kernelRun0_A.sl.v156 c arg2 harg2 arg3 harg3 arg4 harg4 arg5 harg5 arg6 harg6 arg7 harg7 arg9 x1 x2 x3 x4 x5 x6) (h05 : n0 5 = kernelRun0_A.sl.v182 c arg2 harg2 arg3 harg3 arg4 harg4 arg5 harg5 arg6 harg6 arg7 harg7 arg9 x1 x2 x3 x4 x5 x6) (h06 : n0 6 = kernelRun0_A.sl.v208 c arg2 harg2 arg3 harg3 arg4 harg4 arg5 harg5 arg6 harg6 arg7 harg7 arg9 x1 x2 x3 x4 x5 x6) (h07 : n0 7 = kernelRun0_A.sl.v234 c arg2 harg2 arg3 harg3 arg4 harg4 arg5 harg5 arg6 harg6 arg7 harg7 arg9 x1 x2 x3 x4 x5 x6)
    (h10 : n1 0 = kernelRun0_A.sl.v57 c arg2 harg2 arg3 harg3 arg4 harg4 arg5 harg5 arg6 harg6 arg7 harg7 arg9 x1 x2 x3 x4 x5 x6) (h11 : n1 1 = kernelRun0_A.sl.v83 c arg2 harg2 arg3 harg3 arg4 harg4 arg5 harg5 arg6 harg6 arg7 harg7 arg9 x1 x2 x3 x4 x5 x6) (h12 : n1 2 = kernelRun0_A.sl.v109 c arg2 harg2 arg3 harg3 arg4 harg4 arg5 harg5 arg6 harg6 arg7 harg7 arg9 x1 x2 x3 x4 x5 x6) (h13 : n1 3 = kernelRun0_A.sl.v135 c arg2 harg2 arg3 harg3 arg4 harg4 arg5 harg5 arg6 harg6 arg7 harg7 arg9 x1 x2 x3 x4 x5 x6) (h14 : n1 4 = kernelRun0_A.sl.v161 c arg2 harg2 arg3 harg3 arg4 harg4 arg5 harg5 arg6 harg6 arg7 harg7 arg9 x1 x2 x3 x4 x5 x6) (h15 : n1 5 = kernelRun0_A.sl.v187 c arg2 harg2 arg3 harg3 arg4 harg4 arg5 harg5 arg6 harg6 arg7 harg7 arg9 x1 x2 x3 x4 x5 x6) (h16 : n1 6 = kernelRun0_A.sl.v213 c arg2 harg2 arg3 harg3 arg4 harg4 arg5 harg5 arg6 harg6 arg7 harg7 arg9 x1 x2 x3 x4 x5 x6) (h17 : n1 7 = kernelRun0_A.sl.v239 c arg2 harg2 arg3 harg3 arg4 harg4 arg5 harg5 arg6 harg6 arg7 harg7 arg9 x1 x2 x3 x4 x5 x6) :
    (kernelRun0_A c i arg1 harg1 arg2 harg2 arg3 harg3 arg4 harg4 arg5 harg5 arg6 harg6 arg7 harg7 arg8 harg8 arg9 harg9 arg10 harg10 hc0 x0 x1 x2 x3 x4 x5 x6).1
        = [⟨(Rect.unit (s := S512x8x128) ![256, 0, 0] S256x8x128.size inb_S512x8x128_S256x8x128_256_0_0), kStack (kP1 (kFA (k0_pay3 x2) x3 x5 (k0_pay4 x4) n0 n1 (kernelRun0_A.sl.v32 c arg1 harg1 arg10 x0) (kernelRun0_A.sl.v33 c arg1 harg1 arg10 x0) 0)) (kP1 (kFA (k0_pay3 x2) x3 x5 (k0_pay4 x4) n0 n1 (kernelRun0_A.sl.v32 c arg1 harg1 arg10 x0) (kernelRun0_A.sl.v33 c arg1 harg1 arg10 x0) 1)) (kP1 (kFA (k0_pay3 x2) x3 x5 (k0_pay4 x4) n0 n1 (kernelRun0_A.sl.v32 c arg1 harg1 arg10 x0) (kernelRun0_A.sl.v33 c arg1 harg1 arg10 x0) 2)) (kP1 (kFA (k0_pay3 x2) x3 x5 (k0_pay4 x4) n0 n1 (kernelRun0_A.sl.v32 c arg1 harg1 arg10 x0) (kernelRun0_A.sl.v33 c arg1 harg1 arg10 x0) 3)) (kP1 (kFA (k0_pay3 x2) x3 x5 (k0_pay4 x4) n0 n1 (kernelRun0_A.sl.v32 c arg1 harg1 arg10 x0) (kernelRun0_A.sl.v33 c arg1 harg1 arg10 x0) 4)) (kP1 (kFA (k0_pay3 x2) x3 x5 (k0_pay4 x4) n0 n1 (kernelRun0_A.sl.v32 c arg1 harg1 arg10 x0) (kernelRun0_A.sl.v33 c arg1 harg1 arg10 x0) 5)) (kP1 (kFA (k0_pay3 x2) x3 x5 (k0_pay4 x4) n0 n1 (kernelRun0_A.sl.v32 c arg1 harg1 arg10 x0) (kernelRun0_A.sl.v33 c arg1 harg1 arg10 x0) 6)) (kP1 (kFA (k0_pay3 x2) x3 x5 (k0_pay4 x4) n0 n1 (kernelRun0_A.sl.v32 c arg1 harg1 arg10 x0) (kernelRun0_A.sl.v33 c arg1 harg1 arg10 x0) 7)) x6⟩,
           ⟨(Rect.unit (s := S512x8x128) ![0, 0, 0] S256x8x128.size inb_S512x8x128_S256x8x128_0_0_0), kStack (kP0 (kFA (k0_pay3 x2) x3 x5 (k0_pay4 x4) n0 n1 (kernelRun0_A.sl.v32 c arg1 harg1 arg10 x0) (kernelRun0_A.sl.v33 c arg1 harg1 arg10 x0) 0)) (kP0 (kFA (k0_pay3 x2) x3 x5 (k0_pay4 x4) n0 n1 (kernelRun0_A.sl.v32 c arg1 harg1 arg10 x0) (kernelRun0_A.sl.v33 c arg1 harg1 arg10 x0) 1)) (kP0 (kFA (k0_pay3 x2) x3 x5 (k0_pay4 x4) n0 n1 (kernelRun0_A.sl.v32 c arg1 harg1 arg10 x0) (kernelRun0_A.sl.v33 c arg1 harg1 arg10 x0) 2)) (kP0 (kFA (k0_pay3 x2) x3 x5 (k0_pay4 x4) n0 n1 (kernelRun0_A.sl.v32 c arg1 harg1 arg10 x0) (kernelRun0_A.sl.v33 c arg1 harg1 arg10 x0) 3)) (kP0 (kFA (k0_pay3 x2) x3 x5 (k0_pay4 x4) n0 n1 (kernelRun0_A.sl.v32 c arg1 harg1 arg10 x0) (kernelRun0_A.sl.v33 c arg1 harg1 arg10 x0) 4)) (kP0 (kFA (k0_pay3 x2) x3 x5 (k0_pay4 x4) n0 n1 (kernelRun0_A.sl.v32 c arg1 harg1 arg10 x0) (kernelRun0_A.sl.v33 c arg1 harg1 arg10 x0) 5)) (kP0 (kFA (k0_pay3 x2) x3 x5 (k0_pay4 x4) n0 n1 (kernelRun0_A.sl.v32 c arg1 harg1 arg10 x0) (kernelRun0_A.sl.v33 c arg1 harg1 arg10 x0) 6)) (kP0 (kFA (k0_pay3 x2) x3 x5 (k0_pay4 x4) n0 n1 (kernelRun0_A.sl.v32 c arg1 harg1 arg10 x0) (kernelRun0_A.sl.v33 c arg1 harg1 arg10 x0) 7)) x6⟩]
      ∧ (kernelRun0_A c i arg1 harg1 arg2 harg2 arg3 harg3 arg4 harg4 arg5 harg5 arg6 harg6 arg7 harg7 arg8 harg8 arg9 harg9 arg10 harg10 hc0 x0 x1 x2 x3 x4 x5 x6).2.2.1
        = (⟨(Rect.unit (s := S512x256) ![256, 0] S256x256.size inb_S512x256_S256x256_256_0), shapeCast S256x256 (kX (k0_pay3 x2) x3 x5 (k0_pay4 x4) n0 n1 (kernelRun0_A.sl.v32 c arg1 harg1 arg10 x0) (kernelRun0_A.sl.v33 c arg1 harg1 arg10 x0) 8).2 shapeCasts_S256x256_S256x256⟩ ::
           ⟨(Rect.unit (s := S512x256) ![0, 0] S256x256.size inb_S512x256_S256x256_0_0), shapeCast S256x256 (kX (k0_pay3 x2) x3 x5 (k0_pay4 x4) n0 n1 (kernelRun0_A.sl.v32 c arg1 harg1 arg10 x0) (kernelRun0_A.sl.v33 c arg1 harg1 arg10 x0) 8).1 shapeCasts_S256x256_S256x256⟩ :: kernelRun0_A.sl.HS1_1 c arg1 harg1 x0 : List (View.Piece (Elt F) S512x256 .f32)) := by
  unfold kernelRun0_A
  dsimp only
  rw [← h00, ← h01, ← h02, ← h03, ← h04, ← h05, ← h06, ← h07, ← h10, ← h11, ← h12, ← h13, ← h14, ← h15, ← h16, ← h17]
  simp only [View.readAt_eq_ld, harg1.read_unread, harg2.read_unread, harg3.read_unread, harg4.read_unread, harg5.read_unread, harg6.read_unread, harg7.read_unread,
    View.ld_unit_zero (S := S512x128) hz2, View.ld_unit_zero (S := S256x256) hz2, View.ld_unit_zero (S := S1x256) hz2, View.ld_unit_zero (S := S256x128) hz2, View.ld_unit_zero (S := S1x128) hz2]
  simp only [pay2 n0 n1, pay8 n0 n1, pay10 n0 n1, pay11 n0 n1, pay12 n0 n1, pay13 n0 n1, pay14 n0 n1, pay16 n0 n1, pay18 n0 n1, pay19 n0 n1, pay20 n0 n1, pay21 n0 n1, pay22 n0 n1, pay23 n0 n1, pay26 n0 n1, pay27 n0 n1, pay28 n0 n1, pay29 n0 n1, pay30 n0 n1, pay31 n0 n1, pay33 n0 n1, pay35 n0 n1, pay36 n0 n1, pay38 n0 n1, pay39 n0 n1, pay40 n0 n1, pay43 n0 n1, pay44 n0 n1, pay45 n0 n1, pay46 n0 n1, pay47 n0 n1, pay48 n0 n1, pay50 n0 n1, pay51 n0 n1, pay52 n0 n1, pay53 n0 n1, pay54 n0 n1, pay55 n0 n1, pay56 n0 n1, pay57 n0 n1, pay58 n0 n1, pay59 n0 n1, pay60 n0 n1, pay1 n0 n1]
  exact ⟨trivial, trivial⟩

/-! ## The prepared-noise scratch: its two stores, and the sixteen slab loads as reads of them -/

/-- The two stores into the prepared-noise scratch are the two halves' prepared noise. -/
theorem HS0_A (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) (n0 n1 : ℕ → Vec F S256x128 .f32) :
    kernelRun0_A.sl.HS0_2 c arg2 harg2 arg3 harg3 arg4 harg4 arg5 harg5 arg6 harg6 arg7 harg7 x1 x2 x3 x4 x5 x6
      = [⟨Rect.unit (s := S512x1024) ![256, 0] S256x1024.size inb_S512x1024_S256x1024_256_0,
            shapeCast S256x1024 (kNscr (View.ld x1 (Rect.unit (s := S512x8x128) ![256, 0, 0] S256x8x128.size inb_S512x8x128_S256x8x128_256_0_0)) x6) shapeCasts_S256x1024_S256x1024⟩,
         ⟨Rect.unit (s := S512x1024) ![0, 0] S256x1024.size inb_S512x1024_S256x1024_0_0,
            shapeCast S256x1024 (kNscr (View.ld x1 (Rect.unit (s := S512x8x128) ![0, 0, 0] S256x8x128.size inb_S512x8x128_S256x8x128_0_0_0)) x6) shapeCasts_S256x1024_S256x1024⟩] := by
  unfold kernelRun0_A.sl.HS0_2
  dsimp only
  simp only [View.readAt_eq_ld, harg2.read_unread, harg7.read_unread, View.ld_unit_zero (S := S1x128) hz2]
  simp only [pay5 n0 n1, pay6 n0 n1, pay7 n0 n1]
theorem slab_A_0_0 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_A.sl.v52 c arg2 harg2 arg3 harg3 arg4 harg4 arg5 harg5 arg6 harg6 arg7 harg7 arg9 x1 x2 x3 x4 x5 x6
      = fun j => View.canon (kernelRun0_A.sl.HS0_2 c arg2 harg2 arg3 harg3 arg4 harg4 arg5 harg5 arg6 harg6 arg7 harg7 x1 x2 x3 x4 x5 x6) ((Rect.unit (s := S512x1024) ![0, 0] S256x128.size inb_S512x1024_S256x128_0_0).toLoadRect.idx j) :=
  View.readCov_eq_canon' _ _ _
theorem slab_A_0_1 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_A.sl.v78 c arg2 harg2 arg3 harg3 arg4 harg4 arg5 harg5 arg6 harg6 arg7 harg7 arg9 x1 x2 x3 x4 x5 x6
      = fun j => View.canon (kernelRun0_A.sl.HS0_2 c arg2 harg2 arg3 harg3 arg4 harg4 arg5 harg5 arg6 harg6 arg7 harg7 x1 x2 x3 x4 x5 x6) ((Rect.unit (s := S512x1024) ![0, 128] S256x128.size inb_S512x1024_S256x128_0_128).toLoadRect.idx j) :=
  View.readCov_eq_canon' _ _ _
theorem slab_A_0_2 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_A.sl.v104 c arg2 harg2 arg3 harg3 arg4 harg4 arg5 harg5 arg6 harg6 arg7 harg7 arg9 x1 x2 x3 x4 x5 x6
      = fun j => View.canon (kernelRun0_A.sl.HS0_2 c arg2 harg2 arg3 harg3 arg4 harg4 arg5 harg5 arg6 harg6 arg7 harg7 x1 x2 x3 x4 x5 x6) ((Rect.unit (s := S512x1024) ![0, 256] S256x128.size inb_S512x1024_S256x128_0_256).toLoadRect.idx j) :=
  View.readCov_eq_canon' _ _ _
theorem slab_A_0_3 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_A.sl.v130 c arg2 harg2 arg3 harg3 arg4 harg4 arg5 harg5 arg6 harg6 arg7 harg7 arg9 x1 x2 x3 x4 x5 x6
      = fun j => View.canon (kernelRun0_A.sl.HS0_2 c arg2 harg2 arg3 harg3 arg4 harg4 arg5 harg5 arg6 harg6 arg7 harg7 x1 x2 x3 x4 x5 x6) ((Rect.unit (s := S512x1024) ![0, 384] S256x128.size inb_S512x1024_S256x128_0_384).toLoadRect.idx j) :=
  View.readCov_eq_canon' _ _ _
theorem slab_A_0_4 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_A.sl.v156 c arg2 harg2 arg3 harg3 arg4 harg4 arg5 harg5 arg6 harg6 arg7 harg7 arg9 x1 x2 x3 x4 x5 x6
      = fun j => View.canon (kernelRun0_A.sl.HS0_2 c arg2 harg2 arg3 harg3 arg4 harg4 arg5 harg5 arg6 harg6 arg7 harg7 x1 x2 x3 x4 x5 x6) ((Rect.unit (s := S512x1024) ![0, 512] S256x128.size inb_S512x1024_S256x128_0_512).toLoadRect.idx j) :=
  View.readCov_eq_canon' _ _ _
theorem slab_A_0_5 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_A.sl.v182 c arg2 harg2 arg3 harg3 arg4 harg4 arg5 harg5 arg6 harg6 arg7 harg7 arg9 x1 x2 x3 x4 x5 x6
      = fun j => View.canon (kernelRun0_A.sl.HS0_2 c arg2 harg2 arg3 harg3 arg4 harg4 arg5 harg5 arg6 harg6 arg7 harg7 x1 x2 x3 x4 x5 x6) ((Rect.unit (s := S512x1024) ![0, 640] S256x128.size inb_S512x1024_S256x128_0_640).toLoadRect.idx j) :=
  View.readCov_eq_canon' _ _ _
theorem slab_A_0_6 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_A.sl.v208 c arg2 harg2 arg3 harg3 arg4 harg4 arg5 harg5 arg6 harg6 arg7 harg7 arg9 x1 x2 x3 x4 x5 x6
      = fun j => View.canon (kernelRun0_A.sl.HS0_2 c arg2 harg2 arg3 harg3 arg4 harg4 arg5 harg5 arg6 harg6 arg7 harg7 x1 x2 x3 x4 x5 x6) ((Rect.unit (s := S512x1024) ![0, 768] S256x128.size inb_S512x1024_S256x128_0_768).toLoadRect.idx j) :=
  View.readCov_eq_canon' _ _ _
theorem slab_A_0_7 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_A.sl.v234 c arg2 harg2 arg3 harg3 arg4 harg4 arg5 harg5 arg6 harg6 arg7 harg7 arg9 x1 x2 x3 x4 x5 x6
      = fun j => View.canon (kernelRun0_A.sl.HS0_2 c arg2 harg2 arg3 harg3 arg4 harg4 arg5 harg5 arg6 harg6 arg7 harg7 x1 x2 x3 x4 x5 x6) ((Rect.unit (s := S512x1024) ![0, 896] S256x128.size inb_S512x1024_S256x128_0_896).toLoadRect.idx j) :=
  View.readCov_eq_canon' _ _ _
theorem slab_A_1_0 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_A.sl.v57 c arg2 harg2 arg3 harg3 arg4 harg4 arg5 harg5 arg6 harg6 arg7 harg7 arg9 x1 x2 x3 x4 x5 x6
      = fun j => View.canon (kernelRun0_A.sl.HS0_2 c arg2 harg2 arg3 harg3 arg4 harg4 arg5 harg5 arg6 harg6 arg7 harg7 x1 x2 x3 x4 x5 x6) ((Rect.unit (s := S512x1024) ![256, 0] S256x128.size inb_S512x1024_S256x128_256_0).toLoadRect.idx j) :=
  View.readCov_eq_canon' _ _ _
theorem slab_A_1_1 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_A.sl.v83 c arg2 harg2 arg3 harg3 arg4 harg4 arg5 harg5 arg6 harg6 arg7 harg7 arg9 x1 x2 x3 x4 x5 x6
      = fun j => View.canon (kernelRun0_A.sl.HS0_2 c arg2 harg2 arg3 harg3 arg4 harg4 arg5 harg5 arg6 harg6 arg7 harg7 x1 x2 x3 x4 x5 x6) ((Rect.unit (s := S512x1024) ![256, 128] S256x128.size inb_S512x1024_S256x128_256_128).toLoadRect.idx j) :=
  View.readCov_eq_canon' _ _ _
theorem slab_A_1_2 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_A.sl.v109 c arg2 harg2 arg3 harg3 arg4 harg4 arg5 harg5 arg6 harg6 arg7 harg7 arg9 x1 x2 x3 x4 x5 x6
      = fun j => View.canon (kernelRun0_A.sl.HS0_2 c arg2 harg2 arg3 harg3 arg4 harg4 arg5 harg5 arg6 harg6 arg7 harg7 x1 x2 x3 x4 x5 x6) ((Rect.unit (s := S512x1024) ![256, 256] S256x128.size inb_S512x1024_S256x128_256_256).toLoadRect.idx j) :=
  View.readCov_eq_canon' _ _ _
theorem slab_A_1_3 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_A.sl.v135 c arg2 harg2 arg3 harg3 arg4 harg4 arg5 harg5 arg6 harg6 arg7 harg7 arg9 x1 x2 x3 x4 x5 x6
      = fun j => View.canon (kernelRun0_A.sl.HS0_2 c arg2 harg2 arg3 harg3 arg4 harg4 arg5 harg5 arg6 harg6 arg7 harg7 x1 x2 x3 x4 x5 x6) ((Rect.unit (s := S512x1024) ![256, 384] S256x128.size inb_S512x1024_S256x128_256_384).toLoadRect.idx j) :=
  View.readCov_eq_canon' _ _ _
theorem slab_A_1_4 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_A.sl.v161 c arg2 harg2 arg3 harg3 arg4 harg4 arg5 harg5 arg6 harg6 arg7 harg7 arg9 x1 x2 x3 x4 x5 x6
      = fun j => View.canon (kernelRun0_A.sl.HS0_2 c arg2 harg2 arg3 harg3 arg4 harg4 arg5 harg5 arg6 harg6 arg7 harg7 x1 x2 x3 x4 x5 x6) ((Rect.unit (s := S512x1024) ![256, 512] S256x128.size inb_S512x1024_S256x128_256_512).toLoadRect.idx j) :=
  View.readCov_eq_canon' _ _ _
theorem slab_A_1_5 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_A.sl.v187 c arg2 harg2 arg3 harg3 arg4 harg4 arg5 harg5 arg6 harg6 arg7 harg7 arg9 x1 x2 x3 x4 x5 x6
      = fun j => View.canon (kernelRun0_A.sl.HS0_2 c arg2 harg2 arg3 harg3 arg4 harg4 arg5 harg5 arg6 harg6 arg7 harg7 x1 x2 x3 x4 x5 x6) ((Rect.unit (s := S512x1024) ![256, 640] S256x128.size inb_S512x1024_S256x128_256_640).toLoadRect.idx j) :=
  View.readCov_eq_canon' _ _ _
theorem slab_A_1_6 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_A.sl.v213 c arg2 harg2 arg3 harg3 arg4 harg4 arg5 harg5 arg6 harg6 arg7 harg7 arg9 x1 x2 x3 x4 x5 x6
      = fun j => View.canon (kernelRun0_A.sl.HS0_2 c arg2 harg2 arg3 harg3 arg4 harg4 arg5 harg5 arg6 harg6 arg7 harg7 x1 x2 x3 x4 x5 x6) ((Rect.unit (s := S512x1024) ![256, 768] S256x128.size inb_S512x1024_S256x128_256_768).toLoadRect.idx j) :=
  View.readCov_eq_canon' _ _ _
theorem slab_A_1_7 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_A.sl.v239 c arg2 harg2 arg3 harg3 arg4 harg4 arg5 harg5 arg6 harg6 arg7 harg7 arg9 x1 x2 x3 x4 x5 x6
      = fun j => View.canon (kernelRun0_A.sl.HS0_2 c arg2 harg2 arg3 harg3 arg4 harg4 arg5 harg5 arg6 harg6 arg7 harg7 x1 x2 x3 x4 x5 x6) ((Rect.unit (s := S512x1024) ![256, 896] S256x128.size inb_S512x1024_S256x128_256_896).toLoadRect.idx j) :=
  View.readCov_eq_canon' _ _ _

/-- The two stores into the prepared-noise scratch are the two halves' prepared noise. -/
theorem HS0_B (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) (n0 n1 : ℕ → Vec F S256x128 .f32) :
    kernelRun0_B.sl.HS0_2 c arg2 harg2 arg3 harg3 arg4 harg4 arg5 harg5 arg6 harg6 arg7 harg7 x1 x2 x3 x4 x5 x6
      = [⟨Rect.unit (s := S512x1024) ![256, 0] S256x1024.size inb_S512x1024_S256x1024_256_0,
            shapeCast S256x1024 (kNscr (View.ld x1 (Rect.unit (s := S512x8x128) ![256, 0, 0] S256x8x128.size inb_S512x8x128_S256x8x128_256_0_0)) x6) shapeCasts_S256x1024_S256x1024⟩,
         ⟨Rect.unit (s := S512x1024) ![0, 0] S256x1024.size inb_S512x1024_S256x1024_0_0,
            shapeCast S256x1024 (kNscr (View.ld x1 (Rect.unit (s := S512x8x128) ![0, 0, 0] S256x8x128.size inb_S512x8x128_S256x8x128_0_0_0)) x6) shapeCasts_S256x1024_S256x1024⟩] := by
  unfold kernelRun0_B.sl.HS0_2
  dsimp only
  simp only [View.readAt_eq_ld, harg2.read_unread, harg7.read_unread, View.ld_unit_zero (S := S1x128) hz2]
  simp only [pay5 n0 n1, pay6 n0 n1, pay7 n0 n1]
theorem slab_B_0_0 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_B.sl.v52 c arg2 harg2 arg3 harg3 arg4 harg4 arg5 harg5 arg6 harg6 arg7 harg7 arg9 x1 x2 x3 x4 x5 x6
      = fun j => View.canon (kernelRun0_B.sl.HS0_2 c arg2 harg2 arg3 harg3 arg4 harg4 arg5 harg5 arg6 harg6 arg7 harg7 x1 x2 x3 x4 x5 x6) ((Rect.unit (s := S512x1024) ![0, 0] S256x128.size inb_S512x1024_S256x128_0_0).toLoadRect.idx j) :=
  View.readCov_eq_canon' _ _ _
theorem slab_B_0_1 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_B.sl.v78 c arg2 harg2 arg3 harg3 arg4 harg4 arg5 harg5 arg6 harg6 arg7 harg7 arg9 x1 x2 x3 x4 x5 x6
      = fun j => View.canon (kernelRun0_B.sl.HS0_2 c arg2 harg2 arg3 harg3 arg4 harg4 arg5 harg5 arg6 harg6 arg7 harg7 x1 x2 x3 x4 x5 x6) ((Rect.unit (s := S512x1024) ![0, 128] S256x128.size inb_S512x1024_S256x128_0_128).toLoadRect.idx j) :=
  View.readCov_eq_canon' _ _ _
theorem slab_B_0_2 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_B.sl.v104 c arg2 harg2 arg3 harg3 arg4 harg4 arg5 harg5 arg6 harg6 arg7 harg7 arg9 x1 x2 x3 x4 x5 x6
      = fun j => View.canon (kernelRun0_B.sl.HS0_2 c arg2 harg2 arg3 harg3 arg4 harg4 arg5 harg5 arg6 harg6 arg7 harg7 x1 x2 x3 x4 x5 x6) ((Rect.unit (s := S512x1024) ![0, 256] S256x128.size inb_S512x1024_S256x128_0_256).toLoadRect.idx j) :=
  View.readCov_eq_canon' _ _ _
theorem slab_B_0_3 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_B.sl.v130 c arg2 harg2 arg3 harg3 arg4 harg4 arg5 harg5 arg6 harg6 arg7 harg7 arg9 x1 x2 x3 x4 x5 x6
      = fun j => View.canon (kernelRun0_B.sl.HS0_2 c arg2 harg2 arg3 harg3 arg4 harg4 arg5 harg5 arg6 harg6 arg7 harg7 x1 x2 x3 x4 x5 x6) ((Rect.unit (s := S512x1024) ![0, 384] S256x128.size inb_S512x1024_S256x128_0_384).toLoadRect.idx j) :=
  View.readCov_eq_canon' _ _ _
theorem slab_B_0_4 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_B.sl.v156 c arg2 harg2 arg3 harg3 arg4 harg4 arg5 harg5 arg6 harg6 arg7 harg7 arg9 x1 x2 x3 x4 x5 x6
      = fun j => View.canon (kernelRun0_B.sl.HS0_2 c arg2 harg2 arg3 harg3 arg4 harg4 arg5 harg5 arg6 harg6 arg7 harg7 x1 x2 x3 x4 x5 x6) ((Rect.unit (s := S512x1024) ![0, 512] S256x128.size inb_S512x1024_S256x128_0_512).toLoadRect.idx j) :=
  View.readCov_eq_canon' _ _ _
theorem slab_B_0_5 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_B.sl.v182 c arg2 harg2 arg3 harg3 arg4 harg4 arg5 harg5 arg6 harg6 arg7 harg7 arg9 x1 x2 x3 x4 x5 x6
      = fun j => View.canon (kernelRun0_B.sl.HS0_2 c arg2 harg2 arg3 harg3 arg4 harg4 arg5 harg5 arg6 harg6 arg7 harg7 x1 x2 x3 x4 x5 x6) ((Rect.unit (s := S512x1024) ![0, 640] S256x128.size inb_S512x1024_S256x128_0_640).toLoadRect.idx j) :=
  View.readCov_eq_canon' _ _ _
theorem slab_B_0_6 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_B.sl.v208 c arg2 harg2 arg3 harg3 arg4 harg4 arg5 harg5 arg6 harg6 arg7 harg7 arg9 x1 x2 x3 x4 x5 x6
      = fun j => View.canon (kernelRun0_B.sl.HS0_2 c arg2 harg2 arg3 harg3 arg4 harg4 arg5 harg5 arg6 harg6 arg7 harg7 x1 x2 x3 x4 x5 x6) ((Rect.unit (s := S512x1024) ![0, 768] S256x128.size inb_S512x1024_S256x128_0_768).toLoadRect.idx j) :=
  View.readCov_eq_canon' _ _ _
theorem slab_B_0_7 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_B.sl.v234 c arg2 harg2 arg3 harg3 arg4 harg4 arg5 harg5 arg6 harg6 arg7 harg7 arg9 x1 x2 x3 x4 x5 x6
      = fun j => View.canon (kernelRun0_B.sl.HS0_2 c arg2 harg2 arg3 harg3 arg4 harg4 arg5 harg5 arg6 harg6 arg7 harg7 x1 x2 x3 x4 x5 x6) ((Rect.unit (s := S512x1024) ![0, 896] S256x128.size inb_S512x1024_S256x128_0_896).toLoadRect.idx j) :=
  View.readCov_eq_canon' _ _ _
theorem slab_B_1_0 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_B.sl.v57 c arg2 harg2 arg3 harg3 arg4 harg4 arg5 harg5 arg6 harg6 arg7 harg7 arg9 x1 x2 x3 x4 x5 x6
      = fun j => View.canon (kernelRun0_B.sl.HS0_2 c arg2 harg2 arg3 harg3 arg4 harg4 arg5 harg5 arg6 harg6 arg7 harg7 x1 x2 x3 x4 x5 x6) ((Rect.unit (s := S512x1024) ![256, 0] S256x128.size inb_S512x1024_S256x128_256_0).toLoadRect.idx j) :=
  View.readCov_eq_canon' _ _ _
theorem slab_B_1_1 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_B.sl.v83 c arg2 harg2 arg3 harg3 arg4 harg4 arg5 harg5 arg6 harg6 arg7 harg7 arg9 x1 x2 x3 x4 x5 x6
      = fun j => View.canon (kernelRun0_B.sl.HS0_2 c arg2 harg2 arg3 harg3 arg4 harg4 arg5 harg5 arg6 harg6 arg7 harg7 x1 x2 x3 x4 x5 x6) ((Rect.unit (s := S512x1024) ![256, 128] S256x128.size inb_S512x1024_S256x128_256_128).toLoadRect.idx j) :=
  View.readCov_eq_canon' _ _ _
theorem slab_B_1_2 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_B.sl.v109 c arg2 harg2 arg3 harg3 arg4 harg4 arg5 harg5 arg6 harg6 arg7 harg7 arg9 x1 x2 x3 x4 x5 x6
      = fun j => View.canon (kernelRun0_B.sl.HS0_2 c arg2 harg2 arg3 harg3 arg4 harg4 arg5 harg5 arg6 harg6 arg7 harg7 x1 x2 x3 x4 x5 x6) ((Rect.unit (s := S512x1024) ![256, 256] S256x128.size inb_S512x1024_S256x128_256_256).toLoadRect.idx j) :=
  View.readCov_eq_canon' _ _ _
theorem slab_B_1_3 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_B.sl.v135 c arg2 harg2 arg3 harg3 arg4 harg4 arg5 harg5 arg6 harg6 arg7 harg7 arg9 x1 x2 x3 x4 x5 x6
      = fun j => View.canon (kernelRun0_B.sl.HS0_2 c arg2 harg2 arg3 harg3 arg4 harg4 arg5 harg5 arg6 harg6 arg7 harg7 x1 x2 x3 x4 x5 x6) ((Rect.unit (s := S512x1024) ![256, 384] S256x128.size inb_S512x1024_S256x128_256_384).toLoadRect.idx j) :=
  View.readCov_eq_canon' _ _ _
theorem slab_B_1_4 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_B.sl.v161 c arg2 harg2 arg3 harg3 arg4 harg4 arg5 harg5 arg6 harg6 arg7 harg7 arg9 x1 x2 x3 x4 x5 x6
      = fun j => View.canon (kernelRun0_B.sl.HS0_2 c arg2 harg2 arg3 harg3 arg4 harg4 arg5 harg5 arg6 harg6 arg7 harg7 x1 x2 x3 x4 x5 x6) ((Rect.unit (s := S512x1024) ![256, 512] S256x128.size inb_S512x1024_S256x128_256_512).toLoadRect.idx j) :=
  View.readCov_eq_canon' _ _ _
theorem slab_B_1_5 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_B.sl.v187 c arg2 harg2 arg3 harg3 arg4 harg4 arg5 harg5 arg6 harg6 arg7 harg7 arg9 x1 x2 x3 x4 x5 x6
      = fun j => View.canon (kernelRun0_B.sl.HS0_2 c arg2 harg2 arg3 harg3 arg4 harg4 arg5 harg5 arg6 harg6 arg7 harg7 x1 x2 x3 x4 x5 x6) ((Rect.unit (s := S512x1024) ![256, 640] S256x128.size inb_S512x1024_S256x128_256_640).toLoadRect.idx j) :=
  View.readCov_eq_canon' _ _ _
theorem slab_B_1_6 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_B.sl.v213 c arg2 harg2 arg3 harg3 arg4 harg4 arg5 harg5 arg6 harg6 arg7 harg7 arg9 x1 x2 x3 x4 x5 x6
      = fun j => View.canon (kernelRun0_B.sl.HS0_2 c arg2 harg2 arg3 harg3 arg4 harg4 arg5 harg5 arg6 harg6 arg7 harg7 x1 x2 x3 x4 x5 x6) ((Rect.unit (s := S512x1024) ![256, 768] S256x128.size inb_S512x1024_S256x128_256_768).toLoadRect.idx j) :=
  View.readCov_eq_canon' _ _ _
theorem slab_B_1_7 (c : Dev nD) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg9 : Memref sig .tc .vmem S512x1024 .f32)
    (x1 : Vec F S512x8x128 .f32) (x2 : Vec F S256x256 .f32) (x3 : Vec F S256x256 .f32) (x4 : Vec F S1x256 .f32) (x5 : Vec F S256x128 .f32) (x6 : Vec F S1x128 .f32) :
    kernelRun0_B.sl.v239 c arg2 harg2 arg3 harg3 arg4 harg4 arg5 harg5 arg6 harg6 arg7 harg7 arg9 x1 x2 x3 x4 x5 x6
      = fun j => View.canon (kernelRun0_B.sl.HS0_2 c arg2 harg2 arg3 harg3 arg4 harg4 arg5 harg5 arg6 harg6 arg7 harg7 x1 x2 x3 x4 x5 x6) ((Rect.unit (s := S512x1024) ![256, 896] S256x128.size inb_S512x1024_S256x128_256_896).toLoadRect.idx j) :=
  View.readCov_eq_canon' _ _ _

/-! ## The first point: the halves of the start state, read back from its whole-buffer store -/

theorem xa_A (c : Dev nD) (arg1 : Memref sig .tc .vmem S512x128 .f32) (harg1 : arg1.IsWhole) (arg10 : Memref sig .tc .vmem S512x256 .f32) (x0 : Vec F S512x128 .f32) (n0 n1 : ℕ → Vec F S256x128 .f32) :
    kernelRun0_A.sl.v32 c arg1 harg1 arg10 x0 = View.ld (kInit x0) (Rect.unit (s := S512x256) ![0, 0] S256x256.size inb_S512x256_S256x256_0_0) := by
  unfold kernelRun0_A.sl.v32 kernelRun0_A.sl.HS1_1
  rw [View.readCov_eq_canon']
  simp only [View.readAt_eq_ld, harg1.read_unread, View.ld_unit_zero (S := S512x128) hz2, pay2 n0 n1]
  rw [View.canon_unit_zero hz2]

theorem xb_A (c : Dev nD) (arg1 : Memref sig .tc .vmem S512x128 .f32) (harg1 : arg1.IsWhole) (arg10 : Memref sig .tc .vmem S512x256 .f32) (x0 : Vec F S512x128 .f32) (n0 n1 : ℕ → Vec F S256x128 .f32) :
    kernelRun0_A.sl.v33 c arg1 harg1 arg10 x0 = View.ld (kInit x0) (Rect.unit (s := S512x256) ![256, 0] S256x256.size inb_S512x256_S256x256_256_0) := by
  unfold kernelRun0_A.sl.v33 kernelRun0_A.sl.HS1_1
  rw [View.readCov_eq_canon']
  simp only [View.readAt_eq_ld, harg1.read_unread, View.ld_unit_zero (S := S512x128) hz2, pay2 n0 n1]
  rw [View.canon_unit_zero hz2]

/-- The first point's whole-buffer store into the state scratch is the start state. -/
theorem HS1_A (c : Dev nD) (arg1 : Memref sig .tc .vmem S512x128 .f32) (harg1 : arg1.IsWhole) (x0 : Vec F S512x128 .f32) (n0 n1 : ℕ → Vec F S256x128 .f32) :
    kernelRun0_A.sl.HS1_1 c arg1 harg1 x0 = [⟨Rect.unit (s := S512x256) ![0, 0] S512x256.size inb_S512x256_S512x256_0_0, kInit x0⟩] := by
  unfold kernelRun0_A.sl.HS1_1
  simp only [View.readAt_eq_ld, harg1.read_unread, View.ld_unit_zero (S := S512x128) hz2, pay2 n0 n1]

end Cert.KernelIdeal.Hand

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibConcatCols.lean ====
/-
  Two arrays with the same rows joined side by side, read at an entry.

  Joining an [R, A] array and an [R, B] array along the second axis gives an [R, C] array (C = A + B) whose entry
  (r, k') is the first array's entry (r, k') when k' < A, and the second array's entry (r, k' - A) otherwise.
  Generic in R, A, B, C and in the entries' type.
-/
import Idealize.ShloMosaic.Lib.Pipeline.Value
import Idealize.ShloMosaic.Lib.ValueIdx

noncomputable section

namespace Cert.LibConcatCols

open Idealize.ShloMosaic Idealize.ShloMosaic.ValueIdx

variable {α : Type}

/-- An entry whose column lies in the first piece is the first piece's entry at the same row and column. -/
theorem concat_cols_left {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin A) (k' : Fin C) (hk : k'.val = k.val) :
    concatenate ⟨2, ![R, C]⟩ 1 [⟨⟨2, ![R, A]⟩, a⟩, ⟨⟨2, ![R, B]⟩, b⟩] h (ix2 r k') = a (ix2 r k) :=
  concatenate_pair_apply_left 1 a b h (ix2 r k') rfl (ix2 r k) fun ax => by
    match ax with
    | ⟨0, _⟩ => rfl
    | ⟨1, _⟩ => exact hk.symm

/-- An entry whose column lies in the second piece is the second piece's entry at the same row, the column moved back
    by the first piece's width. -/
theorem concat_cols_right {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin B) (k' : Fin C) (hk : k'.val = A + k.val) :
    concatenate ⟨2, ![R, C]⟩ 1 [⟨⟨2, ![R, A]⟩, a⟩, ⟨⟨2, ![R, B]⟩, b⟩] h (ix2 r k') = b (ix2 r k) :=
  concatenate_pair_apply_right 1 a b h (ix2 r k') rfl rfl (ix2 r k)
    (fun ax hne => by
      match ax with
      | ⟨0, _⟩ => rfl
      | ⟨1, _⟩ => exact absurd rfl hne)
    (by show k.val + A = k'.val; omega)

end Cert.LibConcatCols

end
-- ==== Proof.KSemIdx1.lean ====
/-
  The step's array-level pieces read entry by entry at the exact (extended real) values.

  A half's state has 256 columns: the 128 features, a one, and zeros. Each piece below is read at an entry
  (i, k) given by its coordinates: the rectifier is max(·, 0); a product into the zero accumulator is the sum over the
  256 contraction positions of the operands' products; the stacked product's first and second halves of rows are the
  products of each half's hidden layer with W3; the update adds (slice + prepared noise) in the feature columns and
  the pad in the others.
-/
import proofs.«146222_g2000209494350815_pallasbulk_913_23_alg».proof.Proof.KBlocks
import proofs.«146222_g2000209494350815_pallasbulk_913_23_alg».proof.Proof.LibPlainDot
import proofs.«146222_g2000209494350815_pallasbulk_913_23_alg».proof.Proof.LibJoinedRows
import proofs.«146222_g2000209494350815_pallasbulk_913_23_alg».proof.Proof.LibConcatCols
import Idealize.ShloMosaic.Lib.ValueLayout
import Idealize.ShloMosaic.Lib.IdealHost

noncomputable section

open scoped BigOperators

namespace Cert.KernelIdeal.KSem

open Idealize.ShloMosaic Idealize.SL.Sem Cert.KernelIdeal Cert.KernelIdeal.Gen Idealize.ShloMosaic.ValueIdx

/-- A half's state array `xs` carries the rows `v`: features in columns 0..127, a one in column 128, zeros after. -/
def Aug (xs : FVec Ideal S256x256 .f32) (v : Fin 256 → Fin 128 → EReal) : Prop :=
  ∀ (i κ : Fin 256), xs (ix2 i κ) =
    if h : κ.val < 128 then v i ⟨κ.val, h⟩ else if κ.val = 128 then 1 else 0

/-- The stacked first-layer matrix: W1 in rows 0..127, b1 in row 128, zeros after. -/
def StackedW1 (w1a : FVec Ideal S256x256 .f32) (w1 : (⟨2, ![128, 256]⟩ : Shape).Idx → EReal)
    (b1 : (⟨2, ![1, 256]⟩ : Shape).Idx → EReal) : Prop :=
  ∀ (κ k : Fin 256), w1a (ix2 κ k) =
    if h : κ.val < 128 then w1 (ix2 ⟨κ.val, h⟩ k) else if κ.val = 128 then b1 (ix2 0 k) else 0

/-- The square product's dimension numbers are those of a plain matrix product. -/
theorem plain_sq : Cert.LibPlainDot.Plain dot_S256x256_S256x256_S256x256_1_0_0_1_n_n :=
  ⟨rfl, rfl, rfl, rfl, rfl, rfl⟩

/-- So are the stacked output product's. -/
theorem plain_out : Cert.LibPlainDot.Plain dot_S512x256_S256x128_S512x128_1_0_0_1_n_n :=
  ⟨rfl, rfl, rfl, rfl, rfl, rfl⟩

/-- A square product into the zero accumulator, at an entry. -/
theorem mm_sq_apply (l r : FVec Ideal S256x256 .f32) (i k : Fin 256) :
    matmul dot_S256x256_S256x256_S256x256_1_0_0_1_n_n none l r (constant S256x256 .f32 0x00000000#32) (ix2 i k)
      = ∑ κ : Fin 256, l (ix2 i κ) * r (ix2 κ k) :=
  plain_sq.matmul_zero_apply none l r i k

/-- The stacked output product into the zero accumulator, at an entry. -/
theorem mm_out_apply (l : FVec Ideal S512x256 .f32) (r : FVec Ideal S256x128 .f32) (p : Fin 512) (j : Fin 128) :
    matmul dot_S512x256_S256x128_S512x128_1_0_0_1_n_n none l r (constant S512x128 .f32 0x00000000#32) (ix2 p j)
      = ∑ κ : Fin 256, l (ix2 p κ) * r (ix2 κ j) :=
  plain_out.matmul_zero_apply none l r p j

/-- The rectifier at an entry. -/
theorem relu_apply (v : FVec Ideal S256x256 .f32) (i k : Fin 256) :
    kRelu (F := Ideal) v (ix2 i k) = max (v (ix2 i k)) 0 := by
  show max (v (ix2 i k)) (Ideal.ofBits .f32 0x00000000#32) = _
  rw [Ideal.ofBits_zero_f32]

/-- The first product at an entry. -/
theorem m1_apply (w1a xs : FVec Ideal S256x256 .f32) (i k : Fin 256) :
    kM1 (F := Ideal) w1a xs (ix2 i k) = ∑ κ : Fin 256, xs (ix2 i κ) * w1a (ix2 κ k) :=
  mm_sq_apply xs w1a i k

/-- The second hidden layer from the first, at an entry. -/
theorem l2_apply (w2 : Vec Ideal S256x256 .f32) (b2bc h1 : FVec Ideal S256x256 .f32) (i k : Fin 256) :
    kL2 (F := Ideal) w2 b2bc h1 (ix2 i k) = max ((∑ κ : Fin 256, h1 (ix2 i κ) * w2 (ix2 κ k)) + b2bc (ix2 i k)) 0 := by
  unfold kL2
  rw [relu_apply, addf_apply]
  exact congrArg (fun t => max (t + b2bc (ix2 i k)) 0) (mm_sq_apply h1 w2 i k)

/-- The second hidden layer of a half from its state, at an entry. -/
theorem h2_apply (w1a : FVec Ideal S256x256 .f32) (w2 : Vec Ideal S256x256 .f32) (b2bc xs : FVec Ideal S256x256 .f32)
    (i k : Fin 256) :
    kH2 (F := Ideal) w1a w2 b2bc xs (ix2 i k)
      = max ((∑ κ : Fin 256, max (∑ μ : Fin 256, xs (ix2 i μ) * w1a (ix2 μ κ)) 0 * w2 (ix2 κ k)) + b2bc (ix2 i k)) 0 := by
  unfold kH2
  rw [l2_apply]
  refine congrArg (fun t => max (t + b2bc (ix2 i k)) 0) (Finset.sum_congr rfl fun κ _ => ?_)
  rw [relu_apply, m1_apply]

/-- The stacked product at a row of the first half: the first half's hidden layer times W3. -/
theorem fall_apply_lo (w3 : Vec Ideal S256x128 .f32) (ha hb : FVec Ideal S256x256 .f32) (i : Fin 256) (j : Fin 128) :
    kFall (F := Ideal) w3 ha hb (ix2 (⟨i.val, by omega⟩ : Fin 512) j) = ∑ κ : Fin 256, ha (ix2 i κ) * w3 (ix2 κ j) := by
  unfold kFall
  rw [mm_out_apply]
  refine Finset.sum_congr rfl fun κ _ => congrArg (· * w3 (ix2 κ j)) ?_
  exact Cert.LibJoinedRows.join_rows_left concatenates_S256x256_S256x256_S512x256_d0 ha hb i (by omega) κ

/-- The stacked product at a row of the second half: the second half's hidden layer times W3. -/
theorem fall_apply_hi (w3 : Vec Ideal S256x128 .f32) (ha hb : FVec Ideal S256x256 .f32) (i : Fin 256) (j : Fin 128) :
    kFall (F := Ideal) w3 ha hb (ix2 (⟨256 + i.val, by omega⟩ : Fin 512) j) = ∑ κ : Fin 256, hb (ix2 i κ) * w3 (ix2 κ j) := by
  unfold kFall
  rw [mm_out_apply]
  refine Finset.sum_congr rfl fun κ _ => congrArg (· * w3 (ix2 κ j)) ?_
  exact Cert.LibJoinedRows.join_rows_right concatenates_S256x256_S256x256_S512x256_d0 ha hb i (by omega) κ

/-- The first half's slice of a stacked array, at an entry. -/
theorem p0_apply (fall : FVec Ideal S512x128 .f32) (i : Fin 256) (j : Fin 128) :
    kP0 (F := Ideal) fall (ix2 i j) = fall (ix2 (⟨i.val, by omega⟩ : Fin 512) j) :=
  slice2_axis0_apply 0 fall slices_S512x128_o0_0_S256x128 i j ⟨i.val, by omega⟩ (by show i.val = 0 + i.val; omega)

/-- The second half's slice of a stacked array, at an entry. -/
theorem p1_apply (fall : FVec Ideal S512x128 .f32) (i : Fin 256) (j : Fin 128) :
    kP1 (F := Ideal) fall (ix2 i j) = fall (ix2 (⟨256 + i.val, by omega⟩ : Fin 512) j) :=
  slice2_axis0_apply 256 fall slices_S512x128_o256_0_S256x128 i j ⟨256 + i.val, by omega⟩ rfl

/-- The first half's slice of the stacked product. -/
theorem p0_fall_apply (w3 : Vec Ideal S256x128 .f32) (ha hb : FVec Ideal S256x256 .f32) (i : Fin 256) (j : Fin 128) :
    kP0 (kFall (F := Ideal) w3 ha hb) (ix2 i j) = ∑ κ : Fin 256, ha (ix2 i κ) * w3 (ix2 κ j) :=
  (p0_apply _ i j).trans (fall_apply_lo w3 ha hb i j)

/-- The second half's slice of the stacked product. -/
theorem p1_fall_apply (w3 : Vec Ideal S256x128 .f32) (ha hb : FVec Ideal S256x256 .f32) (i : Fin 256) (j : Fin 128) :
    kP1 (kFall (F := Ideal) w3 ha hb) (ix2 i j) = ∑ κ : Fin 256, hb (ix2 i κ) * w3 (ix2 κ j) :=
  (p1_apply _ i j).trans (fall_apply_hi w3 ha hb i j)

/-- The pad is zero everywhere. -/
theorem zpad_apply (i : Fin 256) (j : Fin 128) : kZpad (F := Ideal) (ix2 i j) = 0 := by
  show Ideal.ofBits .f32 0x00000000#32 = 0
  exact Ideal.ofBits_zero_f32

/-- The update in a feature column. -/
theorem upd_apply_lo (xs : FVec Ideal S256x256 .f32) (p : FVec Ideal S256x128 .f32) (n : Vec Ideal S256x128 .f32)
    (zpad : FVec Ideal S256x128 .f32) (i : Fin 256) (κ : Fin 256) (h : κ.val < 128) :
    kUpd (F := Ideal) xs p n zpad (ix2 i κ) = xs (ix2 i κ) + (p (ix2 i ⟨κ.val, h⟩) + n (ix2 i ⟨κ.val, h⟩)) := by
  unfold kUpd
  rw [addf_apply]
  refine congrArg (xs (ix2 i κ) + ·) ?_
  exact (Cert.LibConcatCols.concat_cols_left (addf p n) zpad concatenates_S256x128_S256x128_S256x256_d1 i ⟨κ.val, h⟩ κ rfl)

/-- The update in a column past the features. -/
theorem upd_apply_hi (xs : FVec Ideal S256x256 .f32) (p : FVec Ideal S256x128 .f32) (n : Vec Ideal S256x128 .f32)
    (zpad : FVec Ideal S256x128 .f32) (i : Fin 256) (κ : Fin 256) (h : ¬ κ.val < 128) :
    kUpd (F := Ideal) xs p n zpad (ix2 i κ) = xs (ix2 i κ) + zpad (ix2 i ⟨κ.val - 128, by omega⟩) := by
  unfold kUpd
  rw [addf_apply]
  refine congrArg (xs (ix2 i κ) + ·) ?_
  exact (Cert.LibConcatCols.concat_cols_right (addf p n) zpad concatenates_S256x128_S256x128_S256x256_d1 i
    ⟨κ.val - 128, by omega⟩ κ (by show κ.val = 128 + (κ.val - 128); omega))

end Cert.KernelIdeal.KSem

end
-- ==== Proof.RolloutSpec.lean ====
/-
  The autoregressive rollout, one batch row at a time, over the extended reals.

  A row of the state is a vector of 128 features. One step applies the three-layer network
  f(v) = relu(relu(v·W1 + b1)·W2 + b2)·W3 + b3 to the row, records f(v) as that step's residual prediction,
  and advances the row to v + f(v) + sigma·(the step's noise row). The result at (row, step, feature) is the
  prediction made at that step from the row's state, the state starting at x[row, 0, :].
  Sums are finite sums of extended reals (an additive commutative monoid), so they may be regrouped and
  reordered freely; nothing here needs the entries to be finite.
-/
import Idealize.ShloMosaic.PureOps.Ideal.Laws
import Idealize.ShloMosaic.Lib.ValueIdx

noncomputable section

open scoped BigOperators

namespace Cert.Rollout

open Idealize.ShloMosaic Idealize.ShloMosaic.ValueIdx

/-- The noise scale, as the literal both programs carry (0.00999999977 in binary32), read as an extended real. -/
def sigma : EReal := (Scalar.ofBits (F := Ideal) .f32 0x3C23D70A#32 : Ideal .f32)

section Net

variable (w1 : (⟨2, ![128, 256]⟩ : Shape).Idx → EReal) (b1 : (⟨2, ![1, 256]⟩ : Shape).Idx → EReal)
  (w2 : (⟨2, ![256, 256]⟩ : Shape).Idx → EReal) (b2 : (⟨2, ![1, 256]⟩ : Shape).Idx → EReal)
  (w3 : (⟨2, ![256, 128]⟩ : Shape).Idx → EReal) (b3 : (⟨2, ![1, 128]⟩ : Shape).Idx → EReal)

/-- First hidden layer of one row: relu(v·W1 + b1). -/
def hid1 (v : Fin 128 → EReal) (k : Fin 256) : EReal :=
  max ((∑ κ : Fin 128, v κ * w1 (ix2 κ k)) + b1 (ix2 0 k)) 0

/-- Second hidden layer of one row: relu(h·W2 + b2). -/
def hid2 (h : Fin 256 → EReal) (k : Fin 256) : EReal :=
  max ((∑ κ : Fin 256, h κ * w2 (ix2 κ k)) + b2 (ix2 0 k)) 0

/-- Output layer of one row: h·W3 + b3. -/
def outp (h : Fin 256 → EReal) (j : Fin 128) : EReal :=
  (∑ κ : Fin 256, h κ * w3 (ix2 κ j)) + b3 (ix2 0 j)

/-- The network on one row. -/
def fnet (v : Fin 128 → EReal) : Fin 128 → EReal :=
  outp w3 b3 (hid2 w2 b2 (hid1 w1 b1 v))

/-- The state of one row before step `t`, from its start `x0` and its noise rows `nz t`. -/
def state (x0 : Fin 128 → EReal) (nz : ℕ → Fin 128 → EReal) : ℕ → Fin 128 → EReal
  | 0 => x0
  | t + 1 => fun j => state x0 nz t j + fnet w1 b1 w2 b2 w3 b3 (state x0 nz t) j + nz t j * sigma

/-- The residual prediction of one row at step `t`. -/
def pred (x0 : Fin 128 → EReal) (nz : ℕ → Fin 128 → EReal) (t : ℕ) : Fin 128 → EReal :=
  fnet w1 b1 w2 b2 w3 b3 (state w1 b1 w2 b2 w3 b3 x0 nz t)

variable (x : (⟨3, ![512, 33, 128]⟩ : Shape).Idx → EReal) (ns : (⟨3, ![512, 32, 128]⟩ : Shape).Idx → EReal)

/-- Row `b`'s start: x[b, 0, :]. -/
def start (b : Fin 512) : Fin 128 → EReal := fun j => x (ix3 b 0 j)

/-- Row `b`'s noise at step `t` (zero past the last step, which nothing reads). -/
def noise (b : Fin 512) : ℕ → Fin 128 → EReal := fun t j => if h : t < 32 then ns (ix3 b ⟨t, h⟩ j) else 0

/-- The result at row `b`, step `t`, feature `j`. -/
def entry (b : Fin 512) (t : Fin 32) (j : Fin 128) : EReal :=
  pred w1 b1 w2 b2 w3 b3 (start x b) (noise ns b) t.val j

/-- The whole result array. -/
def result : (⟨3, ![512, 32, 128]⟩ : Shape).Idx → EReal := fun i =>
  entry w1 b1 w2 b2 w3 b3 x ns (i 0) (i 1) (i 2)

theorem result_ix3 (b : Fin 512) (t : Fin 32) (j : Fin 128) :
    result w1 b1 w2 b2 w3 b3 x ns (ix3 b t j) = entry w1 b1 w2 b2 w3 b3 x ns b t j := rfl

theorem noise_lt (b : Fin 512) (t : Fin 32) (j : Fin 128) : noise ns b t.val j = ns (ix3 b t j) := by
  unfold noise; rw [dif_pos t.isLt]

end Net

end Cert.Rollout

end
-- ==== Proof.RolloutLaws.lean ====
/-
  Laws of the rollout recursion: running a + s steps is running a steps and then s more steps from the state
  reached, with the noise rows shifted by a. The prediction at step a + s is likewise the prediction at step s of
  the shifted rollout. Both follow from the recursion alone, by induction on s.
-/
import proofs.«146222_g2000209494350815_pallasbulk_913_23_alg».proof.Proof.RolloutSpec

noncomputable section

open scoped BigOperators

namespace Cert.Rollout

open Idealize.ShloMosaic Idealize.ShloMosaic.ValueIdx

section Net

variable (w1 : (⟨2, ![128, 256]⟩ : Shape).Idx → EReal) (b1 : (⟨2, ![1, 256]⟩ : Shape).Idx → EReal)
  (w2 : (⟨2, ![256, 256]⟩ : Shape).Idx → EReal) (b2 : (⟨2, ![1, 256]⟩ : Shape).Idx → EReal)
  (w3 : (⟨2, ![256, 128]⟩ : Shape).Idx → EReal) (b3 : (⟨2, ![1, 128]⟩ : Shape).Idx → EReal)

/-- The state after one more step, spelled out. -/
theorem state_succ (x0 : Fin 128 → EReal) (nz : ℕ → Fin 128 → EReal) (t : ℕ) :
    state w1 b1 w2 b2 w3 b3 x0 nz (t + 1) = fun j =>
      state w1 b1 w2 b2 w3 b3 x0 nz t j + fnet w1 b1 w2 b2 w3 b3 (state w1 b1 w2 b2 w3 b3 x0 nz t) j + nz t j * sigma := rfl

/-- The state before step 0 is the start. -/
theorem state_zero (x0 : Fin 128 → EReal) (nz : ℕ → Fin 128 → EReal) :
    state w1 b1 w2 b2 w3 b3 x0 nz 0 = x0 := rfl

/-- a + s steps are a steps, then s steps from the state reached, with the noise shifted by a. -/
theorem state_add (x0 : Fin 128 → EReal) (nz : ℕ → Fin 128 → EReal) (a s : ℕ) :
    state w1 b1 w2 b2 w3 b3 x0 nz (a + s) =
      state w1 b1 w2 b2 w3 b3 (state w1 b1 w2 b2 w3 b3 x0 nz a) (fun u => nz (a + u)) s := by
  induction s with
  | zero => rfl
  | succ s ih =>
    rw [show a + (s + 1) = (a + s) + 1 from rfl, state_succ, state_succ, ih]

/-- The prediction at step a + s is the prediction at step s of the rollout restarted after a steps. -/
theorem pred_add (x0 : Fin 128 → EReal) (nz : ℕ → Fin 128 → EReal) (a s : ℕ) :
    pred w1 b1 w2 b2 w3 b3 x0 nz (a + s) =
      pred w1 b1 w2 b2 w3 b3 (state w1 b1 w2 b2 w3 b3 x0 nz a) (fun u => nz (a + u)) s := by
  unfold pred
  rw [state_add]

end Net

end Cert.Rollout

end
-- ==== Proof.KSemIdx3.lean ====
/-
  One rollout step of the body, and a block of eight, against the row-by-row specification.

  A half's state array carries its rows as [features | 1 | 0 …]; the stacked first-layer matrix is [W1; b1; 0].
  The sum over the 256 contraction positions of state × stacked matrix splits at position 128: the first 128 terms are
  the features' products with W1, term 128 is 1 · b1, the rest are 0 · 0. So the body's first product is v·W1 + b1, and
  the hidden layers and the output product follow the network's formulas term by term. The update adds
  slice + (sigma·noise + b3) in the feature columns, which is (slice + b3) + sigma·noise after regrouping a sum of
  extended reals (commutativity and associativity of + only), and adds zero to the one and to the zeros.
-/
import proofs.«146222_g2000209494350815_pallasbulk_913_23_alg».proof.Proof.KSemIdx1
import proofs.«146222_g2000209494350815_pallasbulk_913_23_alg».proof.Proof.RolloutLaws

noncomputable section

open scoped BigOperators

namespace Cert.KernelIdeal.KSem

open Idealize.ShloMosaic Idealize.SL.Sem Cert.KernelIdeal Cert.KernelIdeal.Gen Idealize.ShloMosaic.ValueIdx
open Cert.Rollout (sigma hid1 hid2 outp fnet state pred state_succ)

/-- A sum over 256 positions of products whose left factors are [v | 1 | 0 …] and whose right factors are
    [w | β | 0 …] is the sum over the first 128 positions of v·w, plus β. -/
theorem sum_stacked (x w : Fin 256 → EReal) (v wlo : Fin 128 → EReal) (β : EReal)
    (hx : ∀ κ : Fin 256, x κ = if h : κ.val < 128 then v ⟨κ.val, h⟩ else if κ.val = 128 then 1 else 0)
    (hw : ∀ κ : Fin 256, w κ = if h : κ.val < 128 then wlo ⟨κ.val, h⟩ else if κ.val = 128 then β else 0) :
    ∑ κ : Fin 256, x κ * w κ = (∑ κ : Fin 128, v κ * wlo κ) + β := by
  rw [Cert.LibJoinedRows.sum_rows_split (E1 := 128) (E2 := 128) (T := 256) rfl]
  refine congrArg₂ (· + ·) (Finset.sum_congr rfl fun e _ => ?_) ?_
  · have h : (⟨e.val, by omega⟩ : Fin 256).val < 128 := e.isLt
    rw [hx, hw, dif_pos h, dif_pos h]
  · rw [Finset.sum_eq_single (0 : Fin 128)]
    · have h : ¬ (⟨128 + (0 : Fin 128).val, by omega⟩ : Fin 256).val < 128 := by
        show ¬ (128 + 0 < 128); omega
      have h1 : (⟨128 + (0 : Fin 128).val, by omega⟩ : Fin 256).val = 128 := rfl
      rw [hx, hw, dif_neg h, dif_neg h, if_pos h1, if_pos h1, one_mul]
    · intro e _ he
      have h : ¬ (⟨128 + e.val, by omega⟩ : Fin 256).val < 128 := by
        show ¬ (128 + e.val < 128); omega
      have h1 : ¬ (⟨128 + e.val, by omega⟩ : Fin 256).val = 128 := by
        show ¬ (128 + e.val = 128)
        have : e.val ≠ 0 := fun h0 => he (Fin.ext h0)
        omega
      rw [hx, hw, dif_neg h, dif_neg h, if_neg h1, if_neg h1, zero_mul]
    · intro h; exact absurd (Finset.mem_univ _) h

section Step

variable (w1 : (⟨2, ![128, 256]⟩ : Shape).Idx → EReal) (b1 : (⟨2, ![1, 256]⟩ : Shape).Idx → EReal)
  (w2 : (⟨2, ![256, 256]⟩ : Shape).Idx → EReal) (b2 : (⟨2, ![1, 256]⟩ : Shape).Idx → EReal)
  (w3 : (⟨2, ![256, 128]⟩ : Shape).Idx → EReal) (b3 : (⟨2, ![1, 128]⟩ : Shape).Idx → EReal)
  (w1a : FVec Ideal S256x256 .f32) (w2v : Vec Ideal S256x256 .f32) (w3v : Vec Ideal S256x128 .f32)
  (b2bc : FVec Ideal S256x256 .f32)

/-- The body's first product is the row times W1, plus b1. -/
theorem first_layer (hw1 : StackedW1 w1a w1 b1) (xs : FVec Ideal S256x256 .f32) (v : Fin 256 → Fin 128 → EReal)
    (hx : Aug xs v) (i k : Fin 256) :
    ∑ μ : Fin 256, xs (ix2 i μ) * w1a (ix2 μ k) = (∑ κ : Fin 128, v i κ * w1 (ix2 κ k)) + b1 (ix2 0 k) :=
  sum_stacked (fun μ => xs (ix2 i μ)) (fun μ => w1a (ix2 μ k)) (v i) (fun κ => w1 (ix2 κ k)) (b1 (ix2 0 k))
    (fun μ => hx i μ) (fun μ => hw1 μ k)

/-- The body's second hidden layer of a half is the network's, row by row. -/
theorem h2_net (hw1 : StackedW1 w1a w1 b1) (hw2 : ∀ κ k : Fin 256, w2v (ix2 κ k) = w2 (ix2 κ k))
    (hb2 : ∀ i k : Fin 256, b2bc (ix2 i k) = b2 (ix2 0 k))
    (xs : FVec Ideal S256x256 .f32) (v : Fin 256 → Fin 128 → EReal) (hx : Aug xs v) (i k : Fin 256) :
    kH2 (F := Ideal) w1a w2v b2bc xs (ix2 i k) = hid2 w2 b2 (hid1 w1 b1 (v i)) k := by
  rw [h2_apply, hb2 i k]
  show _ = max ((∑ κ : Fin 256, hid1 w1 b1 (v i) κ * w2 (ix2 κ k)) + b2 (ix2 0 k)) 0
  refine congrArg (fun t => max (t + b2 (ix2 0 k)) 0) (Finset.sum_congr rfl fun κ _ => ?_)
  rw [first_layer w1 b1 w1a hw1 xs v hx i κ, hw2 κ k]
  rfl

/-- The first half's slice of the stacked product, plus b3, is the network on the first half's rows. -/
theorem p0_net (hw1 : StackedW1 w1a w1 b1) (hw2 : ∀ κ k : Fin 256, w2v (ix2 κ k) = w2 (ix2 κ k))
    (hb2 : ∀ i k : Fin 256, b2bc (ix2 i k) = b2 (ix2 0 k))
    (hw3 : ∀ (κ : Fin 256) (j : Fin 128), w3v (ix2 κ j) = w3 (ix2 κ j))
    (xa xb : FVec Ideal S256x256 .f32) (va : Fin 256 → Fin 128 → EReal) (hxa : Aug xa va) (i : Fin 256) (j : Fin 128) :
    kP0 (kFallOf (F := Ideal) w1a w2v w3v b2bc xa xb) (ix2 i j) + b3 (ix2 0 j) = fnet w1 b1 w2 b2 w3 b3 (va i) j := by
  unfold kFallOf
  rw [p0_fall_apply]
  show _ = (∑ κ : Fin 256, hid2 w2 b2 (hid1 w1 b1 (va i)) κ * w3 (ix2 κ j)) + b3 (ix2 0 j)
  refine congrArg (· + b3 (ix2 0 j)) (Finset.sum_congr rfl fun κ _ => ?_)
  rw [h2_net w1 b1 w2 b2 w1a w2v b2bc hw1 hw2 hb2 xa va hxa i κ, hw3 κ j]

/-- The second half's slice of the stacked product, plus b3, is the network on the second half's rows. -/
theorem p1_net (hw1 : StackedW1 w1a w1 b1) (hw2 : ∀ κ k : Fin 256, w2v (ix2 κ k) = w2 (ix2 κ k))
    (hb2 : ∀ i k : Fin 256, b2bc (ix2 i k) = b2 (ix2 0 k))
    (hw3 : ∀ (κ : Fin 256) (j : Fin 128), w3v (ix2 κ j) = w3 (ix2 κ j))
    (xa xb : FVec Ideal S256x256 .f32) (vb : Fin 256 → Fin 128 → EReal) (hxb : Aug xb vb) (i : Fin 256) (j : Fin 128) :
    kP1 (kFallOf (F := Ideal) w1a w2v w3v b2bc xa xb) (ix2 i j) + b3 (ix2 0 j) = fnet w1 b1 w2 b2 w3 b3 (vb i) j := by
  unfold kFallOf
  rw [p1_fall_apply]
  show _ = (∑ κ : Fin 256, hid2 w2 b2 (hid1 w1 b1 (vb i)) κ * w3 (ix2 κ j)) + b3 (ix2 0 j)
  refine congrArg (· + b3 (ix2 0 j)) (Finset.sum_congr rfl fun κ _ => ?_)
  rw [h2_net w1 b1 w2 b2 w1a w2v b2bc hw1 hw2 hb2 xb vb hxb i κ, hw3 κ j]

/-- The update keeps the state's form: the rows advance by (slice + β) + ν when the slab is ν + β, and the one and
    the zeros stay. -/
theorem upd_aug (xs : FVec Ideal S256x256 .f32) (v : Fin 256 → Fin 128 → EReal) (hx : Aug xs v)
    (p : FVec Ideal S256x128 .f32) (n : Vec Ideal S256x128 .f32) (f ν : Fin 256 → Fin 128 → EReal) (β : Fin 128 → EReal)
    (hp : ∀ (i : Fin 256) (j : Fin 128), p (ix2 i j) + β j = f i j)
    (hn : ∀ (i : Fin 256) (j : Fin 128), n (ix2 i j) = ν i j + β j) :
    Aug (kUpd (F := Ideal) xs p n kZpad) (fun i j => v i j + f i j + ν i j) := by
  intro i κ
  by_cases h : κ.val < 128
  · rw [upd_apply_lo xs p n kZpad i κ h, dif_pos h, hx i κ, dif_pos h, hn]
    show _ = v i ⟨κ.val, h⟩ + f i ⟨κ.val, h⟩ + ν i ⟨κ.val, h⟩
    rw [← hp, add_comm (ν i ⟨κ.val, h⟩) (β ⟨κ.val, h⟩), ← add_assoc (p (ix2 i ⟨κ.val, h⟩)), ← add_assoc]
  · rw [upd_apply_hi xs p n kZpad i κ h, dif_neg h, hx i κ, dif_neg h, zpad_apply, add_zero]

/-! ## A block of eight steps -/

section Block

variable (n0 n1 : ℕ → Vec Ideal S256x128 .f32) (xa xb : FVec Ideal S256x256 .f32)
  (va vb : Fin 256 → Fin 128 → EReal) (nza nzb : Fin 256 → ℕ → Fin 128 → EReal)

/-- The two halves' states after one more step, spelled out. -/
theorem kX_succ (s : ℕ) :
    kX (F := Ideal) w1a w2v w3v b2bc n0 n1 xa xb (s + 1) =
      (kUpd (kX w1a w2v w3v b2bc n0 n1 xa xb s).1
          (kP0 (kFallOf w1a w2v w3v b2bc (kX w1a w2v w3v b2bc n0 n1 xa xb s).1 (kX w1a w2v w3v b2bc n0 n1 xa xb s).2))
          (n0 s) kZpad,
       kUpd (kX w1a w2v w3v b2bc n0 n1 xa xb s).2
          (kP1 (kFallOf w1a w2v w3v b2bc (kX w1a w2v w3v b2bc n0 n1 xa xb s).1 (kX w1a w2v w3v b2bc n0 n1 xa xb s).2))
          (n1 s) kZpad) := rfl

/-- Before step s of the block, each half's state array carries its rows' rollout states after s steps. -/
theorem block_state (hw1 : StackedW1 w1a w1 b1) (hw2 : ∀ κ k : Fin 256, w2v (ix2 κ k) = w2 (ix2 κ k))
    (hb2 : ∀ i k : Fin 256, b2bc (ix2 i k) = b2 (ix2 0 k))
    (hw3 : ∀ (κ : Fin 256) (j : Fin 128), w3v (ix2 κ j) = w3 (ix2 κ j))
    (hn0 : ∀ s, s < 8 → ∀ (i : Fin 256) (j : Fin 128), n0 s (ix2 i j) = nza i s j * sigma + b3 (ix2 0 j))
    (hn1 : ∀ s, s < 8 → ∀ (i : Fin 256) (j : Fin 128), n1 s (ix2 i j) = nzb i s j * sigma + b3 (ix2 0 j))
    (ha : Aug xa va) (hb : Aug xb vb) :
    ∀ s, s ≤ 8 →
      Aug (kX (F := Ideal) w1a w2v w3v b2bc n0 n1 xa xb s).1 (fun i => state w1 b1 w2 b2 w3 b3 (va i) (nza i) s) ∧
      Aug (kX (F := Ideal) w1a w2v w3v b2bc n0 n1 xa xb s).2 (fun i => state w1 b1 w2 b2 w3 b3 (vb i) (nzb i) s) := by
  intro s
  induction s with
  | zero => intro _; exact ⟨ha, hb⟩
  | succ s ih =>
    intro hs
    obtain ⟨ia, ib⟩ := ih (by omega)
    rw [kX_succ]
    refine ⟨?_, ?_⟩
    · exact upd_aug _ _ ia _ (n0 s)
        (fun i j => fnet w1 b1 w2 b2 w3 b3 (state w1 b1 w2 b2 w3 b3 (va i) (nza i) s) j)
        (fun i j => nza i s j * sigma) (fun j => b3 (ix2 0 j))
        (fun i j => p0_net w1 b1 w2 b2 w3 b3 w1a w2v w3v b2bc hw1 hw2 hb2 hw3 _ _ _ ia i j)
        (fun i j => hn0 s (by omega) i j)
    · exact upd_aug _ _ ib _ (n1 s)
        (fun i j => fnet w1 b1 w2 b2 w3 b3 (state w1 b1 w2 b2 w3 b3 (vb i) (nzb i) s) j)
        (fun i j => nzb i s j * sigma) (fun j => b3 (ix2 0 j))
        (fun i j => p1_net w1 b1 w2 b2 w3 b3 w1a w2v w3v b2bc hw1 hw2 hb2 hw3 _ _ _ ib i j)
        (fun i j => hn1 s (by omega) i j)

/-- At step s of the block, each half's slice of the stacked product, plus b3, is its rows' prediction at step s. -/
theorem block_pred (hw1 : StackedW1 w1a w1 b1) (hw2 : ∀ κ k : Fin 256, w2v (ix2 κ k) = w2 (ix2 κ k))
    (hb2 : ∀ i k : Fin 256, b2bc (ix2 i k) = b2 (ix2 0 k))
    (hw3 : ∀ (κ : Fin 256) (j : Fin 128), w3v (ix2 κ j) = w3 (ix2 κ j))
    (hn0 : ∀ s, s < 8 → ∀ (i : Fin 256) (j : Fin 128), n0 s (ix2 i j) = nza i s j * sigma + b3 (ix2 0 j))
    (hn1 : ∀ s, s < 8 → ∀ (i : Fin 256) (j : Fin 128), n1 s (ix2 i j) = nzb i s j * sigma + b3 (ix2 0 j))
    (ha : Aug xa va) (hb : Aug xb vb) :
    ∀ s, s < 8 → ∀ (i : Fin 256) (j : Fin 128),
      kP0 (kFA (F := Ideal) w1a w2v w3v b2bc n0 n1 xa xb s) (ix2 i j) + b3 (ix2 0 j)
          = pred w1 b1 w2 b2 w3 b3 (va i) (nza i) s j ∧
      kP1 (kFA (F := Ideal) w1a w2v w3v b2bc n0 n1 xa xb s) (ix2 i j) + b3 (ix2 0 j)
          = pred w1 b1 w2 b2 w3 b3 (vb i) (nzb i) s j := by
  intro s hs i j
  obtain ⟨ia, ib⟩ := block_state w1 b1 w2 b2 w3 b3 w1a w2v w3v b2bc n0 n1 xa xb va vb nza nzb
    hw1 hw2 hb2 hw3 hn0 hn1 ha hb s (by omega)
  exact ⟨p0_net w1 b1 w2 b2 w3 b3 w1a w2v w3v b2bc hw1 hw2 hb2 hw3 _ _ _ ia i j,
    p1_net w1 b1 w2 b2 w3 b3 w1a w2v w3v b2bc hw1 hw2 hb2 hw3 _ _ _ ib i j⟩

end Block

end Step

end Cert.KernelIdeal.KSem

end
-- ==== Proof.LibFlatten3.lean ====
/-
  Layout facts met when a three-axis array `[a, b, c]` is handled as a matrix of `a · b` rows: the cast that
  flattens its two leading axes into one (row `i · b + j` is the old `(i, j)`) and the cast back; one `[b, c]` slab
  `[1, b, c]` spread along a new leading axis to `[a, b, c]`; and one vector `[c]` viewed as `[1, 1, c]` and spread
  over both leading axes to `[a, b, c]`. Each is read at an entry given by its coordinates. They hold for any extents
  and for entries of any type.
-/
import Idealize.ShloMosaic.Lib.Pipeline.Value
import Idealize.ShloMosaic.Lib.ValueIdx

noncomputable section

namespace Cert.LibFlatten3

open Idealize.ShloMosaic Idealize.ShloMosaic.ValueIdx

variable {α : Type}

/-- An `[a, b, c]` array cast to `[m, c]` (with `m = a · b`) reads, at `(ρ, k)` with `ρ = i · b + j`, the operand at
    `(i, j, k)`: the same row-major position. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (ρ : Fin m)
    (hρ : ρ.val = i.val * b + j.val) :
    shapeCast ⟨2, ![m, c]⟩ x h (ix2 ρ k) = x (ix3 i j k) :=
  shapeCast_apply x h _ _ (by
    rw [Shape.rowMajor_val_two, Shape.rowMajor_val_three]
    show (i.val * b + j.val) * c + k.val = ρ.val * c + k.val
    rw [hρ])

/-- An `[m, c]` array (with `m = a · b`) cast to `[a, b, c]` reads, at `(i, j, k)`, the operand at row `ρ = i · b + j`,
    column `k`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (ρ : Fin m)
    (hρ : ρ.val = i.val * b + j.val) :
    shapeCast ⟨3, ![a, b, c]⟩ x h (ix3 i j k) = x (ix2 ρ k) :=
  shapeCast_apply x h _ _ (by
    rw [Shape.rowMajor_val_two, Shape.rowMajor_val_three]
    show ρ.val * c + k.val = (i.val * b + j.val) * c + k.val
    rw [hρ])

/-- A `[1, b, c]` array spread to `[a, b, c]` reads, at `(i, j, k)`, the operand at `(0, j, k)`: the same for every `i`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[c]` vector cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    rw [hu, hv]
    omega)

/-- A `[1, 1, c]` array spread to `[a, b, c]` reads, at `(i, j, k)`, the operand's entry `k`: the same for every `(i, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibFlatten3

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.LibConcatUnit.lean ====
/-
  A concatenation of pieces whose extent along the joined axis is one, read at an index given by coordinates:
  the piece the coordinate on the joined axis names, read at the same remaining coordinates.
  Two layouts: columns [R, 1] joined into [R, N], and slabs [R, 1, C] joined along the middle axis into [R, N, C].
-/
import Idealize.ShloMosaic.Lib.Pipeline.Value
import Idealize.ShloMosaic.Lib.ValueIdx

noncomputable section

namespace Idealize.ShloMosaic.ConcatUnit

open Idealize.ShloMosaic Idealize.ShloMosaic.ValueIdx

variable {α : Type}

/-- N columns of shape [R, 1] joined along axis 1: entry (r, n) of the result is entry (r, 0) of column n. -/
theorem concatenate_cols_apply {R N : Nat} (f : Fin N → ((⟨2, ![R, 1]⟩ : Shape).Idx → α))
    (xs : List ((s : Shape) × (s.Idx → α)))
    (hxs : xs = List.ofFn fun n : Fin N => (⟨⟨2, ![R, 1]⟩, f n⟩ : (s : Shape) × (s.Idx → α)))
    (h : Shape.Concatenates (xs.map (·.1)) ⟨2, ![R, N]⟩ 1) (r : Fin R) (n : Fin N) :
    concatenate ⟨2, ![R, N]⟩ 1 xs h (ix2 r n) = f n (ix2 r 0) := by
  subst hxs
  exact concatenate_ofFn_unit_apply (t := ⟨2, ![R, N]⟩) (s₁ := ⟨2, ![R, 1]⟩) 1 f h rfl rfl (ix2 r n) n rfl (ix2 r 0)
    (fun b hb => by match b with | ⟨0, _⟩ => rfl | ⟨1, _⟩ => exact absurd rfl hb)

/-- N slabs of shape [R, 1, C] joined along axis 1: entry (r, n, c) of the result is entry (r, 0, c) of slab n. -/
theorem concatenate_mid_apply {R N C : Nat} (f : Fin N → ((⟨3, ![R, 1, C]⟩ : Shape).Idx → α))
    (xs : List ((s : Shape) × (s.Idx → α)))
    (hxs : xs = List.ofFn fun n : Fin N => (⟨⟨3, ![R, 1, C]⟩, f n⟩ : (s : Shape) × (s.Idx → α)))
    (h : Shape.Concatenates (xs.map (·.1)) ⟨3, ![R, N, C]⟩ 1) (r : Fin R) (n : Fin N) (c : Fin C) :
    concatenate ⟨3, ![R, N, C]⟩ 1 xs h (ix3 r n c) = f n (ix3 r 0 c) := by
  subst hxs
  exact concatenate_ofFn_unit_apply (t := ⟨3, ![R, N, C]⟩) (s₁ := ⟨3, ![R, 1, C]⟩) 1 f h rfl rfl (ix3 r n c) n rfl (ix3 r 0 c)
    (fun b hb => by match b with | ⟨0, _⟩ => rfl | ⟨1, _⟩ => exact absurd rfl hb | ⟨2, _⟩ => rfl)

/-- Three columns joined: entry (r, j) is entry (r, 0) of column j, the column chosen by cases on j. -/
theorem cols3_apply {R : Nat} (a b c : (⟨2, ![R, 1]⟩ : Shape).Idx → α)
    (h : Shape.Concatenates [(⟨2, ![R, 1]⟩ : Shape), ⟨2, ![R, 1]⟩, ⟨2, ![R, 1]⟩] ⟨2, ![R, 3]⟩ 1) (r : Fin R) (j : Fin 3) :
    concatenate ⟨2, ![R, 3]⟩ 1 [⟨⟨2, ![R, 1]⟩, a⟩, ⟨⟨2, ![R, 1]⟩, b⟩, ⟨⟨2, ![R, 1]⟩, c⟩] h (ix2 r j)
      = (match j with | ⟨0, _⟩ => a | ⟨1, _⟩ => b | ⟨2, _⟩ => c) (ix2 r 0) := by
  refine (concatenate_cols_apply ![a, b, c] _ rfl h r j).trans ?_
  match j with
  | ⟨0, _⟩ => rfl
  | ⟨1, _⟩ => rfl
  | ⟨2, _⟩ => rfl

/-- Three slabs joined along the middle axis: entry (r, i, c) is entry (r, 0, c) of slab i, chosen by cases on i. -/
theorem slabs3_apply {R C : Nat} (a b c : (⟨3, ![R, 1, C]⟩ : Shape).Idx → α)
    (h : Shape.Concatenates [(⟨3, ![R, 1, C]⟩ : Shape), ⟨3, ![R, 1, C]⟩, ⟨3, ![R, 1, C]⟩] ⟨3, ![R, 3, C]⟩ 1)
    (r : Fin R) (i : Fin 3) (k : Fin C) :
    concatenate ⟨3, ![R, 3, C]⟩ 1 [⟨⟨3, ![R, 1, C]⟩, a⟩, ⟨⟨3, ![R, 1, C]⟩, b⟩, ⟨⟨3, ![R, 1, C]⟩, c⟩] h (ix3 r i k)
      = (match i with | ⟨0, _⟩ => a | ⟨1, _⟩ => b | ⟨2, _⟩ => c) (ix3 r 0 k) := by
  refine (concatenate_mid_apply ![a, b, c] _ rfl h r i k).trans ?_
  match i with
  | ⟨0, _⟩ => rfl
  | ⟨1, _⟩ => rfl
  | ⟨2, _⟩ => rfl

end Idealize.ShloMosaic.ConcatUnit

end
-- ==== Proof.KSemIdx2.lean ====
/-
  The block's layout pieces read entry by entry at the exact (extended real) values.

  The prepared noise of a block of eight steps is laid out step by step along 1024 columns: column 128·s + j holds
  sigma·noise(row, s, j) + b3(j). The eight recorded predictions are stacked along the step axis and b3 is added to
  each. The initial state is the start rows, then a column of ones, then zeros.
-/
import proofs.«146222_g2000209494350815_pallasbulk_913_23_alg».proof.Proof.KBlocks
import proofs.«146222_g2000209494350815_pallasbulk_913_23_alg».proof.Proof.RolloutSpec
import proofs.«146222_g2000209494350815_pallasbulk_913_23_alg».proof.Proof.LibFlatten3
import proofs.«146222_g2000209494350815_pallasbulk_913_23_alg».proof.Proof.LibRowLayout
import proofs.«146222_g2000209494350815_pallasbulk_913_23_alg».proof.Proof.LibConcatUnit
import proofs.«146222_g2000209494350815_pallasbulk_913_23_alg».proof.Proof.LibConcatCols
import Idealize.ShloMosaic.Lib.IdealHost

noncomputable section

open scoped BigOperators

namespace Cert.KernelIdeal.KSem

open Idealize.ShloMosaic Idealize.SL.Sem Cert.KernelIdeal Cert.KernelIdeal.Gen Idealize.ShloMosaic.ValueIdx

section Layout
variable {α : Type}

/-- A [256, 8, 128] array viewed as [256, 1024] reads, at column 128·s + j, the entry (·, s, j): the same row-major
    position. -/
theorem cast_steps_apply (x : (⟨3, ![256, 8, 128]⟩ : Shape).Idx → α)
    (h : (⟨3, ![256, 8, 128]⟩ : Shape).ShapeCasts ⟨2, ![256, 1024]⟩) (i : Fin 256) (s : Fin 8) (j : Fin 128) (c : Fin 1024)
    (hc : c.val = 128 * s.val + j.val) :
    shapeCast ⟨2, ![256, 1024]⟩ x h (ix2 i c) = x (ix3 i s j) :=
  shapeCast_apply x h _ _ (by
    rw [Shape.rowMajor_val_two, Shape.rowMajor_val_three]
    show (i.val * 8 + s.val) * 128 + j.val = i.val * 1024 + c.val
    rw [hc]; omega)

/-- Eight copies of a one-row [1, 128] array joined along the columns read, at column 128·s + j, the row's entry j. -/
theorem row_tiled_apply (r : (⟨2, ![1, 128]⟩ : Shape).Idx → α)
    (h : Shape.Concatenates ((List.replicate 8 (⟨⟨2, ![1, 128]⟩, r⟩ : (s : Shape) × (s.Idx → α))).map (·.1)) ⟨2, ![1, 1024]⟩ 1)
    (s : Fin 8) (j : Fin 128) (c : Fin 1024) (hc : c.val = 128 * s.val + j.val) :
    concatenate ⟨2, ![1, 1024]⟩ 1 (List.replicate 8 (⟨⟨2, ![1, 128]⟩, r⟩ : (s : Shape) × (s.Idx → α))) h (ix2 (0 : Fin 1) c)
      = r (ix2 (0 : Fin 1) j) :=
  concatenate_replicate_apply (t := ⟨2, ![1, 1024]⟩) (s₁ := ⟨2, ![1, 128]⟩) 1 8 r h rfl (ix2 (0 : Fin 1) c) (ix2 (0 : Fin 1) j)
    (by show j.val = c.val % 128; omega)
    (fun b hb => by
      match b with
      | ⟨0, _⟩ => rfl
      | ⟨1, _⟩ => exact absurd rfl hb)

/-- An [a, c] array viewed as [a, 1, c] reads, at (i, u, k), the entry (i, k). -/
theorem cast_mid_unit_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- A one-row [1, c] array viewed as [1, 1, c] reads, at (u, v, k), the row's entry k. -/
theorem cast_row_11c_apply {c : ℕ} (x : (⟨2, ![1, c]⟩ : Shape).Idx → α)
    (h : (⟨2, ![1, c]⟩ : Shape).ShapeCasts ⟨3, ![1, 1, c]⟩) (u v : Fin 1) (k : Fin c) :
    shapeCast ⟨3, ![1, 1, c]⟩ x h (ix3 u v k) = x (ix2 (0 : Fin 1) k) :=
  shapeCast_apply x h _ _ (by
    have hu : u.val = 0 := by omega
    have hv : v.val = 0 := by omega
    rw [Shape.rowMajor_val_two, Shape.rowMajor_val_three]
    show (0 : ℕ) * c + k.val = (u.val * 1 + v.val) * c + k.val
    rw [hu, hv])

end Layout

/-- The prepared noise at row i, column 128·s + j: sigma times the noise entry (i, s, j), plus b3's entry j. -/
theorem nscr_apply (nblk : Vec Ideal S256x8x128 .f32) (b3v : Vec Ideal S1x128 .f32) (i : Fin 256) (s : Fin 8) (j : Fin 128) :
    kNscr (F := Ideal) nblk b3v (ix2 i (⟨128 * s.val + j.val, by omega⟩ : Fin 1024))
      = nblk (ix3 i s j) * Cert.Rollout.sigma + b3v (ix2 0 j) := by
  unfold kNscr
  rw [addf_apply, mulf_apply, broadcast_apply]
  refine congrArg₂ (· + ·) (congrArg (· * Cert.Rollout.sigma) ?_) ?_
  · exact cast_steps_apply nblk shapeCasts_S256x8x128_S256x1024 i s j _ rfl
  · refine (Cert.LibRowLayout.broadcastTo_1b_ab_apply _ broadcasts_S1x1024_S256x1024 i _).trans ?_
    exact row_tiled_apply b3v concatenates_S1x128_S1x128_S1x128_S1x128_S1x128_S1x128_S1x128_S1x128_S1x1024_d1 s j _ rfl

/-- The stacked predictions at (i, s, j): the s-th slice's entry (i, j), plus b3's entry j. -/
theorem stack_apply (p0 p1 p2 p3 p4 p5 p6 p7 : FVec Ideal S256x128 .f32) (b3v : Vec Ideal S1x128 .f32)
    (i : Fin 256) (s : Fin 8) (j : Fin 128) :
    kStack (F := Ideal) p0 p1 p2 p3 p4 p5 p6 p7 b3v (ix3 i s j)
      = (![p0, p1, p2, p3, p4, p5, p6, p7] s) (ix2 i j) + b3v (ix2 0 j) := by
  unfold kStack
  rw [addf_apply]
  refine congrArg₂ (· + ·) ?_ ?_
  · refine (Idealize.ShloMosaic.ConcatUnit.concatenate_mid_apply
      ![shapeCast S256x1x128 p0 shapeCasts_S256x128_S256x1x128, shapeCast S256x1x128 p1 shapeCasts_S256x128_S256x1x128,
        shapeCast S256x1x128 p2 shapeCasts_S256x128_S256x1x128, shapeCast S256x1x128 p3 shapeCasts_S256x128_S256x1x128,
        shapeCast S256x1x128 p4 shapeCasts_S256x128_S256x1x128, shapeCast S256x1x128 p5 shapeCasts_S256x128_S256x1x128,
        shapeCast S256x1x128 p6 shapeCasts_S256x128_S256x1x128, shapeCast S256x1x128 p7 shapeCasts_S256x128_S256x1x128]
      _ rfl
      concatenates_S256x1x128_S256x1x128_S256x1x128_S256x1x128_S256x1x128_S256x1x128_S256x1x128_S256x1x128_S256x8x128_d1
      i s j).trans ?_
    match s with
    | ⟨0, _⟩ => exact cast_mid_unit_apply p0 _ i 0 j
    | ⟨1, _⟩ => exact cast_mid_unit_apply p1 _ i 0 j
    | ⟨2, _⟩ => exact cast_mid_unit_apply p2 _ i 0 j
    | ⟨3, _⟩ => exact cast_mid_unit_apply p3 _ i 0 j
    | ⟨4, _⟩ => exact cast_mid_unit_apply p4 _ i 0 j
    | ⟨5, _⟩ => exact cast_mid_unit_apply p5 _ i 0 j
    | ⟨6, _⟩ => exact cast_mid_unit_apply p6 _ i 0 j
    | ⟨7, _⟩ => exact cast_mid_unit_apply p7 _ i 0 j
  · refine (Cert.LibFlatten3.broadcastTo_11c_abc_apply _ broadcasts_S1x1x128_S256x8x128 i s j).trans ?_
    exact cast_row_11c_apply b3v shapeCasts_S1x128_S1x1x128 0 0 j

/-- The initial state at (b, κ): the start row's feature κ, then a one in column 128, then zeros. -/
theorem init_apply (x0 : Vec Ideal S512x128 .f32) (b : Fin 512) (κ : Fin 256) :
    kInit (F := Ideal) x0 (ix2 b κ)
      = if h : κ.val < 128 then x0 (ix2 b ⟨κ.val, h⟩) else if κ.val = 128 then 1 else 0 := by
  unfold kInit k0_pay2
  rw [shapeCast_self, shapeCast_self]
  by_cases h : κ.val < 128
  · rw [dif_pos h]
    exact Cert.LibConcatCols.concat_cols_left _ _ concatenates_S512x128_S512x128_S512x256_d1 b ⟨κ.val, h⟩ κ rfl
  · rw [dif_neg h]
    refine (Cert.LibConcatCols.concat_cols_right _ _ concatenates_S512x128_S512x128_S512x256_d1 b
      (⟨κ.val - 128, by omega⟩ : Fin 128) κ (by show κ.val = 128 + (κ.val - 128); omega)).trans ?_
    by_cases h1 : κ.val = 128
    · rw [if_pos h1]
      refine (Cert.LibConcatCols.concat_cols_left _ _ concatenates_S512x1_S512x127_S512x128_d1 b (0 : Fin 1)
        (⟨κ.val - 128, by omega⟩ : Fin 128) (by show κ.val - 128 = 0; omega)).trans ?_
      show Ideal.ofBits .f32 0x3F800000#32 = 1
      exact Ideal.ofBits_one_f32
    · rw [if_neg h1]
      refine (Cert.LibConcatCols.concat_cols_right _ _ concatenates_S512x1_S512x127_S512x128_d1 b
        (⟨κ.val - 129, by omega⟩ : Fin 127) (⟨κ.val - 128, by omega⟩ : Fin 128)
        (by show κ.val - 128 = 1 + (κ.val - 129); omega)).trans ?_
      show Ideal.ofBits .f32 0x00000000#32 = 0
      exact Ideal.ofBits_zero_f32

end Cert.KernelIdeal.KSem

end
-- ==== Proof.KPoint.lean ====
/-
  One grid point's loads and stores, read as functions of the arrays.

  The carried state is a [512, 256] array whose two halves of 256 rows are loaded and stored through the rectangles
  at row offsets 0 and 256; likewise the [512, 8, 128] prediction block and the [512, 1024] prepared-noise buffer.
  A unit-stride rectangle places its local index at offset + local coordinate, so local row i of the lower rectangle is
  row i of the array and local row i of the upper one is row 256 + i. What a list of stored pieces leaves at an index
  is the payload of the first piece whose rectangle holds the index.
-/
import proofs.«146222_g2000209494350815_pallasbulk_913_23_alg».proof.Proof.KSemIdx1
import proofs.«146222_g2000209494350815_pallasbulk_913_23_alg».proof.Proof.KSemIdx2
import Idealize.ShloMosaic.Lib.Pipeline.FrameBody
import Idealize.ShloMosaic.Lib.Pipeline.Value

noncomputable section

open scoped BigOperators

namespace Cert.KernelIdeal.KSem

open Idealize.ShloMosaic Idealize.SL.Sem Cert.KernelIdeal Cert.KernelIdeal.Gen Idealize.ShloMosaic.ValueIdx

/-- The whole carried state array carries the 512 rows `v`: features, a one, zeros. -/
def Aug512 (xs : Vec Ideal S512x256 .f32) (v : Fin 512 → Fin 128 → EReal) : Prop :=
  ∀ (b : Fin 512) (κ : Fin 256), xs (ix2 b κ) =
    if h : κ.val < 128 then v b ⟨κ.val, h⟩ else if κ.val = 128 then 1 else 0

/-- Rows 0..255 of the state. -/
abbrev rLoSt : Rect S512x256 := Rect.unit (s := S512x256) ![0, 0] S256x256.size inb_S512x256_S256x256_0_0
/-- Rows 256..511 of the state. -/
abbrev rHiSt : Rect S512x256 := Rect.unit (s := S512x256) ![256, 0] S256x256.size inb_S512x256_S256x256_256_0
/-- Rows 0..255 of the prediction block. -/
abbrev rLoOut : Rect S512x8x128 := Rect.unit (s := S512x8x128) ![0, 0, 0] S256x8x128.size inb_S512x8x128_S256x8x128_0_0_0
/-- Rows 256..511 of the prediction block. -/
abbrev rHiOut : Rect S512x8x128 := Rect.unit (s := S512x8x128) ![256, 0, 0] S256x8x128.size inb_S512x8x128_S256x8x128_256_0_0
/-- Rows 0..255 of the prepared-noise buffer. -/
abbrev rLoN : Rect S512x1024 := Rect.unit (s := S512x1024) ![0, 0] S256x1024.size inb_S512x1024_S256x1024_0_0
/-- Rows 256..511 of the prepared-noise buffer. -/
abbrev rHiN : Rect S512x1024 := Rect.unit (s := S512x1024) ![256, 0] S256x1024.size inb_S512x1024_S256x1024_256_0

/-! ## Where the rectangles place their local indices -/

theorem rLoSt_emb (i κ : Fin 256) : rLoSt.emb (ix2 i κ) = ix2 (⟨i.val, by omega⟩ : Fin 512) κ :=
  funext fun a => Fin.ext (by
    match a with
    | ⟨0, _⟩ => show 0 + 1 * i.val = i.val; omega
    | ⟨1, _⟩ => show 0 + 1 * κ.val = κ.val; omega)

theorem rHiSt_emb (i κ : Fin 256) : rHiSt.emb (ix2 i κ) = ix2 (⟨256 + i.val, by omega⟩ : Fin 512) κ :=
  funext fun a => Fin.ext (by
    match a with
    | ⟨0, _⟩ => show 256 + 1 * i.val = 256 + i.val; omega
    | ⟨1, _⟩ => show 0 + 1 * κ.val = κ.val; omega)

theorem rLoOut_emb (i : Fin 256) (s : Fin 8) (j : Fin 128) :
    rLoOut.emb (ix3 i s j) = ix3 (⟨i.val, by omega⟩ : Fin 512) s j :=
  funext fun a => Fin.ext (by
    match a with
    | ⟨0, _⟩ => show 0 + 1 * i.val = i.val; omega
    | ⟨1, _⟩ => show 0 + 1 * s.val = s.val; omega
    | ⟨2, _⟩ => show 0 + 1 * j.val = j.val; omega)

theorem rHiOut_emb (i : Fin 256) (s : Fin 8) (j : Fin 128) :
    rHiOut.emb (ix3 i s j) = ix3 (⟨256 + i.val, by omega⟩ : Fin 512) s j :=
  funext fun a => Fin.ext (by
    match a with
    | ⟨0, _⟩ => show 256 + 1 * i.val = 256 + i.val; omega
    | ⟨1, _⟩ => show 0 + 1 * s.val = s.val; omega
    | ⟨2, _⟩ => show 0 + 1 * j.val = j.val; omega)

theorem rLoN_emb (i : Fin 256) (c : Fin 1024) : rLoN.emb (ix2 i c) = ix2 (⟨i.val, by omega⟩ : Fin 512) c :=
  funext fun a => Fin.ext (by
    match a with
    | ⟨0, _⟩ => show 0 + 1 * i.val = i.val; omega
    | ⟨1, _⟩ => show 0 + 1 * c.val = c.val; omega)

theorem rHiN_emb (i : Fin 256) (c : Fin 1024) : rHiN.emb (ix2 i c) = ix2 (⟨256 + i.val, by omega⟩ : Fin 512) c :=
  funext fun a => Fin.ext (by
    match a with
    | ⟨0, _⟩ => show 256 + 1 * i.val = 256 + i.val; omega
    | ⟨1, _⟩ => show 0 + 1 * c.val = c.val; omega)

/-- A row below 256 is not in the upper rectangle of the state. -/
theorem not_mem_rHiSt (i : Fin 256) (κ : Fin 256) : ix2 (⟨i.val, by omega⟩ : Fin 512) κ ∉ rHiSt.set := by
  rw [Rect.mem_set_unit]
  intro hm
  have h0 : 256 ≤ i.val := (hm 0).1
  omega

/-- A row below 256 is not in the upper rectangle of the prediction block. -/
theorem not_mem_rHiOut (i : Fin 256) (s : Fin 8) (j : Fin 128) : ix3 (⟨i.val, by omega⟩ : Fin 512) s j ∉ rHiOut.set := by
  rw [Rect.mem_set_unit]
  intro hm
  have h0 : 256 ≤ i.val := (hm 0).1
  omega

/-- A row below 256 is not in the upper rectangle of the prepared-noise buffer. -/
theorem not_mem_rHiN (i : Fin 256) (c : Fin 1024) : ix2 (⟨i.val, by omega⟩ : Fin 512) c ∉ rHiN.set := by
  rw [Rect.mem_set_unit]
  intro hm
  have h0 : 256 ≤ i.val := (hm 0).1
  omega

/-! ## What two stores through the halves' rectangles leave

  The upper half's store is the later one. A row below 256 is outside its rectangle, so it reads the lower half's
  payload at the same local row; a row from 256 reads the upper half's payload at local row − 256. -/

theorem canon_lo_st (wHi wLo : Vec Ideal S256x256 .f32) (L : List (View.Piece (Elt Ideal) S512x256 .f32)) (i κ : Fin 256) :
    View.canon ((⟨rHiSt, wHi⟩ : View.Piece (Elt Ideal) S512x256 .f32) :: ⟨rLoSt, wLo⟩ :: L)
      (ix2 (⟨i.val, by omega⟩ : Fin 512) κ) = wLo (ix2 i κ) :=
  (View.canon_cons_of_not_mem (Val := Elt Ideal) (e := .f32) (⟨rHiSt, wHi⟩ : View.Piece (Elt Ideal) S512x256 .f32) (⟨rLoSt, wLo⟩ :: L)
      (not_mem_rHiSt i κ)).trans
    ((congrArg (View.canon ((⟨rLoSt, wLo⟩ : View.Piece (Elt Ideal) S512x256 .f32) :: L)) (rLoSt_emb i κ).symm).trans
      (View.canon_cons_emb (Val := Elt Ideal) (e := .f32) rLoSt wLo L (ix2 i κ)))

theorem canon_hi_st (wHi : Vec Ideal S256x256 .f32) (L : List (View.Piece (Elt Ideal) S512x256 .f32)) (i κ : Fin 256) :
    View.canon ((⟨rHiSt, wHi⟩ : View.Piece (Elt Ideal) S512x256 .f32) :: L)
      (ix2 (⟨256 + i.val, by omega⟩ : Fin 512) κ) = wHi (ix2 i κ) :=
  (congrArg (View.canon ((⟨rHiSt, wHi⟩ : View.Piece (Elt Ideal) S512x256 .f32) :: L)) (rHiSt_emb i κ).symm).trans
    (View.canon_cons_emb (Val := Elt Ideal) (e := .f32) rHiSt wHi L (ix2 i κ))

theorem canon_lo_out (wHi wLo : Vec Ideal S256x8x128 .f32) (L : List (View.Piece (Elt Ideal) S512x8x128 .f32))
    (i : Fin 256) (s : Fin 8) (j : Fin 128) :
    View.canon ((⟨rHiOut, wHi⟩ : View.Piece (Elt Ideal) S512x8x128 .f32) :: ⟨rLoOut, wLo⟩ :: L)
      (ix3 (⟨i.val, by omega⟩ : Fin 512) s j) = wLo (ix3 i s j) :=
  (View.canon_cons_of_not_mem (Val := Elt Ideal) (e := .f32) (⟨rHiOut, wHi⟩ : View.Piece (Elt Ideal) S512x8x128 .f32) (⟨rLoOut, wLo⟩ :: L)
      (not_mem_rHiOut i s j)).trans
    ((congrArg (View.canon ((⟨rLoOut, wLo⟩ : View.Piece (Elt Ideal) S512x8x128 .f32) :: L)) (rLoOut_emb i s j).symm).trans
      (View.canon_cons_emb (Val := Elt Ideal) (e := .f32) rLoOut wLo L (ix3 i s j)))

theorem canon_hi_out (wHi : Vec Ideal S256x8x128 .f32) (L : List (View.Piece (Elt Ideal) S512x8x128 .f32))
    (i : Fin 256) (s : Fin 8) (j : Fin 128) :
    View.canon ((⟨rHiOut, wHi⟩ : View.Piece (Elt Ideal) S512x8x128 .f32) :: L)
      (ix3 (⟨256 + i.val, by omega⟩ : Fin 512) s j) = wHi (ix3 i s j) :=
  (congrArg (View.canon ((⟨rHiOut, wHi⟩ : View.Piece (Elt Ideal) S512x8x128 .f32) :: L)) (rHiOut_emb i s j).symm).trans
    (View.canon_cons_emb (Val := Elt Ideal) (e := .f32) rHiOut wHi L (ix3 i s j))

theorem canon_lo_n (wHi wLo : Vec Ideal S256x1024 .f32) (L : List (View.Piece (Elt Ideal) S512x1024 .f32))
    (i : Fin 256) (c : Fin 1024) :
    View.canon ((⟨rHiN, wHi⟩ : View.Piece (Elt Ideal) S512x1024 .f32) :: ⟨rLoN, wLo⟩ :: L)
      (ix2 (⟨i.val, by omega⟩ : Fin 512) c) = wLo (ix2 i c) :=
  (View.canon_cons_of_not_mem (Val := Elt Ideal) (e := .f32) (⟨rHiN, wHi⟩ : View.Piece (Elt Ideal) S512x1024 .f32) (⟨rLoN, wLo⟩ :: L)
      (not_mem_rHiN i c)).trans
    ((congrArg (View.canon ((⟨rLoN, wLo⟩ : View.Piece (Elt Ideal) S512x1024 .f32) :: L)) (rLoN_emb i c).symm).trans
      (View.canon_cons_emb (Val := Elt Ideal) (e := .f32) rLoN wLo L (ix2 i c)))

theorem canon_hi_n (wHi : Vec Ideal S256x1024 .f32) (L : List (View.Piece (Elt Ideal) S512x1024 .f32))
    (i : Fin 256) (c : Fin 1024) :
    View.canon ((⟨rHiN, wHi⟩ : View.Piece (Elt Ideal) S512x1024 .f32) :: L)
      (ix2 (⟨256 + i.val, by omega⟩ : Fin 512) c) = wHi (ix2 i c) :=
  (congrArg (View.canon ((⟨rHiN, wHi⟩ : View.Piece (Elt Ideal) S512x1024 .f32) :: L)) (rHiN_emb i c).symm).trans
    (View.canon_cons_emb (Val := Elt Ideal) (e := .f32) rHiN wHi L (ix2 i c))

/-! ## The halves of the state -/

/-- The two loaded halves of a state array that carries the rows `v` carry the rows 0..255 and 256..511. -/
theorem aug_halves (xs : Vec Ideal S512x256 .f32) (v : Fin 512 → Fin 128 → EReal) (h : Aug512 xs v) :
    Aug (View.ld xs rLoSt) (fun i => v ⟨i.val, by omega⟩) ∧ Aug (View.ld xs rHiSt) (fun i => v ⟨256 + i.val, by omega⟩) :=
  ⟨fun i κ => (congrArg xs (rLoSt_emb i κ)).trans (h ⟨i.val, by omega⟩ κ),
   fun i κ => (congrArg xs (rHiSt_emb i κ)).trans (h ⟨256 + i.val, by omega⟩ κ)⟩

/-- The initial state carries the start rows. -/
theorem aug512_init (x0 : Vec Ideal S512x128 .f32) : Aug512 (kInit (F := Ideal) x0) (fun b j => x0 (ix2 b j)) :=
  fun b κ => init_apply x0 b κ

/-! ## Two loop-invariant values -/

/-- The stacked first-layer matrix as the loop keeps it: the loaded array itself. -/
theorem pay3_apply (v3 : Vec Ideal S256x256 .f32) (κ k : Fin 256) : k0_pay3 (F := Ideal) v3 (ix2 κ k) = v3 (ix2 κ k) :=
  congrFun (shapeCast_self v3 shapeCasts_S256x256_S256x256) (ix2 κ k)

/-- The second bias spread over the rows: every row is the bias row. -/
theorem pay4_apply (v7 : Vec Ideal S1x256 .f32) (i k : Fin 256) : k0_pay4 (F := Ideal) v7 (ix2 i k) = v7 (ix2 0 k) :=
  (Cert.LibRowLayout.broadcastTo_1b_ab_apply _ broadcasts_S1x256_S256x256 i k).trans
    (congrFun (shapeCast_self v7 shapeCasts_S1x256_S1x256) (ix2 (0 : Fin 1) k))

/-! ## The prepared-noise slabs -/

section Noise

variable (nb0 nb1 : Vec Ideal S256x8x128 .f32) (b3v : Vec Ideal S1x128 .f32)

/-- What the two stores of the prepared noise leave in the buffer. -/
abbrev noisePieces : List (View.Piece (Elt Ideal) S512x1024 .f32) :=
  [⟨rHiN, shapeCast S256x1024 (kNscr nb1 b3v) shapeCasts_S256x1024_S256x1024⟩,
   ⟨rLoN, shapeCast S256x1024 (kNscr nb0 b3v) shapeCasts_S256x1024_S256x1024⟩]

/-- A [256, 128] load from rows 0.., columns 128·s.. of the buffer reads the first half's prepared noise of step s. -/
theorem nslab_lo (o : Fin 2 → ℕ) (inb : ∀ a, o a + S256x128.size a ≤ S512x1024.size a) (s : Fin 8)
    (ho0 : o 0 = 0) (ho1 : o 1 = 128 * s.val) (i : Fin 256) (j : Fin 128) :
    View.canon (noisePieces nb0 nb1 b3v) ((Rect.unit (s := S512x1024) o S256x128.size inb).idx (ix2 i j))
      = nb0 (ix3 i s j) * Cert.Rollout.sigma + b3v (ix2 0 j) := by
  have ey : (Rect.unit (s := S512x1024) o S256x128.size inb).idx (ix2 i j)
      = ix2 (⟨i.val, by omega⟩ : Fin 512) (⟨128 * s.val + j.val, by omega⟩ : Fin 1024) :=
    funext fun a => Fin.ext (by
      match a with
      | ⟨0, _⟩ => show o 0 + 1 * i.val = i.val; rw [ho0]; omega
      | ⟨1, _⟩ => show o 1 + 1 * j.val = 128 * s.val + j.val; rw [ho1]; omega)
  rw [ey]
  refine (canon_lo_n (shapeCast S256x1024 (kNscr nb1 b3v) shapeCasts_S256x1024_S256x1024)
    (shapeCast S256x1024 (kNscr nb0 b3v) shapeCasts_S256x1024_S256x1024) [] i ⟨128 * s.val + j.val, by omega⟩).trans ?_
  exact (congrFun (shapeCast_self (kNscr nb0 b3v) shapeCasts_S256x1024_S256x1024) _).trans (nscr_apply nb0 b3v i s j)

/-- A [256, 128] load from rows 256.., columns 128·s.. of the buffer reads the second half's prepared noise of step s. -/
theorem nslab_hi (o : Fin 2 → ℕ) (inb : ∀ a, o a + S256x128.size a ≤ S512x1024.size a) (s : Fin 8)
    (ho0 : o 0 = 256) (ho1 : o 1 = 128 * s.val) (i : Fin 256) (j : Fin 128) :
    View.canon (noisePieces nb0 nb1 b3v) ((Rect.unit (s := S512x1024) o S256x128.size inb).idx (ix2 i j))
      = nb1 (ix3 i s j) * Cert.Rollout.sigma + b3v (ix2 0 j) := by
  have ey : (Rect.unit (s := S512x1024) o S256x128.size inb).idx (ix2 i j)
      = ix2 (⟨256 + i.val, by omega⟩ : Fin 512) (⟨128 * s.val + j.val, by omega⟩ : Fin 1024) :=
    funext fun a => Fin.ext (by
      match a with
      | ⟨0, _⟩ => show o 0 + 1 * i.val = 256 + i.val; rw [ho0]; omega
      | ⟨1, _⟩ => show o 1 + 1 * j.val = 128 * s.val + j.val; rw [ho1]; omega)
  rw [ey]
  refine (canon_hi_n (shapeCast S256x1024 (kNscr nb1 b3v) shapeCasts_S256x1024_S256x1024)
    [⟨rLoN, shapeCast S256x1024 (kNscr nb0 b3v) shapeCasts_S256x1024_S256x1024⟩] i ⟨128 * s.val + j.val, by omega⟩).trans ?_
  exact (congrFun (shapeCast_self (kNscr nb1 b3v) shapeCasts_S256x1024_S256x1024) _).trans (nscr_apply nb1 b3v i s j)

end Noise

end Cert.KernelIdeal.KSem

end
-- ==== Proof.KPoint2.lean ====
/-
  One grid point's results against the row-by-row specification.

  The point runs eight steps from the two halves' states. The prediction block it stores is, at (row, step, feature),
  the row's prediction at that step of the point; the state it stores back is, row by row, the rollout state after
  eight steps, in the [features | 1 | 0 …] form. Rows below 256 sit in the lower rectangles at the same local row,
  rows from 256 in the upper ones at local row − 256.
-/
import proofs.«146222_g2000209494350815_pallasbulk_913_23_alg».proof.Proof.KSemIdx3
import proofs.«146222_g2000209494350815_pallasbulk_913_23_alg».proof.Proof.KPoint

noncomputable section

open scoped BigOperators

namespace Cert.KernelIdeal.KSem

open Idealize.ShloMosaic Idealize.SL.Sem Cert.KernelIdeal Cert.KernelIdeal.Gen Idealize.ShloMosaic.ValueIdx
open Cert.Rollout (sigma fnet state pred)

/-- The stacked predictions of a sequence of slices `q 0 … q 7` at (i, s, j): slice s at (i, j), plus b3's entry j. -/
theorem stack_seq_apply (q : ℕ → FVec Ideal S256x128 .f32) (b3v : Vec Ideal S1x128 .f32)
    (i : Fin 256) (s : Fin 8) (j : Fin 128) :
    kStack (F := Ideal) (q 0) (q 1) (q 2) (q 3) (q 4) (q 5) (q 6) (q 7) b3v (ix3 i s j)
      = q s.val (ix2 i j) + b3v (ix2 0 j) := by
  rw [stack_apply]
  match s with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- A row of the 512 is row i of the lower half or row 256 + i of the upper half. -/
theorem row_cases (b : Fin 512) :
    (∃ i : Fin 256, b = ⟨i.val, Nat.lt_trans i.isLt (by decide)⟩) ∨
      (∃ i : Fin 256, b = ⟨256 + i.val, Nat.add_lt_add_left i.isLt 256⟩) := by
  by_cases hlt : b.val < 256
  · exact Or.inl ⟨⟨b.val, hlt⟩, rfl⟩
  · exact Or.inr ⟨⟨b.val - 256, by omega⟩, Fin.ext (by show b.val = 256 + (b.val - 256); omega)⟩

section Point

variable (w1 : (⟨2, ![128, 256]⟩ : Shape).Idx → EReal) (b1 : (⟨2, ![1, 256]⟩ : Shape).Idx → EReal)
  (w2 : (⟨2, ![256, 256]⟩ : Shape).Idx → EReal) (b2 : (⟨2, ![1, 256]⟩ : Shape).Idx → EReal)
  (w3 : (⟨2, ![256, 128]⟩ : Shape).Idx → EReal) (b3 : (⟨2, ![1, 128]⟩ : Shape).Idx → EReal)
  (w1a : FVec Ideal S256x256 .f32) (x3 : Vec Ideal S256x256 .f32) (x5 : Vec Ideal S256x128 .f32)
  (b2bc : FVec Ideal S256x256 .f32) (bra brb : Vec Ideal S1x128 .f32)
  (n0 n1 : ℕ → Vec Ideal S256x128 .f32) (xa xb : FVec Ideal S256x256 .f32)
  (v : Fin 512 → Fin 128 → EReal) (nz : Fin 512 → ℕ → Fin 128 → EReal)

/-- The second half's eight predictions of the point, stacked. -/
abbrev outHi : FVec Ideal S256x8x128 .f32 :=
  kStack (kP1 (kFA w1a x3 x5 b2bc n0 n1 xa xb 0)) (kP1 (kFA w1a x3 x5 b2bc n0 n1 xa xb 1))
    (kP1 (kFA w1a x3 x5 b2bc n0 n1 xa xb 2)) (kP1 (kFA w1a x3 x5 b2bc n0 n1 xa xb 3))
    (kP1 (kFA w1a x3 x5 b2bc n0 n1 xa xb 4)) (kP1 (kFA w1a x3 x5 b2bc n0 n1 xa xb 5))
    (kP1 (kFA w1a x3 x5 b2bc n0 n1 xa xb 6)) (kP1 (kFA w1a x3 x5 b2bc n0 n1 xa xb 7)) brb

/-- The first half's eight predictions of the point, stacked. -/
abbrev outLo : FVec Ideal S256x8x128 .f32 :=
  kStack (kP0 (kFA w1a x3 x5 b2bc n0 n1 xa xb 0)) (kP0 (kFA w1a x3 x5 b2bc n0 n1 xa xb 1))
    (kP0 (kFA w1a x3 x5 b2bc n0 n1 xa xb 2)) (kP0 (kFA w1a x3 x5 b2bc n0 n1 xa xb 3))
    (kP0 (kFA w1a x3 x5 b2bc n0 n1 xa xb 4)) (kP0 (kFA w1a x3 x5 b2bc n0 n1 xa xb 5))
    (kP0 (kFA w1a x3 x5 b2bc n0 n1 xa xb 6)) (kP0 (kFA w1a x3 x5 b2bc n0 n1 xa xb 7)) bra

/-- What the point's two stores of predictions leave in the prediction block. -/
abbrev outPieces : List (View.Piece (Elt Ideal) S512x8x128 .f32) :=
  [⟨rHiOut, outHi w1a x3 x5 b2bc brb n0 n1 xa xb⟩, ⟨rLoOut, outLo w1a x3 x5 b2bc bra n0 n1 xa xb⟩]

/-- The prediction block after the point: at (b, s, j), row b's prediction at step s of the point. -/
theorem point_out (hw1 : StackedW1 w1a w1 b1) (hw2 : ∀ κ k : Fin 256, x3 (ix2 κ k) = w2 (ix2 κ k))
    (hb2 : ∀ i k : Fin 256, b2bc (ix2 i k) = b2 (ix2 0 k))
    (hw3 : ∀ (κ : Fin 256) (j : Fin 128), x5 (ix2 κ j) = w3 (ix2 κ j))
    (hbra : ∀ j : Fin 128, bra (ix2 0 j) = b3 (ix2 0 j)) (hbrb : ∀ j : Fin 128, brb (ix2 0 j) = b3 (ix2 0 j))
    (hn0 : ∀ s, s < 8 → ∀ (i : Fin 256) (j : Fin 128),
      n0 s (ix2 i j) = nz ⟨i.val, by omega⟩ s j * sigma + b3 (ix2 0 j))
    (hn1 : ∀ s, s < 8 → ∀ (i : Fin 256) (j : Fin 128),
      n1 s (ix2 i j) = nz ⟨256 + i.val, by omega⟩ s j * sigma + b3 (ix2 0 j))
    (ha : Aug xa (fun i => v ⟨i.val, by omega⟩)) (hb : Aug xb (fun i => v ⟨256 + i.val, by omega⟩))
    (b : Fin 512) (s : Fin 8) (j : Fin 128) :
    View.canon (outPieces w1a x3 x5 b2bc bra brb n0 n1 xa xb) (ix3 b s j)
      = pred w1 b1 w2 b2 w3 b3 (v b) (nz b) s.val j := by
  have hp := block_pred w1 b1 w2 b2 w3 b3 w1a x3 x5 b2bc n0 n1 xa xb
    (fun i => v ⟨i.val, by omega⟩) (fun i => v ⟨256 + i.val, by omega⟩)
    (fun i => nz ⟨i.val, by omega⟩) (fun i => nz ⟨256 + i.val, by omega⟩)
    hw1 hw2 hb2 hw3 hn0 hn1 ha hb s.val s.isLt
  rcases row_cases b with ⟨i, rfl⟩ | ⟨i, rfl⟩
  · refine (canon_lo_out (outHi w1a x3 x5 b2bc brb n0 n1 xa xb) (outLo w1a x3 x5 b2bc bra n0 n1 xa xb) [] i s j).trans ?_
    refine (stack_seq_apply (fun k => kP0 (kFA w1a x3 x5 b2bc n0 n1 xa xb k)) bra i s j).trans ?_
    rw [hbra]
    exact (hp i j).1
  · refine (canon_hi_out (outHi w1a x3 x5 b2bc brb n0 n1 xa xb) [⟨rLoOut, outLo w1a x3 x5 b2bc bra n0 n1 xa xb⟩] i s j).trans ?_
    refine (stack_seq_apply (fun k => kP1 (kFA w1a x3 x5 b2bc n0 n1 xa xb k)) brb i s j).trans ?_
    rw [hbrb]
    exact (hp i j).2

/-- The state array after the point's two stores (whatever was stored before): every row in the
    [features | 1 | 0 …] form of its rollout state after the point's eight steps. -/
theorem point_state (hw1 : StackedW1 w1a w1 b1) (hw2 : ∀ κ k : Fin 256, x3 (ix2 κ k) = w2 (ix2 κ k))
    (hb2 : ∀ i k : Fin 256, b2bc (ix2 i k) = b2 (ix2 0 k))
    (hw3 : ∀ (κ : Fin 256) (j : Fin 128), x5 (ix2 κ j) = w3 (ix2 κ j))
    (hn0 : ∀ s, s < 8 → ∀ (i : Fin 256) (j : Fin 128),
      n0 s (ix2 i j) = nz ⟨i.val, by omega⟩ s j * sigma + b3 (ix2 0 j))
    (hn1 : ∀ s, s < 8 → ∀ (i : Fin 256) (j : Fin 128),
      n1 s (ix2 i j) = nz ⟨256 + i.val, by omega⟩ s j * sigma + b3 (ix2 0 j))
    (ha : Aug xa (fun i => v ⟨i.val, by omega⟩)) (hb : Aug xb (fun i => v ⟨256 + i.val, by omega⟩))
    (L : List (View.Piece (Elt Ideal) S512x256 .f32)) (b : Fin 512) (κ : Fin 256) :
    View.canon
        ((⟨rHiSt, shapeCast S256x256 (kX w1a x3 x5 b2bc n0 n1 xa xb 8).2 shapeCasts_S256x256_S256x256⟩ :
            View.Piece (Elt Ideal) S512x256 .f32) ::
          ⟨rLoSt, shapeCast S256x256 (kX w1a x3 x5 b2bc n0 n1 xa xb 8).1 shapeCasts_S256x256_S256x256⟩ :: L)
        (ix2 b κ)
      = if h : κ.val < 128 then state w1 b1 w2 b2 w3 b3 (v b) (nz b) 8 ⟨κ.val, h⟩ else if κ.val = 128 then 1 else 0 := by
  have hs := block_state w1 b1 w2 b2 w3 b3 w1a x3 x5 b2bc n0 n1 xa xb
    (fun i => v ⟨i.val, by omega⟩) (fun i => v ⟨256 + i.val, by omega⟩)
    (fun i => nz ⟨i.val, by omega⟩) (fun i => nz ⟨256 + i.val, by omega⟩)
    hw1 hw2 hb2 hw3 hn0 hn1 ha hb 8 (Nat.le_refl 8)
  rcases row_cases b with ⟨i, rfl⟩ | ⟨i, rfl⟩
  · refine (canon_lo_st (shapeCast S256x256 (kX w1a x3 x5 b2bc n0 n1 xa xb 8).2 shapeCasts_S256x256_S256x256)
      (shapeCast S256x256 (kX w1a x3 x5 b2bc n0 n1 xa xb 8).1 shapeCasts_S256x256_S256x256) L i κ).trans ?_
    exact (congrFun (shapeCast_self (kX w1a x3 x5 b2bc n0 n1 xa xb 8).1 shapeCasts_S256x256_S256x256) _).trans (hs.1 i κ)
  · refine (canon_hi_st (shapeCast S256x256 (kX w1a x3 x5 b2bc n0 n1 xa xb 8).2 shapeCasts_S256x256_S256x256)
      (⟨rLoSt, shapeCast S256x256 (kX w1a x3 x5 b2bc n0 n1 xa xb 8).1 shapeCasts_S256x256_S256x256⟩ :: L) i κ).trans ?_
    exact (congrFun (shapeCast_self (kX w1a x3 x5 b2bc n0 n1 xa xb 8).2 shapeCasts_S256x256_S256x256) _).trans (hs.2 i κ)

end Point

end Cert.KernelIdeal.KSem

end
-- ==== Proof.KIValueCore.lean ====
/-
  One grid point of the kernel, in terms of the rollout: from what the point is handed to what it leaves.

  A point is handed the two halves of the state (every row in the form [features | 1 | 0 …] of its rollout state
  before the point's first step), its block of eight noise rows per batch row, and the weights. Its sixteen loads of
  prepared-noise slabs read sigma·noise + b3 of the step and half they name. Then the prediction block it stores holds,
  at (row, step, feature), the row's prediction at that step counted from the point's first, and the state it stores
  holds every row's rollout state eight steps on.
-/
import proofs.«146222_g2000209494350815_pallasbulk_913_23_alg».proof.Proof.KILists
import proofs.«146222_g2000209494350815_pallasbulk_913_23_alg».proof.Proof.KPoint2
import proofs.«146222_g2000209494350815_pallasbulk_913_23_alg».proof.Proof.RolloutLaws

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.KernelIdeal.KSem Cert.KernelIdeal.Hand

/-- A slab load of the first half (rows 0.., columns 128·s..) reads sigma·noise + b3 at step s of rows 0..255. -/
theorem slabsem_lo (x1 : Vec Ideal S512x8x128 .f32) (x6 : Vec Ideal S1x128 .f32)
    (LH : List (View.Piece (Elt Ideal) S512x1024 .f32))
    (hL : LH = noisePieces (View.ld x1 rLoOut) (View.ld x1 rHiOut) x6)
    (o : Fin 2 → ℕ) (inb : ∀ a, o a + S256x128.size a ≤ S512x1024.size a) (s : Fin 8) (ho0 : o 0 = 0) (ho1 : o 1 = 128 * s.val)
    (sl : Vec Ideal S256x128 .f32)
    (hsl : sl = fun j => View.canon LH ((Rect.unit (s := S512x1024) o S256x128.size inb).toLoadRect.idx j))
    (i : Fin 256) (j : Fin 128) :
    sl (ix2 i j) = x1 (ix3 (⟨i.val, by omega⟩ : Fin 512) s j) * Cert.Rollout.sigma + x6 (ix2 0 j) := by
  subst hsl hL
  refine (nslab_lo (View.ld x1 rLoOut) (View.ld x1 rHiOut) x6 o inb s ho0 ho1 i j).trans ?_
  show x1 (rLoOut.emb (ix3 i s j)) * _ + _ = _
  rw [rLoOut_emb]

/-- A slab load of the second half (rows 256.., columns 128·s..) reads sigma·noise + b3 at step s of rows 256..511. -/
theorem slabsem_hi (x1 : Vec Ideal S512x8x128 .f32) (x6 : Vec Ideal S1x128 .f32)
    (LH : List (View.Piece (Elt Ideal) S512x1024 .f32))
    (hL : LH = noisePieces (View.ld x1 rLoOut) (View.ld x1 rHiOut) x6)
    (o : Fin 2 → ℕ) (inb : ∀ a, o a + S256x128.size a ≤ S512x1024.size a) (s : Fin 8) (ho0 : o 0 = 256) (ho1 : o 1 = 128 * s.val)
    (sl : Vec Ideal S256x128 .f32)
    (hsl : sl = fun j => View.canon LH ((Rect.unit (s := S512x1024) o S256x128.size inb).toLoadRect.idx j))
    (i : Fin 256) (j : Fin 128) :
    sl (ix2 i j) = x1 (ix3 (⟨256 + i.val, by omega⟩ : Fin 512) s j) * Cert.Rollout.sigma + x6 (ix2 0 j) := by
  subst hsl hL
  refine (nslab_hi (View.ld x1 rLoOut) (View.ld x1 rHiOut) x6 o inb s ho0 ho1 i j).trans ?_
  show x1 (rHiOut.emb (ix3 i s j)) * _ + _ = _
  rw [rHiOut_emb]

end Cert.KernelIdeal.KValue

end
-- ==== Proof.KIPoint.lean ====
/-
  A grid point of the kernel as the run found it, in terms of the rollout.

  The run's pieces are the block-form lists; the slab loads are the prepared noise of the step and half they name; the
  loaded blocks are the weights, the noise rows and (at a later point) the carried state, or (at the first point) the
  start rows. So the prediction block a point leaves holds the rows' predictions at its eight steps, and the state it
  leaves holds every row's state eight steps on.
-/
import proofs.«146222_g2000209494350815_pallasbulk_913_23_alg».proof.Proof.KIValueCore

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.KernelIdeal.KSem Cert.KernelIdeal.Hand

set_option maxHeartbeats 2000000 in
/-- One later grid point: the prediction block and the state it leaves, from the state it was handed. -/
theorem point_B (w1 : (⟨2, ![128, 256]⟩ : Shape).Idx → EReal) (b1 : (⟨2, ![1, 256]⟩ : Shape).Idx → EReal)   (w2 : (⟨2, ![256, 256]⟩ : Shape).Idx → EReal) (b2 : (⟨2, ![1, 256]⟩ : Shape).Idx → EReal)   (w3 : (⟨2, ![256, 128]⟩ : Shape).Idx → EReal) (b3 : (⟨2, ![1, 128]⟩ : Shape).Idx → EReal)
    (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : ¬cond0_0 i)
    (x0 : Vec Ideal S512x128 .f32) (x1 : Vec Ideal S512x8x128 .f32) (x2 : Vec Ideal S256x256 .f32) (x3 : Vec Ideal S256x256 .f32) (x4 : Vec Ideal S1x256 .f32) (x5 : Vec Ideal S256x128 .f32) (x6 : Vec Ideal S1x128 .f32) (xs1 : Vec Ideal S512x256 .f32)
    (v : Fin 512 → Fin 128 → EReal) (NZ : Fin 512 → Fin 8 → Fin 128 → EReal)
    (hx1 : ∀ (b : Fin 512) (s : Fin 8) (j : Fin 128), x1 (ix3 b s j) = NZ b s j)
    (hx2 : StackedW1 x2 w1 b1) (hx3 : ∀ κ k : Fin 256, x3 (ix2 κ k) = w2 (ix2 κ k)) (hx4 : ∀ k : Fin 256, x4 (ix2 0 k) = b2 (ix2 0 k))
    (hx5 : ∀ (κ : Fin 256) (j : Fin 128), x5 (ix2 κ j) = w3 (ix2 κ j)) (hx6 : ∀ j : Fin 128, x6 (ix2 0 j) = b3 (ix2 0 j))
    (hxs : Aug512 xs1 v) :
    (∀ (b : Fin 512) (s : Fin 8) (j : Fin 128), View.canon (kernelRun0_B (F := Ideal) c i arg1 harg1 arg2 harg2 arg3 harg3 arg4 harg4 arg5 harg5 arg6 harg6 arg7 harg7 arg8 harg8 arg9 harg9 arg10 harg10 hc0 x0 x1 x2 x3 x4 x5 x6 xs1).1 (ix3 b s j)
        = Cert.Rollout.pred w1 b1 w2 b2 w3 b3 (v b) (fun u j => if h : u < 8 then NZ b ⟨u, h⟩ j else 0) s.val j)
    ∧ Aug512 (View.canon (kernelRun0_B (F := Ideal) c i arg1 harg1 arg2 harg2 arg3 harg3 arg4 harg4 arg5 harg5 arg6 harg6 arg7 harg7 arg8 harg8 arg9 harg9 arg10 harg10 hc0 x0 x1 x2 x3 x4 x5 x6 xs1).2.2.1)
        (fun b => Cert.Rollout.state w1 b1 w2 b2 w3 b3 (v b) (fun u j => if h : u < 8 then NZ b ⟨u, h⟩ j else 0) 8) := by
  let nz : Fin 512 → ℕ → Fin 128 → EReal := fun b u j => if h : u < 8 then NZ b ⟨u, h⟩ j else 0
  let n0 : ℕ → Vec Ideal S256x128 .f32 := fun s => match s with
      | 0 => kernelRun0_B.sl.v52 (F := Ideal) c arg2 harg2 arg3 harg3 arg4 harg4 arg5 harg5 arg6 harg6 arg7 harg7 arg9 x1 x2 x3 x4 x5 x6
      | 1 => kernelRun0_B.sl.v78 (F := Ideal) c arg2 harg2 arg3 harg3 arg4 harg4 arg5 harg5 arg6 harg6 arg7 harg7 arg9 x1 x2 x3 x4 x5 x6
      | 2 => kernelRun0_B.sl.v104 (F := Ideal) c arg2 harg2 arg3 harg3 arg4 harg4 arg5 harg5 arg6 harg6 arg7 harg7 arg9 x1 x2 x3 x4 x5 x6
      | 3 => kernelRun0_B.sl.v130 (F := Ideal) c arg2 harg2 arg3 harg3 arg4 harg4 arg5 harg5 arg6 harg6 arg7 harg7 arg9 x1 x2 x3 x4 x5 x6
      | 4 => kernelRun0_B.sl.v156 (F := Ideal) c arg2 harg2 arg3 harg3 arg4 harg4 arg5 harg5 arg6 harg6 arg7 harg7 arg9 x1 x2 x3 x4 x5 x6
      | 5 => kernelRun0_B.sl.v182 (F := Ideal) c arg2 harg2 arg3 harg3 arg4 harg4 arg5 harg5 arg6 harg6 arg7 harg7 arg9 x1 x2 x3 x4 x5 x6
      | 6 => kernelRun0_B.sl.v208 (F := Ideal) c arg2 harg2 arg3 harg3 arg4 harg4 arg5 harg5 arg6 harg6 arg7 harg7 arg9 x1 x2 x3 x4 x5 x6
      | _ => kernelRun0_B.sl.v234 (F := Ideal) c arg2 harg2 arg3 harg3 arg4 harg4 arg5 harg5 arg6 harg6 arg7 harg7 arg9 x1 x2 x3 x4 x5 x6
  let n1 : ℕ → Vec Ideal S256x128 .f32 := fun s => match s with
      | 0 => kernelRun0_B.sl.v57 (F := Ideal) c arg2 harg2 arg3 harg3 arg4 harg4 arg5 harg5 arg6 harg6 arg7 harg7 arg9 x1 x2 x3 x4 x5 x6
      | 1 => kernelRun0_B.sl.v83 (F := Ideal) c arg2 harg2 arg3 harg3 arg4 harg4 arg5 harg5 arg6 harg6 arg7 harg7 arg9 x1 x2 x3 x4 x5 x6
      | 2 => kernelRun0_B.sl.v109 (F := Ideal) c arg2 harg2 arg3 harg3 arg4 harg4 arg5 harg5 arg6 harg6 arg7 harg7 arg9 x1 x2 x3 x4 x5 x6
      | 3 => kernelRun0_B.sl.v135 (F := Ideal) c arg2 harg2 arg3 harg3 arg4 harg4 arg5 harg5 arg6 harg6 arg7 harg7 arg9 x1 x2 x3 x4 x5 x6
      | 4 => kernelRun0_B.sl.v161 (F := Ideal) c arg2 harg2 arg3 harg3 arg4 harg4 arg5 harg5 arg6 harg6 arg7 harg7 arg9 x1 x2 x3 x4 x5 x6
      | 5 => kernelRun0_B.sl.v187 (F := Ideal) c arg2 harg2 arg3 harg3 arg4 harg4 arg5 harg5 arg6 harg6 arg7 harg7 arg9 x1 x2 x3 x4 x5 x6
      | 6 => kernelRun0_B.sl.v213 (F := Ideal) c arg2 harg2 arg3 harg3 arg4 harg4 arg5 harg5 arg6 harg6 arg7 harg7 arg9 x1 x2 x3 x4 x5 x6
      | _ => kernelRun0_B.sl.v239 (F := Ideal) c arg2 harg2 arg3 harg3 arg4 harg4 arg5 harg5 arg6 harg6 arg7 harg7 arg9 x1 x2 x3 x4 x5 x6
  obtain ⟨hL7, hLS1⟩ := lists_B (F := Ideal) c i arg1 harg1 arg2 harg2 arg3 harg3 arg4 harg4 arg5 harg5 arg6 harg6 arg7 harg7 arg8 harg8 arg9 harg9 arg10 harg10 hc0 x0 x1 x2 x3 x4 x5 x6 xs1 n0 n1 rfl rfl rfl rfl rfl rfl rfl rfl rfl rfl rfl rfl rfl rfl rfl rfl
  have hw1 : StackedW1 (k0_pay3 (F := Ideal) x2) w1 b1 := fun κ k => (pay3_apply x2 κ k).trans (hx2 κ k)
  have hb2 : ∀ i k : Fin 256, k0_pay4 (F := Ideal) x4 (ix2 i k) = b2 (ix2 0 k) := fun i k => (pay4_apply x4 i k).trans (hx4 k)
  have hn0 : ∀ s, s < 8 → ∀ (i : Fin 256) (j : Fin 128), n0 s (ix2 i j) = nz ⟨i.val, by omega⟩ s j * Cert.Rollout.sigma + b3 (ix2 0 j) := by
    intro s hs i j
    have key : ∀ (s' : Fin 8) (sl : Vec Ideal S256x128 .f32) (o : Fin 2 → ℕ) (inb : ∀ a, o a + S256x128.size a ≤ S512x1024.size a)
        (ho0 : o 0 = 0) (ho1 : o 1 = 128 * s'.val)
        (hsl : sl = fun j => View.canon (kernelRun0_B.sl.HS0_2 (F := Ideal) c arg2 harg2 arg3 harg3 arg4 harg4 arg5 harg5 arg6 harg6 arg7 harg7 x1 x2 x3 x4 x5 x6) ((Rect.unit (s := S512x1024) o S256x128.size inb).toLoadRect.idx j)),
        sl (ix2 i j) = nz ⟨i.val, by omega⟩ s'.val j * Cert.Rollout.sigma + b3 (ix2 0 j) := by
      intro s' sl o inb ho0 ho1 hsl
      rw [slabsem_lo x1 x6 _ (HS0_B c arg2 harg2 arg3 harg3 arg4 harg4 arg5 harg5 arg6 harg6 arg7 harg7 arg9 x1 x2 x3 x4 x5 x6 (fun _ => sl) (fun _ => sl)) o inb s' ho0 ho1 sl hsl i j, hx1, hx6]
      show _ = (if h : s'.val < 8 then NZ _ ⟨s'.val, h⟩ j else 0) * _ + _
      rw [dif_pos s'.isLt]
    match s, hs with
    | 0, _ => exact key ⟨0, by omega⟩ _ _ _ rfl rfl (slab_B_0_0 c arg2 harg2 arg3 harg3 arg4 harg4 arg5 harg5 arg6 harg6 arg7 harg7 arg9 x1 x2 x3 x4 x5 x6)
    | 1, _ => exact key ⟨1, by omega⟩ _ _ _ rfl rfl (slab_B_0_1 c arg2 harg2 arg3 harg3 arg4 harg4 arg5 harg5 arg6 harg6 arg7 harg7 arg9 x1 x2 x3 x4 x5 x6)
    | 2, _ => exact key ⟨2, by omega⟩ _ _ _ rfl rfl (slab_B_0_2 c arg2 harg2 arg3 harg3 arg4 harg4 arg5 harg5 arg6 harg6 arg7 harg7 arg9 x1 x2 x3 x4 x5 x6)
    | 3, _ => exact key ⟨3, by omega⟩ _ _ _ rfl rfl (slab_B_0_3 c arg2 harg2 arg3 harg3 arg4 harg4 arg5 harg5 arg6 harg6 arg7 harg7 arg9 x1 x2 x3 x4 x5 x6)
    | 4, _ => exact key ⟨4, by omega⟩ _ _ _ rfl rfl (slab_B_0_4 c arg2 harg2 arg3 harg3 arg4 harg4 arg5 harg5 arg6 harg6 arg7 harg7 arg9 x1 x2 x3 x4 x5 x6)
    | 5, _ => exact key ⟨5, by omega⟩ _ _ _ rfl rfl (slab_B_0_5 c arg2 harg2 arg3 harg3 arg4 harg4 arg5 harg5 arg6 harg6 arg7 harg7 arg9 x1 x2 x3 x4 x5 x6)
    | 6, _ => exact key ⟨6, by omega⟩ _ _ _ rfl rfl (slab_B_0_6 c arg2 harg2 arg3 harg3 arg4 harg4 arg5 harg5 arg6 harg6 arg7 harg7 arg9 x1 x2 x3 x4 x5 x6)
    | 7, _ => exact key ⟨7, by omega⟩ _ _ _ rfl rfl (slab_B_0_7 c arg2 harg2 arg3 harg3 arg4 harg4 arg5 harg5 arg6 harg6 arg7 harg7 arg9 x1 x2 x3 x4 x5 x6)
  have hn1 : ∀ s, s < 8 → ∀ (i : Fin 256) (j : Fin 128), n1 s (ix2 i j) = nz ⟨256 + i.val, by omega⟩ s j * Cert.Rollout.sigma + b3 (ix2 0 j) := by
    intro s hs i j
    have key : ∀ (s' : Fin 8) (sl : Vec Ideal S256x128 .f32) (o : Fin 2 → ℕ) (inb : ∀ a, o a + S256x128.size a ≤ S512x1024.size a)
        (ho0 : o 0 = 256) (ho1 : o 1 = 128 * s'.val)
        (hsl : sl = fun j => View.canon (kernelRun0_B.sl.HS0_2 (F := Ideal) c arg2 harg2 arg3 harg3 arg4 harg4 arg5 harg5 arg6 harg6 arg7 harg7 x1 x2 x3 x4 x5 x6) ((Rect.unit (s := S512x1024) o S256x128.size inb).toLoadRect.idx j)),
        sl (ix2 i j) = nz ⟨256 + i.val, by omega⟩ s'.val j * Cert.Rollout.sigma + b3 (ix2 0 j) := by
      intro s' sl o inb ho0 ho1 hsl
      rw [slabsem_hi x1 x6 _ (HS0_B c arg2 harg2 arg3 harg3 arg4 harg4 arg5 harg5 arg6 harg6 arg7 harg7 arg9 x1 x2 x3 x4 x5 x6 (fun _ => sl) (fun _ => sl)) o inb s' ho0 ho1 sl hsl i j, hx1, hx6]
      show _ = (if h : s'.val < 8 then NZ _ ⟨s'.val, h⟩ j else 0) * _ + _
      rw [dif_pos s'.isLt]
    match s, hs with
    | 0, _ => exact key ⟨0, by omega⟩ _ _ _ rfl rfl (slab_B_1_0 c arg2 harg2 arg3 harg3 arg4 harg4 arg5 harg5 arg6 harg6 arg7 harg7 arg9 x1 x2 x3 x4 x5 x6)
    | 1, _ => exact key ⟨1, by omega⟩ _ _ _ rfl rfl (slab_B_1_1 c arg2 harg2 arg3 harg3 arg4 harg4 arg5 harg5 arg6 harg6 arg7 harg7 arg9 x1 x2 x3 x4 x5 x6)
    | 2, _ => exact key ⟨2, by omega⟩ _ _ _ rfl rfl (slab_B_1_2 c arg2 harg2 arg3 harg3 arg4 harg4 arg5 harg5 arg6 harg6 arg7 harg7 arg9 x1 x2 x3 x4 x5 x6)
    | 3, _ => exact key ⟨3, by omega⟩ _ _ _ rfl rfl (slab_B_1_3 c arg2 harg2 arg3 harg3 arg4 harg4 arg5 harg5 arg6 harg6 arg7 harg7 arg9 x1 x2 x3 x4 x5 x6)
    | 4, _ => exact key ⟨4, by omega⟩ _ _ _ rfl rfl (slab_B_1_4 c arg2 harg2 arg3 harg3 arg4 harg4 arg5 harg5 arg6 harg6 arg7 harg7 arg9 x1 x2 x3 x4 x5 x6)
    | 5, _ => exact key ⟨5, by omega⟩ _ _ _ rfl rfl (slab_B_1_5 c arg2 harg2 arg3 harg3 arg4 harg4 arg5 harg5 arg6 harg6 arg7 harg7 arg9 x1 x2 x3 x4 x5 x6)
    | 6, _ => exact key ⟨6, by omega⟩ _ _ _ rfl rfl (slab_B_1_6 c arg2 harg2 arg3 harg3 arg4 harg4 arg5 harg5 arg6 harg6 arg7 harg7 arg9 x1 x2 x3 x4 x5 x6)
    | 7, _ => exact key ⟨7, by omega⟩ _ _ _ rfl rfl (slab_B_1_7 c arg2 harg2 arg3 harg3 arg4 harg4 arg5 harg5 arg6 harg6 arg7 harg7 arg9 x1 x2 x3 x4 x5 x6)
  obtain ⟨ha, hb⟩ := aug_halves _ _ hxs
  refine ⟨fun b s j => ?_, fun b κ => ?_⟩
  · rw [hL7]
    exact point_out w1 b1 w2 b2 w3 b3 (k0_pay3 x2) x3 x5 (k0_pay4 x4) x6 x6 n0 n1 _ _ v nz hw1 hx3 hb2 hx5 hx6 hx6 hn0 hn1 ha hb b s j
  · rw [hLS1]
    exact point_state w1 b1 w2 b2 w3 b3 (k0_pay3 x2) x3 x5 (k0_pay4 x4) n0 n1 _ _ v nz hw1 hx3 hb2 hx5 hn0 hn1 ha hb _ b κ

set_option maxHeartbeats 2000000 in
/-- One first grid point: the prediction block and the state it leaves, from the start rows. -/
theorem point_A (w1 : (⟨2, ![128, 256]⟩ : Shape).Idx → EReal) (b1 : (⟨2, ![1, 256]⟩ : Shape).Idx → EReal)   (w2 : (⟨2, ![256, 256]⟩ : Shape).Idx → EReal) (b2 : (⟨2, ![1, 256]⟩ : Shape).Idx → EReal)   (w3 : (⟨2, ![256, 128]⟩ : Shape).Idx → EReal) (b3 : (⟨2, ![1, 128]⟩ : Shape).Idx → EReal)
    (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : cond0_0 i)
    (x0 : Vec Ideal S512x128 .f32) (x1 : Vec Ideal S512x8x128 .f32) (x2 : Vec Ideal S256x256 .f32) (x3 : Vec Ideal S256x256 .f32) (x4 : Vec Ideal S1x256 .f32) (x5 : Vec Ideal S256x128 .f32) (x6 : Vec Ideal S1x128 .f32)
    (v : Fin 512 → Fin 128 → EReal) (NZ : Fin 512 → Fin 8 → Fin 128 → EReal)
    (hx1 : ∀ (b : Fin 512) (s : Fin 8) (j : Fin 128), x1 (ix3 b s j) = NZ b s j)
    (hx2 : StackedW1 x2 w1 b1) (hx3 : ∀ κ k : Fin 256, x3 (ix2 κ k) = w2 (ix2 κ k)) (hx4 : ∀ k : Fin 256, x4 (ix2 0 k) = b2 (ix2 0 k))
    (hx5 : ∀ (κ : Fin 256) (j : Fin 128), x5 (ix2 κ j) = w3 (ix2 κ j)) (hx6 : ∀ j : Fin 128, x6 (ix2 0 j) = b3 (ix2 0 j))
    (hx0 : ∀ (b : Fin 512) (j : Fin 128), x0 (ix2 b j) = v b j) :
    (∀ (b : Fin 512) (s : Fin 8) (j : Fin 128), View.canon (kernelRun0_A (F := Ideal) c i arg1 harg1 arg2 harg2 arg3 harg3 arg4 harg4 arg5 harg5 arg6 harg6 arg7 harg7 arg8 harg8 arg9 harg9 arg10 harg10 hc0 x0 x1 x2 x3 x4 x5 x6).1 (ix3 b s j)
        = Cert.Rollout.pred w1 b1 w2 b2 w3 b3 (v b) (fun u j => if h : u < 8 then NZ b ⟨u, h⟩ j else 0) s.val j)
    ∧ Aug512 (View.canon (kernelRun0_A (F := Ideal) c i arg1 harg1 arg2 harg2 arg3 harg3 arg4 harg4 arg5 harg5 arg6 harg6 arg7 harg7 arg8 harg8 arg9 harg9 arg10 harg10 hc0 x0 x1 x2 x3 x4 x5 x6).2.2.1)
        (fun b => Cert.Rollout.state w1 b1 w2 b2 w3 b3 (v b) (fun u j => if h : u < 8 then NZ b ⟨u, h⟩ j else 0) 8) := by
  let nz : Fin 512 → ℕ → Fin 128 → EReal := fun b u j => if h : u < 8 then NZ b ⟨u, h⟩ j else 0
  let n0 : ℕ → Vec Ideal S256x128 .f32 := fun s => match s with
      | 0 => kernelRun0_A.sl.v52 (F := Ideal) c arg2 harg2 arg3 harg3 arg4 harg4 arg5 harg5 arg6 harg6 arg7 harg7 arg9 x1 x2 x3 x4 x5 x6
      | 1 => kernelRun0_A.sl.v78 (F := Ideal) c arg2 harg2 arg3 harg3 arg4 harg4 arg5 harg5 arg6 harg6 arg7 harg7 arg9 x1 x2 x3 x4 x5 x6
      | 2 => kernelRun0_A.sl.v104 (F := Ideal) c arg2 harg2 arg3 harg3 arg4 harg4 arg5 harg5 arg6 harg6 arg7 harg7 arg9 x1 x2 x3 x4 x5 x6
      | 3 => kernelRun0_A.sl.v130 (F := Ideal) c arg2 harg2 arg3 harg3 arg4 harg4 arg5 harg5 arg6 harg6 arg7 harg7 arg9 x1 x2 x3 x4 x5 x6
      | 4 => kernelRun0_A.sl.v156 (F := Ideal) c arg2 harg2 arg3 harg3 arg4 harg4 arg5 harg5 arg6 harg6 arg7 harg7 arg9 x1 x2 x3 x4 x5 x6
      | 5 => kernelRun0_A.sl.v182 (F := Ideal) c arg2 harg2 arg3 harg3 arg4 harg4 arg5 harg5 arg6 harg6 arg7 harg7 arg9 x1 x2 x3 x4 x5 x6
      | 6 => kernelRun0_A.sl.v208 (F := Ideal) c arg2 harg2 arg3 harg3 arg4 harg4 arg5 harg5 arg6 harg6 arg7 harg7 arg9 x1 x2 x3 x4 x5 x6
      | _ => kernelRun0_A.sl.v234 (F := Ideal) c arg2 harg2 arg3 harg3 arg4 harg4 arg5 harg5 arg6 harg6 arg7 harg7 arg9 x1 x2 x3 x4 x5 x6
  let n1 : ℕ → Vec Ideal S256x128 .f32 := fun s => match s with
      | 0 => kernelRun0_A.sl.v57 (F := Ideal) c arg2 harg2 arg3 harg3 arg4 harg4 arg5 harg5 arg6 harg6 arg7 harg7 arg9 x1 x2 x3 x4 x5 x6
      | 1 => kernelRun0_A.sl.v83 (F := Ideal) c arg2 harg2 arg3 harg3 arg4 harg4 arg5 harg5 arg6 harg6 arg7 harg7 arg9 x1 x2 x3 x4 x5 x6
      | 2 => kernelRun0_A.sl.v109 (F := Ideal) c arg2 harg2 arg3 harg3 arg4 harg4 arg5 harg5 arg6 harg6 arg7 harg7 arg9 x1 x2 x3 x4 x5 x6
      | 3 => kernelRun0_A.sl.v135 (F := Ideal) c arg2 harg2 arg3 harg3 arg4 harg4 arg5 harg5 arg6 harg6 arg7 harg7 arg9 x1 x2 x3 x4 x5 x6
      | 4 => kernelRun0_A.sl.v161 (F := Ideal) c arg2 harg2 arg3 harg3 arg4 harg4 arg5 harg5 arg6 harg6 arg7 harg7 arg9 x1 x2 x3 x4 x5 x6
      | 5 => kernelRun0_A.sl.v187 (F := Ideal) c arg2 harg2 arg3 harg3 arg4 harg4 arg5 harg5 arg6 harg6 arg7 harg7 arg9 x1 x2 x3 x4 x5 x6
      | 6 => kernelRun0_A.sl.v213 (F := Ideal) c arg2 harg2 arg3 harg3 arg4 harg4 arg5 harg5 arg6 harg6 arg7 harg7 arg9 x1 x2 x3 x4 x5 x6
      | _ => kernelRun0_A.sl.v239 (F := Ideal) c arg2 harg2 arg3 harg3 arg4 harg4 arg5 harg5 arg6 harg6 arg7 harg7 arg9 x1 x2 x3 x4 x5 x6
  obtain ⟨hL7, hLS1⟩ := lists_A (F := Ideal) c i arg1 harg1 arg2 harg2 arg3 harg3 arg4 harg4 arg5 harg5 arg6 harg6 arg7 harg7 arg8 harg8 arg9 harg9 arg10 harg10 hc0 x0 x1 x2 x3 x4 x5 x6 n0 n1 rfl rfl rfl rfl rfl rfl rfl rfl rfl rfl rfl rfl rfl rfl rfl rfl
  have hw1 : StackedW1 (k0_pay3 (F := Ideal) x2) w1 b1 := fun κ k => (pay3_apply x2 κ k).trans (hx2 κ k)
  have hb2 : ∀ i k : Fin 256, k0_pay4 (F := Ideal) x4 (ix2 i k) = b2 (ix2 0 k) := fun i k => (pay4_apply x4 i k).trans (hx4 k)
  have hn0 : ∀ s, s < 8 → ∀ (i : Fin 256) (j : Fin 128), n0 s (ix2 i j) = nz ⟨i.val, by omega⟩ s j * Cert.Rollout.sigma + b3 (ix2 0 j) := by
    intro s hs i j
    have key : ∀ (s' : Fin 8) (sl : Vec Ideal S256x128 .f32) (o : Fin 2 → ℕ) (inb : ∀ a, o a + S256x128.size a ≤ S512x1024.size a)
        (ho0 : o 0 = 0) (ho1 : o 1 = 128 * s'.val)
        (hsl : sl = fun j => View.canon (kernelRun0_A.sl.HS0_2 (F := Ideal) c arg2 harg2 arg3 harg3 arg4 harg4 arg5 harg5 arg6 harg6 arg7 harg7 x1 x2 x3 x4 x5 x6) ((Rect.unit (s := S512x1024) o S256x128.size inb).toLoadRect.idx j)),
        sl (ix2 i j) = nz ⟨i.val, by omega⟩ s'.val j * Cert.Rollout.sigma + b3 (ix2 0 j) := by
      intro s' sl o inb ho0 ho1 hsl
      rw [slabsem_lo x1 x6 _ (HS0_A c arg2 harg2 arg3 harg3 arg4 harg4 arg5 harg5 arg6 harg6 arg7 harg7 arg9 x1 x2 x3 x4 x5 x6 (fun _ => sl) (fun _ => sl)) o inb s' ho0 ho1 sl hsl i j, hx1, hx6]
      show _ = (if h : s'.val < 8 then NZ _ ⟨s'.val, h⟩ j else 0) * _ + _
      rw [dif_pos s'.isLt]
    match s, hs with
    | 0, _ => exact key ⟨0, by omega⟩ _ _ _ rfl rfl (slab_A_0_0 c arg2 harg2 arg3 harg3 arg4 harg4 arg5 harg5 arg6 harg6 arg7 harg7 arg9 x1 x2 x3 x4 x5 x6)
    | 1, _ => exact key ⟨1, by omega⟩ _ _ _ rfl rfl (slab_A_0_1 c arg2 harg2 arg3 harg3 arg4 harg4 arg5 harg5 arg6 harg6 arg7 harg7 arg9 x1 x2 x3 x4 x5 x6)
    | 2, _ => exact key ⟨2, by omega⟩ _ _ _ rfl rfl (slab_A_0_2 c arg2 harg2 arg3 harg3 arg4 harg4 arg5 harg5 arg6 harg6 arg7 harg7 arg9 x1 x2 x3 x4 x5 x6)
    | 3, _ => exact key ⟨3, by omega⟩ _ _ _ rfl rfl (slab_A_0_3 c arg2 harg2 arg3 harg3 arg4 harg4 arg5 harg5 arg6 harg6 arg7 harg7 arg9 x1 x2 x3 x4 x5 x6)
    | 4, _ => exact key ⟨4, by omega⟩ _ _ _ rfl rfl (slab_A_0_4 c arg2 harg2 arg3 harg3 arg4 harg4 arg5 harg5 arg6 harg6 arg7 harg7 arg9 x1 x2 x3 x4 x5 x6)
    | 5, _ => exact key ⟨5, by omega⟩ _ _ _ rfl rfl (slab_A_0_5 c arg2 harg2 arg3 harg3 arg4 harg4 arg5 harg5 arg6 harg6 arg7 harg7 arg9 x1 x2 x3 x4 x5 x6)
    | 6, _ => exact key ⟨6, by omega⟩ _ _ _ rfl rfl (slab_A_0_6 c arg2 harg2 arg3 harg3 arg4 harg4 arg5 harg5 arg6 harg6 arg7 harg7 arg9 x1 x2 x3 x4 x5 x6)
    | 7, _ => exact key ⟨7, by omega⟩ _ _ _ rfl rfl (slab_A_0_7 c arg2 harg2 arg3 harg3 arg4 harg4 arg5 harg5 arg6 harg6 arg7 harg7 arg9 x1 x2 x3 x4 x5 x6)
  have hn1 : ∀ s, s < 8 → ∀ (i : Fin 256) (j : Fin 128), n1 s (ix2 i j) = nz ⟨256 + i.val, by omega⟩ s j * Cert.Rollout.sigma + b3 (ix2 0 j) := by
    intro s hs i j
    have key : ∀ (s' : Fin 8) (sl : Vec Ideal S256x128 .f32) (o : Fin 2 → ℕ) (inb : ∀ a, o a + S256x128.size a ≤ S512x1024.size a)
        (ho0 : o 0 = 256) (ho1 : o 1 = 128 * s'.val)
        (hsl : sl = fun j => View.canon (kernelRun0_A.sl.HS0_2 (F := Ideal) c arg2 harg2 arg3 harg3 arg4 harg4 arg5 harg5 arg6 harg6 arg7 harg7 x1 x2 x3 x4 x5 x6) ((Rect.unit (s := S512x1024) o S256x128.size inb).toLoadRect.idx j)),
        sl (ix2 i j) = nz ⟨256 + i.val, by omega⟩ s'.val j * Cert.Rollout.sigma + b3 (ix2 0 j) := by
      intro s' sl o inb ho0 ho1 hsl
      rw [slabsem_hi x1 x6 _ (HS0_A c arg2 harg2 arg3 harg3 arg4 harg4 arg5 harg5 arg6 harg6 arg7 harg7 arg9 x1 x2 x3 x4 x5 x6 (fun _ => sl) (fun _ => sl)) o inb s' ho0 ho1 sl hsl i j, hx1, hx6]
      show _ = (if h : s'.val < 8 then NZ _ ⟨s'.val, h⟩ j else 0) * _ + _
      rw [dif_pos s'.isLt]
    match s, hs with
    | 0, _ => exact key ⟨0, by omega⟩ _ _ _ rfl rfl (slab_A_1_0 c arg2 harg2 arg3 harg3 arg4 harg4 arg5 harg5 arg6 harg6 arg7 harg7 arg9 x1 x2 x3 x4 x5 x6)
    | 1, _ => exact key ⟨1, by omega⟩ _ _ _ rfl rfl (slab_A_1_1 c arg2 harg2 arg3 harg3 arg4 harg4 arg5 harg5 arg6 harg6 arg7 harg7 arg9 x1 x2 x3 x4 x5 x6)
    | 2, _ => exact key ⟨2, by omega⟩ _ _ _ rfl rfl (slab_A_1_2 c arg2 harg2 arg3 harg3 arg4 harg4 arg5 harg5 arg6 harg6 arg7 harg7 arg9 x1 x2 x3 x4 x5 x6)
    | 3, _ => exact key ⟨3, by omega⟩ _ _ _ rfl rfl (slab_A_1_3 c arg2 harg2 arg3 harg3 arg4 harg4 arg5 harg5 arg6 harg6 arg7 harg7 arg9 x1 x2 x3 x4 x5 x6)
    | 4, _ => exact key ⟨4, by omega⟩ _ _ _ rfl rfl (slab_A_1_4 c arg2 harg2 arg3 harg3 arg4 harg4 arg5 harg5 arg6 harg6 arg7 harg7 arg9 x1 x2 x3 x4 x5 x6)
    | 5, _ => exact key ⟨5, by omega⟩ _ _ _ rfl rfl (slab_A_1_5 c arg2 harg2 arg3 harg3 arg4 harg4 arg5 harg5 arg6 harg6 arg7 harg7 arg9 x1 x2 x3 x4 x5 x6)
    | 6, _ => exact key ⟨6, by omega⟩ _ _ _ rfl rfl (slab_A_1_6 c arg2 harg2 arg3 harg3 arg4 harg4 arg5 harg5 arg6 harg6 arg7 harg7 arg9 x1 x2 x3 x4 x5 x6)
    | 7, _ => exact key ⟨7, by omega⟩ _ _ _ rfl rfl (slab_A_1_7 c arg2 harg2 arg3 harg3 arg4 harg4 arg5 harg5 arg6 harg6 arg7 harg7 arg9 x1 x2 x3 x4 x5 x6)
  have hinit : Aug512 (kInit (F := Ideal) x0) v := by
    have := aug512_init x0
    have hv : (fun b j => x0 (ix2 b j)) = v := funext fun b => funext fun j => hx0 b j
    rwa [hv] at this
  obtain ⟨ha, hb⟩ := aug_halves _ _ hinit
  rw [← xa_A c arg1 harg1 arg10 x0 n0 n1] at ha
  rw [← xb_A c arg1 harg1 arg10 x0 n0 n1] at hb
  refine ⟨fun b s j => ?_, fun b κ => ?_⟩
  · rw [hL7]
    exact point_out w1 b1 w2 b2 w3 b3 (k0_pay3 x2) x3 x5 (k0_pay4 x4) x6 x6 n0 n1 _ _ v nz hw1 hx3 hb2 hx5 hx6 hx6 hn0 hn1 ha hb b s j
  · rw [hLS1]
    exact point_state w1 b1 w2 b2 w3 b3 (k0_pay3 x2) x3 x5 (k0_pay4 x4) n0 n1 _ _ v nz hw1 hx3 hb2 hx5 hn0 hn1 ha hb _ b κ

end Cert.KernelIdeal.KValue

end
-- ==== Proof.KIFrame.lean ====
/-
  The frame of the rollout kernel's program, last part: what each grid point leaves, the proof data, the body
  obligation, the run and the frame.

  After point 0 the output block and the state scratch hold what the first-point run's stores leave, read off the start
  rows and that point's blocks; after point n + 1 what the later-point run's stores leave, read off that point's blocks and
  the state scratch as point n left it. The region's invariant before point 0 is the launch's (both scratch buffers at
  anything); before a later point it names the state scratch's contents and leaves the prepared-noise scratch at anything,
  which is enough because every point rewrites that scratch whole before reading it.
-/
import proofs.«146222_g2000209494350815_pallasbulk_913_23_alg».proof.Proof.KIRunA
import proofs.«146222_g2000209494350815_pallasbulk_913_23_alg».proof.Proof.KIRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's stores into the output window's buffer are its two halves: they cover it. -/
theorem cover0_A_7 (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) (y : S512x8x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4 x5 x6).1 S256x8x128.size (by sl_kernel_rfl) y

/-- What that point leaves in the output window's buffer: its pieces read back. -/
def out0_A_7 (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) : Vec F S512x8x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 x0 x1 x2 x3 x4 x5 x6).1)

/-- Its stores into the state scratch end with the two halves: they cover it. -/
theorem scover0_A_1 (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) (y : S512x256.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4 x5 x6).2.2.1 S256x256.size (by sl_kernel_rfl) y

/-- What that point leaves in the state scratch: its pieces read back. -/
def sout0_A_1 (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) : Vec F S512x256 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 x0 x1 x2 x3 x4 x5 x6).2.2.1)

/-- The later point's stores into the output window's buffer are its two halves: they cover it. -/
theorem cover0_B_7 (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : ¬cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) (xs1 : Vec F S512x256 .f32) (y : S512x8x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 x5 x6 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 x5 x6 xs1).1 S256x8x128.size (by sl_kernel_rfl) y

/-- What that point leaves in the output window's buffer: its pieces read back. -/
def out0_B_7 (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : ¬cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) (xs1 : Vec F S512x256 .f32) : Vec F S512x8x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 x0 x1 x2 x3 x4 x5 x6 xs1).1)

/-- Its stores into the state scratch end with the two halves: they cover it. -/
theorem scover0_B_1 (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : ¬cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) (xs1 : Vec F S512x256 .f32) (y : S512x256.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 x5 x6 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 x5 x6 xs1).2.2.1 S256x256.size (by sl_kernel_rfl) y

/-- What that point leaves in the state scratch: its pieces read back. -/
def sout0_B_1 (c : Dev nD) (i : grid0.Coords) (arg1 : Memref sig .tc .vmem S512x128 .f32) (harg1 : arg1.IsWhole) (arg2 : Memref sig .tc .vmem S512x8x128 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x8x128 .f32) (harg8 : arg8.IsWhole) (arg9 : Memref sig .tc .vmem S512x1024 .f32) (harg9 : arg9.IsWhole) (arg10 : Memref sig .tc .vmem S512x256 .f32) (harg10 : arg10.IsWhole) (hc0 : ¬cond0_0 i)
    (x0 : Vec F S512x128 .f32) (x1 : Vec F S512x8x128 .f32) (x2 : Vec F S256x256 .f32) (x3 : Vec F S256x256 .f32) (x4 : Vec F S1x256 .f32) (x5 : Vec F S256x128 .f32) (x6 : Vec F S1x128 .f32) (xs1 : Vec F S512x256 .f32) : Vec F S512x256 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 x0 x1 x2 x3 x4 x5 x6 xs1).2.2.1)

/-! ## What the output block and the state scratch hold after each point -/

def outsAt0 (c : Dev nD) : (n : ℕ) → n < cfg0.N → Vec F S512x8x128 .f32 × Vec F S512x256 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2)

theorem outsAt0_A (c : Dev nD) (t : Fin cfg0.N) (h0 : t.val = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) := by
  obtain ⟨n, hn⟩ := t
  cases n with
  | zero => exact absurd rfl h0
  | succ n => exact rfl

/-- The region's invariant before position `n`. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [after0_0, after0_1, after0_2, after0_3, after0_4, after0_5, after0_6, after0_7]
  by_cases h0 : t.val = 0
  ·
      rw [outsAt0_A m c t h0]
      unfold out0_A_7 sout0_A_1; (try dsimp only)
      rw [PhiS_castSucc m c t, PhiS_zero m c _ _ h0, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, ⟨%es0, HS0⟩, ⟨%es1, HS1⟩⟩
      isplitl [HS0 HS1 Hg]
      · isplitl [HS0 HS1]
        · isplitl [HS0]
          · iexists _; unfold owns; iexists _; isplitr
            swap; · iexact HS0
            ipureintro; rfl
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ )
  ·
      rw [outsAt0_B m c t h0]
      unfold out0_B_7 sout0_B_1; (try dsimp only)
      rw [PhiS_castSucc m c t, PhiS_pos m c _ _ h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, ⟨%es0, HS0⟩, ⟨%es1, HS1⟩⟩
      isplitl [HS0 HS1 Hg]
      · isplitl [HS0 HS1]
        · isplitl [HS0]
          · iexists _; unfold owns; iexists _; isplitr
            swap; · iexact HS0
            ipureintro; rfl
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ )

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 4 := N_0; omega)

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.KHost.lean ====
/-
  What the region finds in the two arrays the host computes before it, and that it finds the arguments as launched.

  Before the region the host takes the start rows x[:, 0, :] out of the [512, 33, 128] input (a slice of extent one
  along the middle axis, then the unit axis dropped), and stacks the first layer's matrix [128, 256], its bias row
  [1, 256] and 127 rows of zeros into one [256, 256] matrix. So the start array at (b, j) is the input at (b, 0, j),
  and the stacked matrix at row κ is the first-layer matrix's row κ below 128, the bias row at 128, and zero above.
  No host operation writes an argument array.
-/
import proofs.«146222_g2000209494350815_pallasbulk_913_23_alg».proof.Proof.Gen.KernelIdeal.Launch
import Idealize.ShloMosaic.Lib.StableHlo.Run
import Idealize.ShloMosaic.Lib.Pipeline.Value
import Idealize.ShloMosaic.Lib.ValueIdx
import Idealize.ShloMosaic.PureOps.Ideal.Laws
import proofs.«146222_g2000209494350815_pallasbulk_913_23_alg».proof.Proof.LibJoinedRows

noncomputable section

namespace Cert.KernelIdeal.KHost

open Idealize.ShloMosaic Idealize.ShloMosaic.TcCoe Idealize.ShloMosaic.ValueIdx Idealize.SL.Sem Cert.KernelIdeal Cert.KernelIdeal.Gen

/-- An operation of three operands writes, at its result, its function of the three operands' contents, each read at
    its own reference. -/
theorem nary3_result {Val : EltTy → Type} {x a b y : Ref sig .tc}
    (f : ((k : Fin 3) → ((![x, a, b] : Fin 3 → Ref sig .tc) k).ty.Contents Val) → y.ty.Contents Val) (hxs hy)
    (V : Valuation τ sig Val) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

section AnyInstance

variable {F : FTy → Type} [FloatOps F]
variable (m : (ℓ : Loc nD τ sig) → Buf (Elt F) ℓ) (c : Dev nD)

/-! ## The two computed arrays, whole -/

/-- The start array: the slice of extent one along the input's middle axis, with that axis dropped. -/
theorem W_main_v1 :
    (StableHlo.after hostOps0 (fun b => m (c, b)) (Proc.devRef .tc main_v1) : (⟨S512x128, .f32⟩ : BufTy).Contents (Elt F))
      = shapeCast S512x128 (extractStridedSlice S512x1x128 ![0, 0, 0] (m ((c : Thread nD τ).loc main_arg0)) slices_S512x33x128_S512x1x128_0_0_0)
          shapeCasts_S512x1x128_S512x128 := by
  after_results
  rfl

/-- The stacked first-layer matrix: the matrix, the bias row and 127 rows of the zero constant, joined along the rows. -/
theorem W_main_v3 :
    (StableHlo.after hostOps0 (fun b => m (c, b)) (Proc.devRef .tc main_v3) : (⟨S256x256, .f32⟩ : BufTy).Contents (Elt F))
      = concatenate S256x256 0 [⟨S128x256, m ((c : Thread nD τ).loc main_arg1)⟩, ⟨S1x256, m ((c : Thread nD τ).loc main_arg2)⟩,
          ⟨S127x256, broadcastInDim S127x256 ![] bcast_S_S127x256 (constant S_ .f32 0x00000000#32)⟩]
          concatenates_S128x256_S1x256_S127x256_S256x256_d0 := by
  simp only [StableHlo.after_cons, StableHlo.after_nil]
  rw [nary3_result]
  repeat (first
    | rw [StableHlo.nullary_result] | rw [StableHlo.unary_result]
    | (rw [StableHlo.nullary_result_ne]; rotate_left; decide)
    | (rw [StableHlo.unary_result_ne]; rotate_left; decide)
    | (rw [StableHlo.reshape_result_ne]; rotate_left; decide))
  rfl

/-! ## The start array at an entry -/

/-- The start array at (b, j) is the input at (b, 0, j). -/
theorem W_main_v1_apply (b : Fin 512) (j : Fin 128) :
    (StableHlo.after hostOps0 (fun b => m (c, b)) (Proc.devRef .tc main_v1) : (⟨S512x128, .f32⟩ : BufTy).Contents (Elt F)) (ix2 b j)
      = (m ((c : Thread nD τ).loc main_arg0) : (⟨S512x33x128, .f32⟩ : BufTy).Contents (Elt F)) (ix3 b 0 j) := by
  rw [W_main_v1]
  rw [shapeCast_apply _ shapeCasts_S512x1x128_S512x128 (ix2 b j) (ix3 b (0 : Fin 1) j)
    (by rw [Shape.rowMajor_val_three, Shape.rowMajor_val_two]; show (b.val * 1 + 0) * 128 + j.val = b.val * 128 + j.val; omega)]
  exact extractStridedSlice_apply _ _ slices_S512x33x128_S512x1x128_0_0_0 (ix3 b (0 : Fin 1) j) (ix3 b (0 : Fin 33) j)
    (fun a => by
      match a with
      | ⟨0, _⟩ => show b.val = 0 + b.val; omega
      | ⟨1, _⟩ => rfl
      | ⟨2, _⟩ => show j.val = 0 + j.val; omega)

/-! ## The arguments -/

/-- No host operation writes argument 0: the region finds it as launched. -/
theorem W_main_arg0 :
    StableHlo.after hostOps0 (fun b => m (c, b)) (Proc.devRef .tc main_arg0) = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.reshape_writes,
      StableHlo.nary_writes, Finset.mem_singleton]
    repeat' apply And.intro
    all_goals exact StableHlo.devRef_ne_of_ne (by decide)))

/-- No host operation writes argument 1: the region finds it as launched. -/
theorem W_main_arg1 :
    StableHlo.after hostOps0 (fun b => m (c, b)) (Proc.devRef .tc main_arg1) = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.reshape_writes,
      StableHlo.nary_writes, Finset.mem_singleton]
    repeat' apply And.intro
    all_goals exact StableHlo.devRef_ne_of_ne (by decide)))

/-- No host operation writes argument 2: the region finds it as launched. -/
theorem W_main_arg2 :
    StableHlo.after hostOps0 (fun b => m (c, b)) (Proc.devRef .tc main_arg2) = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.reshape_writes,
      StableHlo.nary_writes, Finset.mem_singleton]
    repeat' apply And.intro
    all_goals exact StableHlo.devRef_ne_of_ne (by decide)))

/-- No host operation writes argument 3: the region finds it as launched. -/
theorem W_main_arg3 :
    StableHlo.after hostOps0 (fun b => m (c, b)) (Proc.devRef .tc main_arg3) = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.reshape_writes,
      StableHlo.nary_writes, Finset.mem_singleton]
    repeat' apply And.intro
    all_goals exact StableHlo.devRef_ne_of_ne (by decide)))

/-- No host operation writes argument 4: the region finds it as launched. -/
theorem W_main_arg4 :
    StableHlo.after hostOps0 (fun b => m (c, b)) (Proc.devRef .tc main_arg4) = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.reshape_writes,
      StableHlo.nary_writes, Finset.mem_singleton]
    repeat' apply And.intro
    all_goals exact StableHlo.devRef_ne_of_ne (by decide)))

/-- No host operation writes argument 5: the region finds it as launched. -/
theorem W_main_arg5 :
    StableHlo.after hostOps0 (fun b => m (c, b)) (Proc.devRef .tc main_arg5) = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.reshape_writes,
      StableHlo.nary_writes, Finset.mem_singleton]
    repeat' apply And.intro
    all_goals exact StableHlo.devRef_ne_of_ne (by decide)))

/-- No host operation writes argument 6: the region finds it as launched. -/
theorem W_main_arg6 :
    StableHlo.after hostOps0 (fun b => m (c, b)) (Proc.devRef .tc main_arg6) = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.reshape_writes,
      StableHlo.nary_writes, Finset.mem_singleton]
    repeat' apply And.intro
    all_goals exact StableHlo.devRef_ne_of_ne (by decide)))

/-- No host operation writes argument 7: the region finds it as launched. -/
theorem W_main_arg7 :
    StableHlo.after hostOps0 (fun b => m (c, b)) (Proc.devRef .tc main_arg7) = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.reshape_writes,
      StableHlo.nary_writes, Finset.mem_singleton]
    repeat' apply And.intro
    all_goals exact StableHlo.devRef_ne_of_ne (by decide)))

end AnyInstance

/-! ## The stacked matrix at an entry, over the extended reals -/

section AtIdeal

variable (m : (ℓ : Loc nD τ sig) → Buf (Elt Ideal) ℓ) (c : Dev nD)

/-- The stacked matrix at (κ, k): the first-layer matrix's row κ below 128, the bias row at 128, zero above. -/
theorem W_main_v3_apply (κ k : Fin 256) :
    (StableHlo.after hostOps0 (fun b => m (c, b)) (Proc.devRef .tc main_v3) : (⟨S256x256, .f32⟩ : BufTy).Contents (Elt Ideal)) (ix2 κ k)
      = (if h : κ.val < 128 then (m ((c : Thread nD τ).loc main_arg1) : (⟨S128x256, .f32⟩ : BufTy).Contents (Elt Ideal)) (ix2 ⟨κ.val, h⟩ k)
        else if κ.val = 128 then (m ((c : Thread nD τ).loc main_arg2) : (⟨S1x256, .f32⟩ : BufTy).Contents (Elt Ideal)) (ix2 0 k)
        else 0 : EReal) := by
  rw [W_main_v3]
  by_cases h : κ.val < 128
  · rw [dif_pos h]
    exact concatenate_apply_piece (α := EReal) (xs := [⟨S128x256, m ((c : Thread nD τ).loc main_arg1)⟩, ⟨S1x256, m ((c : Thread nD τ).loc main_arg2)⟩, ⟨S127x256, broadcastInDim S127x256 ![] bcast_S_S127x256 (constant (F := Ideal) S_ .f32 0x00000000#32)⟩]) 0 concatenates_S128x256_S1x256_S127x256_S256x256_d0 (ix2 κ k) 0 (by show (0 : ℕ) < 3; omega) S128x256 (m ((c : Thread nD τ).loc main_arg1)) rfl rfl 0 rfl
      (ix2 ⟨κ.val, h⟩ k) (fun b hb => by
        match b with
        | ⟨0, _⟩ => exact absurd rfl hb
        | ⟨1, _⟩ => rfl) (by show 0 + κ.val = κ.val; omega)
  · rw [dif_neg h]
    by_cases h1 : κ.val = 128
    · rw [if_pos h1]
      exact concatenate_apply_piece (α := EReal) (xs := [⟨S128x256, m ((c : Thread nD τ).loc main_arg1)⟩, ⟨S1x256, m ((c : Thread nD τ).loc main_arg2)⟩, ⟨S127x256, broadcastInDim S127x256 ![] bcast_S_S127x256 (constant (F := Ideal) S_ .f32 0x00000000#32)⟩]) 0 concatenates_S128x256_S1x256_S127x256_S256x256_d0 (ix2 κ k) 1 (by show (1 : ℕ) < 3; omega) S1x256 (m ((c : Thread nD τ).loc main_arg2)) rfl rfl 128 rfl
        (ix2 (0 : Fin 1) k) (fun b hb => by
        match b with
        | ⟨0, _⟩ => exact absurd rfl hb
        | ⟨1, _⟩ => rfl) (by show 128 + 0 = κ.val; omega)
    · rw [if_neg h1]
      have hlt := κ.isLt
      refine (concatenate_apply_piece (α := EReal) (xs := [⟨S128x256, m ((c : Thread nD τ).loc main_arg1)⟩, ⟨S1x256, m ((c : Thread nD τ).loc main_arg2)⟩, ⟨S127x256, broadcastInDim S127x256 ![] bcast_S_S127x256 (constant (F := Ideal) S_ .f32 0x00000000#32)⟩]) 0 concatenates_S128x256_S1x256_S127x256_S256x256_d0 (ix2 κ k) 2 (by show (2 : ℕ) < 3; omega) S127x256
        (broadcastInDim S127x256 ![] bcast_S_S127x256 (constant (F := Ideal) S_ .f32 0x00000000#32)) rfl rfl 129 rfl
        (ix2 (⟨κ.val - 129, by omega⟩ : Fin 127) k) (fun b hb => by
        match b with
        | ⟨0, _⟩ => exact absurd rfl hb
        | ⟨1, _⟩ => rfl) (by show 129 + (κ.val - 129) = κ.val; omega)).trans ?_
      rw [Cert.LibJoinedRows.bcast_scalar_apply]
      exact Ideal.ofBits_zero_f32

end AtIdeal

end Cert.KernelIdeal.KHost

end
-- ==== Proof.KIAt.lean ====
/-
  The region's windows read at an entry, the output array after the run, and the run's result.

  The region has seven input windows and one output window over a grid of four points. Five inputs are whole arrays the
  region finds as launched (the second and third layers' matrices and bias rows); two are arrays the host computes first
  (the start rows x[:, 0, :] and the stacked matrix [W1; b1; 0]); the noise window and the output window are cut along
  the step axis into four blocks of eight steps, point t holding steps 8t .. 8t+7. So a window's block at a point, read
  at an entry, is an argument array at the corresponding entry: the same entry for a whole window, step 8t + s for step
  s of a cut one. Conversely the output array after the run is assembled from the four blocks the points write back:
  every point writes back, and step u of a row lies in the block of point u / 8, so if the body's output block at each
  point t agrees with a function G on steps 8t .. 8t+7, the array is G.
-/
import proofs.«146222_g2000209494350815_pallasbulk_913_23_alg».proof.Proof.KIFrame
import proofs.«146222_g2000209494350815_pallasbulk_913_23_alg».proof.Proof.KHost
import proofs.«146222_g2000209494350815_pallasbulk_913_23_alg».proof.Proof.KSemIdx1
import Idealize.ShloMosaic.Lib.Pipeline.Value

set_option maxRecDepth 16384

noncomputable section

namespace Cert.KernelIdeal.KAt

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (c : Dev nD) (t : Fin cfg0.N)

/-- The index maps, decided over the four grid points: a whole-array window sits at block 0 on every axis; the noise
    and output windows sit at block t along the step axis. -/
theorem idx_facts : ∀ t : Fin cfg0.N,
    win0_0.index t (0 : Fin 2) = 0 ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = 0 ∧ win0_7.index t (1 : Fin 3) = t.val ∧ win0_7.index t (2 : Fin 3) = 0 :=
  (by decide +kernel : ∀ t : Fin grid0.N, _)

/-! ## The input windows at an entry -/

/-- The start window at (b, j) is the input at (b, 0, j). -/
theorem iblk0_apply (b : Fin 512) (j : Fin 128) :
    Hand.iblk m c 0 t (ix2 b j) = m ((c : Thread nD τ).loc main_arg0) (ix3 b 0 j) := by
  have hf := idx_facts t
  show Hand.V m c main_v1 (((cfg0.win 0).blk t).view.emb (ix2 b j)) = _
  have he : ((cfg0.win 0).blk t).view.emb (ix2 b j) = ix2 b j := by
    funext a; apply Fin.ext
    match a with
    | ⟨0, _⟩ => show win0_0.index t (0 : Fin 2) * 512 + 1 * b.val = b.val; omega
    | ⟨1, _⟩ => show win0_0.index t (1 : Fin 2) * 128 + 1 * j.val = j.val; omega
  rw [he]
  exact KHost.W_main_v1_apply m c b j

/-- The noise window's block at point t, at (b, s, j), is the noise at (b, 8t + s, j). -/
theorem iblk1_apply (b : Fin 512) (s : Fin 8) (j : Fin 128) :
    Hand.iblk m c 1 t (ix3 b s j) = m ((c : Thread nD τ).loc main_arg7) (ix3 b (⟨8 * t.val + s.val, by have := t.isLt; have hN : cfg0.N = 4 := N_0; have := s.isLt; omega⟩ : Fin 32) j) := by
  have hf := idx_facts t
  show Hand.V m c main_arg7 (((cfg0.win 1).blk t).view.emb (ix3 b s j)) = _
  rw [Hand.V_main_arg7]
  congr 1
  funext a; apply Fin.ext
  match a with
  | ⟨0, _⟩ => show win0_1.index t (0 : Fin 3) * 512 + 1 * b.val = b.val; omega
  | ⟨1, _⟩ => show win0_1.index t (1 : Fin 3) * 8 + 1 * s.val = 8 * t.val + s.val; omega
  | ⟨2, _⟩ => show win0_1.index t (2 : Fin 3) * 128 + 1 * j.val = j.val; omega

/-- The second layer's matrix window is the argument, entry by entry. -/
theorem iblk3_apply (κ k : Fin 256) :
    Hand.iblk m c 3 t (ix2 κ k) = m ((c : Thread nD τ).loc main_arg3) (ix2 κ k) := by
  have hf := idx_facts t
  show Hand.V m c main_arg3 (((cfg0.win 3).blk t).view.emb (ix2 κ k)) = _
  rw [Hand.V_main_arg3]
  congr 1
  funext a; apply Fin.ext
  match a with
  | ⟨0, _⟩ => show win0_3.index t (0 : Fin 2) * 256 + 1 * κ.val = κ.val; omega
  | ⟨1, _⟩ => show win0_3.index t (1 : Fin 2) * 256 + 1 * k.val = k.val; omega

/-- The second layer's bias row window is the argument, entry by entry. -/
theorem iblk4_apply (k : Fin 256) :
    Hand.iblk m c 4 t (ix2 (0 : Fin 1) k) = m ((c : Thread nD τ).loc main_arg4) (ix2 (0 : Fin 1) k) := by
  have hf := idx_facts t
  show Hand.V m c main_arg4 (((cfg0.win 4).blk t).view.emb (ix2 (0 : Fin 1) k)) = _
  rw [Hand.V_main_arg4]
  congr 1
  funext a; apply Fin.ext
  match a with
  | ⟨0, _⟩ => show win0_4.index t (0 : Fin 2) * 1 + 1 * (0 : Fin 1).val = (0 : Fin 1).val; omega
  | ⟨1, _⟩ => show win0_4.index t (1 : Fin 2) * 256 + 1 * k.val = k.val; omega

/-- The output layer's matrix window is the argument, entry by entry. -/
theorem iblk5_apply (κ : Fin 256) (j : Fin 128) :
    Hand.iblk m c 5 t (ix2 κ j) = m ((c : Thread nD τ).loc main_arg5) (ix2 κ j) := by
  have hf := idx_facts t
  show Hand.V m c main_arg5 (((cfg0.win 5).blk t).view.emb (ix2 κ j)) = _
  rw [Hand.V_main_arg5]
  congr 1
  funext a; apply Fin.ext
  match a with
  | ⟨0, _⟩ => show win0_5.index t (0 : Fin 2) * 256 + 1 * κ.val = κ.val; omega
  | ⟨1, _⟩ => show win0_5.index t (1 : Fin 2) * 128 + 1 * j.val = j.val; omega

/-- The output layer's bias row window is the argument, entry by entry. -/
theorem iblk6_apply (j : Fin 128) :
    Hand.iblk m c 6 t (ix2 (0 : Fin 1) j) = m ((c : Thread nD τ).loc main_arg6) (ix2 (0 : Fin 1) j) := by
  have hf := idx_facts t
  show Hand.V m c main_arg6 (((cfg0.win 6).blk t).view.emb (ix2 (0 : Fin 1) j)) = _
  rw [Hand.V_main_arg6]
  congr 1
  funext a; apply Fin.ext
  match a with
  | ⟨0, _⟩ => show win0_6.index t (0 : Fin 2) * 1 + 1 * (0 : Fin 1).val = (0 : Fin 1).val; omega
  | ⟨1, _⟩ => show win0_6.index t (1 : Fin 2) * 128 + 1 * j.val = j.val; omega

/-- The stacked-matrix window at (κ, k): the first layer's matrix below row 128, its bias row at 128, zero above. -/
theorem iblk2_apply (κ k : Fin 256) :
    Hand.iblk m c 2 t (ix2 κ k) = (if h : κ.val < 128 then m ((c : Thread nD τ).loc main_arg1) (ix2 ⟨κ.val, h⟩ k)
      else if κ.val = 128 then m ((c : Thread nD τ).loc main_arg2) (ix2 0 k) else 0 : EReal) := by
  have hf := idx_facts t
  show Hand.V m c main_v3 (((cfg0.win 2).blk t).view.emb (ix2 κ k)) = _
  have he : ((cfg0.win 2).blk t).view.emb (ix2 κ k) = ix2 κ k := by
    funext a; apply Fin.ext
    match a with
    | ⟨0, _⟩ => show win0_2.index t (0 : Fin 2) * 256 + 1 * κ.val = κ.val; omega
    | ⟨1, _⟩ => show win0_2.index t (1 : Fin 2) * 256 + 1 * k.val = k.val; omega
  rw [he]
  exact KHost.W_main_v3_apply m c κ k

/-- So the stacked-matrix window is [W1; b1; 0] of the first layer's matrix and bias row. -/
theorem iblk2_stacked :
    Cert.KernelIdeal.KSem.StackedW1 (Hand.iblk m c 2 t) (m ((c : Thread nD τ).loc main_arg1)) (m ((c : Thread nD τ).loc main_arg2)) :=
  fun κ k => iblk2_apply m c t κ k

/-! ## The output array -/

/-- An index of the output array is in point t's block iff each coordinate is in the block's range on its axis. -/
theorem mem_blk7 (t : Fin cfg0.N) (i : S512x32x128.Idx) :
    i ∈ ((cfg0.win 7).blk t).view.set ↔ ∀ a : Fin 3, win0_7.index t a * S512x8x128.size a ≤ (i a).val ∧ (i a).val < win0_7.index t a * S512x8x128.size a + S512x8x128.size a := by
  show i ∈ ((View.whole main_v4).slice (win0_7.rect t)).set ↔ _
  rw [View.set_slice_whole, Rect.mem_set_unit]
  exact Iff.rfl

/-- What point t writes back is block t of G, when the body's output block at t is G on steps 8t .. 8t+7. -/
theorem flushed7_eq (G : S512x32x128.Idx → EReal)
    (hG : ∀ (t : Fin cfg0.N) (b : Fin 512) (s : Fin 8) (j : Fin 128),
      (Hand.outsAt0 m c t.val t.isLt).1 (ix3 b s j) = G (ix3 b (⟨8 * t.val + s.val, by have := t.isLt; have hN : cfg0.N = 4 := N_0; have := s.isLt; omega⟩ : Fin 32) j))
    (t : Fin cfg0.N) :
    (Hand.dats m 0 c).flushed 7 t = ((cfg0.win 7).blk t).view.read (Elt Ideal) G := by
  have hf := idx_facts t
  show (cfg0.win 7).cut (grid0.coords t) ((Hand.dats m 0 c).after 7 t) = _
  rw [Hand.after0_7]
  have key : ∀ y : S512x8x128.Idx, (Hand.outsAt0 m c t.val t.isLt).1 y = G (((cfg0.win 7).blk t).view.emb y) := by
    intro y
    obtain ⟨b, s, j, rfl⟩ : ∃ (b : Fin 512) (s : Fin 8) (j : Fin 128), y = ix3 b s j := ⟨y 0, y 1, y 2, eq_ix3 y⟩
    rw [hG t b s j]
    congr 1
    funext a; apply Fin.ext
    match a with
    | ⟨0, _⟩ => show b.val = win0_7.index t (0 : Fin 3) * 512 + 1 * b.val; omega
    | ⟨1, _⟩ => show 8 * t.val + s.val = win0_7.index t (1 : Fin 3) * 8 + 1 * s.val; omega
    | ⟨2, _⟩ => show j.val = win0_7.index t (2 : Fin 3) * 128 + 1 * j.val; omega
  funext y
  exact key y

/-- The output array after the run is G: step u of a row lies in the block of point u / 8, and every point writes back. -/
theorem arrAt7_eq (G : S512x32x128.Idx → EReal)
    (hG : ∀ (t : Fin cfg0.N) (b : Fin 512) (s : Fin 8) (j : Fin 128),
      (Hand.outsAt0 m c t.val t.isLt).1 (ix3 b s j) = G (ix3 b (⟨8 * t.val + s.val, by have := t.isLt; have hN : cfg0.N = 4 := N_0; have := s.isLt; omega⟩ : Fin 32) j)) :
    (Hand.dats m 0 c).arrAt 7 cfg0.N = G := by
  refine (Hand.dats m 0 c).arrAt_eq_of_cover 7 G (fun t _ => flushed7_eq m c G hG t) (fun i => ?_)
  have hN : cfg0.N = 4 := N_0
  have hi0 : (i 0).val < 512 := (i 0).isLt
  have hi1 : (i 1).val < 32 := (i 1).isLt
  have hi2 : (i 2).val < 128 := (i 2).isLt
  obtain ⟨t0, ht0⟩ : ∃ t0 : Fin cfg0.N, t0.val = (i 1).val / 8 := ⟨⟨(i 1).val / 8, by omega⟩, rfl⟩
  have hf := idx_facts t0
  refine ⟨t0, flush0_7 t0, ?_⟩
  rw [mem_blk7]
  intro a
  match a with
  | ⟨0, _⟩ => show win0_7.index t0 (0 : Fin 3) * 512 ≤ (i 0).val ∧ (i 0).val < win0_7.index t0 (0 : Fin 3) * 512 + 512; omega
  | ⟨1, _⟩ => show win0_7.index t0 (1 : Fin 3) * 8 ≤ (i 1).val ∧ (i 1).val < win0_7.index t0 (1 : Fin 3) * 8 + 8; omega
  | ⟨2, _⟩ => show win0_7.index t0 (2 : Fin 3) * 128 ≤ (i 2).val ∧ (i 2).val < win0_7.index t0 (2 : Fin 3) * 128 + 128; omega

/-! ## The run, read -/

/-- Every weakly fair execution ends with the output array at G and the eight argument arrays as launched. -/
theorem result_eq (ρ : Dev nD → PrngReg) (G : Dev nD → S512x32x128.Idx → EReal)
    (hG : ∀ (c : Dev nD) (t : Fin cfg0.N) (b : Fin 512) (s : Fin 8) (j : Fin 128),
      (Hand.outsAt0 m c t.val t.isLt).1 (ix3 b s j) = G c (ix3 b (⟨8 * t.val + s.val, by have := t.isLt; have hN : cfg0.N = 4 := N_0; have := s.isLt; omega⟩ : Fin 32) j)) :
    θ_run defs (onTc (τ := τ) (main (F := Ideal))) ⟨m, fun _ => 0, ρ⟩ (fun r => ∀ c : Dev nD,
      r.2.mem ((c.tc : Thread nD τ).loc main_v4) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).1 7).trans (arrAt7_eq m c (G c) (hG c)),
      ((h c).2 main_arg0 (Pipeline.mem_restRefs_of main_arg0 (by decide) (by decide))).trans (Hand.V_main_arg0 m c),
      ((h c).2 main_arg1 (Pipeline.mem_restRefs_of main_arg1 (by decide) (by decide))).trans (Hand.V_main_arg1 m c),
      ((h c).2 main_arg2 (Pipeline.mem_restRefs_of main_arg2 (by decide) (by decide))).trans (Hand.V_main_arg2 m c),
      ((h c).1 3).trans (((Hand.dats m 0 c).arrAt_in 3 rfl _).trans ((Hand.A_eq m c 3).trans (Hand.V_main_arg3 m c))),
      ((h c).1 4).trans (((Hand.dats m 0 c).arrAt_in 4 rfl _).trans ((Hand.A_eq m c 4).trans (Hand.V_main_arg4 m c))),
      ((h c).1 5).trans (((Hand.dats m 0 c).arrAt_in 5 rfl _).trans ((Hand.A_eq m c 5).trans (Hand.V_main_arg5 m c))),
      ((h c).1 6).trans (((Hand.dats m 0 c).arrAt_in 6 rfl _).trans ((Hand.A_eq m c 6).trans (Hand.V_main_arg6 m c))),
      ((h c).1 1).trans (((Hand.dats m 0 c).arrAt_in 1 rfl _).trans ((Hand.A_eq m c 1).trans (Hand.V_main_arg7 m c)))⟩)
    (Hand.run_main m ρ)

end Cert.KernelIdeal.KAt
end
-- ==== Proof.RolloutCongr.lean ====
/-
  The rollout only reads the noise rows of the steps it has taken: two noise families that agree below step t give
  the same state before step t and the same prediction at step t.
-/
import proofs.«146222_g2000209494350815_pallasbulk_913_23_alg».proof.Proof.RolloutLaws

noncomputable section

namespace Cert.Rollout

open Idealize.ShloMosaic Idealize.ShloMosaic.ValueIdx

section Net

variable (w1 : (⟨2, ![128, 256]⟩ : Shape).Idx → EReal) (b1 : (⟨2, ![1, 256]⟩ : Shape).Idx → EReal)   (w2 : (⟨2, ![256, 256]⟩ : Shape).Idx → EReal) (b2 : (⟨2, ![1, 256]⟩ : Shape).Idx → EReal)   (w3 : (⟨2, ![256, 128]⟩ : Shape).Idx → EReal) (b3 : (⟨2, ![1, 128]⟩ : Shape).Idx → EReal)

theorem state_congr (x0 : Fin 128 → EReal) (nz nz' : ℕ → Fin 128 → EReal) :
    ∀ t : ℕ, (∀ u, u < t → nz u = nz' u) → state w1 b1 w2 b2 w3 b3 x0 nz t = state w1 b1 w2 b2 w3 b3 x0 nz' t
  | 0, _ => rfl
  | t + 1, h => by
    rw [state_succ, state_succ, state_congr x0 nz nz' t (fun u hu => h u (Nat.lt_succ_of_lt hu)), h t (Nat.lt_succ_self t)]

theorem pred_congr (x0 : Fin 128 → EReal) (nz nz' : ℕ → Fin 128 → EReal) (t : ℕ) (h : ∀ u, u < t → nz u = nz' u) :
    pred w1 b1 w2 b2 w3 b3 x0 nz t = pred w1 b1 w2 b2 w3 b3 x0 nz' t := by
  unfold pred
  rw [state_congr w1 b1 w2 b2 w3 b3 x0 nz nz' t h]

end Net

end Cert.Rollout

end
-- ==== Proof.KIValue.lean ====
/-
  The kernel's result, point by point: after grid point n the state scratch holds every row's rollout state after
  8·(n + 1) steps, in the form [features | 1 | 0 …], and the prediction block of point n holds the rows' predictions at
  steps 8·n … 8·n + 7. Point 0 starts from the start rows; a later point from what the point before left. The four
  prediction blocks tile the result array, which is therefore the rollout's result.
-/
import proofs.«146222_g2000209494350815_pallasbulk_913_23_alg».proof.Proof.KIPoint
import proofs.«146222_g2000209494350815_pallasbulk_913_23_alg».proof.Proof.KIAt
import proofs.«146222_g2000209494350815_pallasbulk_913_23_alg».proof.Proof.RolloutCongr

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.KernelIdeal.KSem Cert.KernelIdeal.Hand
open Cert.Rollout (state pred start noise)

variable (m : (ℓ : Loc nD τ sig) → Buf (Elt Ideal) ℓ) (c : Dev nD)

/-- The argument arrays as launched, read as the specification's arrays. -/
abbrev aX : (⟨3, ![512, 33, 128]⟩ : Shape).Idx → EReal := m ((c : Thread nD τ).loc main_arg0)
abbrev aW1 : (⟨2, ![128, 256]⟩ : Shape).Idx → EReal := m ((c : Thread nD τ).loc main_arg1)
abbrev aB1 : (⟨2, ![1, 256]⟩ : Shape).Idx → EReal := m ((c : Thread nD τ).loc main_arg2)
abbrev aW2 : (⟨2, ![256, 256]⟩ : Shape).Idx → EReal := m ((c : Thread nD τ).loc main_arg3)
abbrev aB2 : (⟨2, ![1, 256]⟩ : Shape).Idx → EReal := m ((c : Thread nD τ).loc main_arg4)
abbrev aW3 : (⟨2, ![256, 128]⟩ : Shape).Idx → EReal := m ((c : Thread nD τ).loc main_arg5)
abbrev aB3 : (⟨2, ![1, 128]⟩ : Shape).Idx → EReal := m ((c : Thread nD τ).loc main_arg6)
abbrev aNS : (⟨3, ![512, 32, 128]⟩ : Shape).Idx → EReal := m ((c : Thread nD τ).loc main_arg7)

/-- Row `b`'s rollout state before step `n`, and its prediction at step `n`. -/
def rowSt (b : Fin 512) (n : ℕ) : Fin 128 → EReal :=
  state (aW1 m c) (aB1 m c) (aW2 m c) (aB2 m c) (aW3 m c) (aB3 m c) (start (aX m c) b) (noise (aNS m c) b) n
def rowPred (b : Fin 512) (n : ℕ) : Fin 128 → EReal :=
  pred (aW1 m c) (aB1 m c) (aW2 m c) (aB2 m c) (aW3 m c) (aB3 m c) (start (aX m c) b) (noise (aNS m c) b) n

/-- Row `b`'s noise rows at the eight steps of point `t`. -/
def NZt (t : ℕ) (b : Fin 512) (s : Fin 8) (j : Fin 128) : EReal := noise (aNS m c) b (8 * t + s.val) j

theorem shift_state (t : ℕ) (b : Fin 512) :
    state (aW1 m c) (aB1 m c) (aW2 m c) (aB2 m c) (aW3 m c) (aB3 m c) (rowSt m c b (8 * t)) (fun u j => if h : u < 8 then NZt m c t b ⟨u, h⟩ j else 0) 8 = rowSt m c b (8 * (t + 1)) := by
  rw [show 8 * (t + 1) = 8 * t + 8 from by ring]
  unfold rowSt
  rw [Cert.Rollout.state_add]
  refine Cert.Rollout.state_congr _ _ _ _ _ _ _ _ _ 8 (fun u hu => ?_)
  funext j
  rw [dif_pos hu]
  rfl

theorem shift_pred (t : ℕ) (b : Fin 512) (s : Fin 8) :
    pred (aW1 m c) (aB1 m c) (aW2 m c) (aB2 m c) (aW3 m c) (aB3 m c) (rowSt m c b (8 * t)) (fun u j => if h : u < 8 then NZt m c t b ⟨u, h⟩ j else 0) s.val = rowPred m c b (8 * t + s.val) := by
  unfold rowPred rowSt
  rw [Cert.Rollout.pred_add]
  refine Cert.Rollout.pred_congr _ _ _ _ _ _ _ _ _ s.val (fun u hu => ?_)
  funext j
  rw [dif_pos (by have := s.isLt; omega)]
  rfl

/-- What every point is handed in its input blocks. -/
theorem blocks_at (t : Fin cfg0.N) :
    (∀ (b : Fin 512) (s : Fin 8) (j : Fin 128), iblk m c 1 t (ix3 b s j) = NZt m c t.val b s j)
    ∧ StackedW1 (iblk m c 2 t) (aW1 m c) (aB1 m c)
    ∧ (∀ κ k : Fin 256, iblk m c 3 t (ix2 κ k) = aW2 m c (ix2 κ k))
    ∧ (∀ k : Fin 256, iblk m c 4 t (ix2 0 k) = aB2 m c (ix2 0 k))
    ∧ (∀ (κ : Fin 256) (j : Fin 128), iblk m c 5 t (ix2 κ j) = aW3 m c (ix2 κ j))
    ∧ (∀ j : Fin 128, iblk m c 6 t (ix2 0 j) = aB3 m c (ix2 0 j)) := by
  have hN : t.val < 4 := lt_of_lt_of_eq t.isLt (show cfg0.N = 4 from N_0)
  refine ⟨fun b s j => ?_, Cert.KernelIdeal.KAt.iblk2_stacked m c t, Cert.KernelIdeal.KAt.iblk3_apply m c t,
    Cert.KernelIdeal.KAt.iblk4_apply m c t, Cert.KernelIdeal.KAt.iblk5_apply m c t, Cert.KernelIdeal.KAt.iblk6_apply m c t⟩
  rw [Cert.KernelIdeal.KAt.iblk1_apply m c t b s j]
  exact (Cert.Rollout.noise_lt (aNS m c) b ⟨8 * t.val + s.val, by have := s.isLt; omega⟩ j).symm

set_option maxHeartbeats 2000000 in
/-- THE INVARIANT, point by point. -/
theorem inv : ∀ (n : ℕ) (hn : n < cfg0.N),
    Aug512 (outsAt0 m c n hn).2 (fun b => rowSt m c b (8 * (n + 1)))
    ∧ ∀ (b : Fin 512) (s : Fin 8) (j : Fin 128), (outsAt0 m c n hn).1 (ix3 b s j) = rowPred m c b (8 * n + s.val) j
  | 0, hn => by
    obtain ⟨hx1, hx2, hx3, hx4, hx5, hx6⟩ := blocks_at m c ⟨0, hn⟩
    have hx0 : ∀ (b : Fin 512) (j : Fin 128), iblk m c 0 ⟨0, hn⟩ (ix2 b j) = rowSt m c b (8 * 0) j := fun b j =>
      Cert.KernelIdeal.KAt.iblk0_apply m c ⟨0, hn⟩ b j
    have hp := point_A (aW1 m c) (aB1 m c) (aW2 m c) (aB2 m c) (aW3 m c) (aB3 m c) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr rfl)
      (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (fun b => rowSt m c b (8 * 0)) (NZt m c 0) hx1 hx2 hx3 hx4 hx5 hx6 hx0
    have e := outsAt0_A m c ⟨0, hn⟩ rfl
    rw [show outsAt0 m c 0 hn = _ from e]
    dsimp only
    unfold out0_A_7 sout0_A_1
    rw [View.read_writes_junk_eq_canon, View.read_writes_junk_eq_canon]
    refine ⟨fun b κ => ?_, fun b s j => ?_⟩
    · exact (hp.2 b κ).trans (by dsimp only; rw [shift_state m c 0 b])
    · exact (hp.1 b s j).trans (congrFun (shift_pred m c 0 b s) j)
  | n + 1, hn => by
    obtain ⟨ihS, -⟩ := inv n (Nat.lt_of_succ_lt hn)
    obtain ⟨hx1, hx2, hx3, hx4, hx5, hx6⟩ := blocks_at m c ⟨n + 1, hn⟩
    have hp := point_B (aW1 m c) (aB1 m c) (aW2 m c) (aB2 m c) (aW3 m c) (aB3 m c) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => Nat.succ_ne_zero n ((hcond0_0 ⟨n + 1, hn⟩).mp h))
      (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 m c n (Nat.lt_of_succ_lt hn)).2 (fun b => rowSt m c b (8 * (n + 1))) (NZt m c (n + 1)) hx1 hx2 hx3 hx4 hx5 hx6 ihS
    have e := outsAt0_B m c ⟨n + 1, hn⟩ (Nat.succ_ne_zero n)
    rw [show outsAt0 m c (n + 1) hn = _ from e]
    dsimp only
    unfold out0_B_7 sout0_B_1
    rw [View.read_writes_junk_eq_canon, View.read_writes_junk_eq_canon]
    refine ⟨fun b κ => ?_, fun b s j => ?_⟩
    · exact (hp.2 b κ).trans (by dsimp only; rw [shift_state m c (n + 1) b])
    · exact (hp.1 b s j).trans (congrFun (shift_pred m c (n + 1) b s) j)

/-- THE KERNEL'S RUN, READ: the result array is the rollout's result; the arguments end unchanged. -/
theorem value_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4) = Cert.Rollout.result (aW1 m c) (aB1 m c) (aW2 m c) (aB2 m c) (aW3 m c) (aB3 m c) (aX m c) (aNS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Cert.KernelIdeal.KAt.result_eq m ρ (fun c => Cert.Rollout.result (aW1 m c) (aB1 m c) (aW2 m c) (aB2 m c) (aW3 m c) (aB3 m c) (aX m c) (aNS m c))
    (fun c t b s j => by
      have hN : t.val < 4 := lt_of_lt_of_eq t.isLt (show cfg0.N = 4 from N_0)
      rw [(inv m c t.val t.isLt).2 b s j, Cert.Rollout.result_ix3]
      rfl)

end Cert.KernelIdeal.KValue

end
-- ==== Proof.RFrameKit.lean ====
/-
  The frame of the reference program, first part: @main around its one region, and what the region finds.

  @main is three host operations (the slice and reshape that take x[:, 0, :], and the reshape of the noise to one row per
  batch row), the region — one grid point, every window's block its whole array —, and one host reshape of the region's
  result. No host operation writes an argument array, and the one after the region writes only the program's result.
-/
import proofs.«146222_g2000209494350815_pallasbulk_913_23_alg».proof.Proof.Gen.ReferenceIdeal.Launch
import proofs.«146222_g2000209494350815_pallasbulk_913_23_alg».proof.Proof.Gen.ReferenceIdeal.Skeleton
import proofs.«146222_g2000209494350815_pallasbulk_913_23_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches the pipeline's arrays and the bypassing buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.reshape_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(((h c).2 main_arg0 (Pipeline.mem_restRefs_of main_arg0 (by decide) (by decide))).trans (W_main_arg0 m dats c)),
      ((h c).1 2).trans (((dats 0 c).arrAt_in 2 rfl _).trans ((hA c 2).trans (V_main_arg1 m c))),
      ((h c).1 3).trans (((dats 0 c).arrAt_in 3 rfl _).trans ((hA c 3).trans (V_main_arg2 m c))),
      ((h c).1 4).trans (((dats 0 c).arrAt_in 4 rfl _).trans ((hA c 4).trans (V_main_arg3 m c))),
      ((h c).1 5).trans (((dats 0 c).arrAt_in 5 rfl _).trans ((hA c 5).trans (V_main_arg4 m c))),
      ((h c).1 6).trans (((dats 0 c).arrAt_in 6 rfl _).trans ((hA c 6).trans (V_main_arg5 m c))),
      ((h c).1 7).trans (((dats 0 c).arrAt_in 7 rfl _).trans ((hA c 7).trans (V_main_arg6 m c))),
      (((h c).2 main_arg7 (Pipeline.mem_restRefs_of main_arg7 (by decide) (by decide))).trans (W_main_arg7 m dats c))⟩) h

/-- One staging buffer of the output window, as a view through which its contents are stated. -/
abbrev VO0_8 : View sig .tc .vmem S512x4096 .f32 := (Memref.whole cc0_stg8_0 : Memref sig .tc .vmem S512x4096 .f32).view

end Cert.ReferenceIdeal.Hand

end
-- ==== Proof.RRun.lean ====
/-
  The reference kernel's body run once, whole: on whole staging memrefs, the eight inputs at given contents and the
  output's at anything, the body runs to the end with the inputs as they were and the output's buffer holding its one
  store, the piece the run itself finds.
-/
import proofs.«146222_g2000209494350815_pallasbulk_913_23_alg».proof.Proof.RFrameKit

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def kernelRun0 (c : Dev nD) (i : grid0.Coords) (arg1 : Memref sig .tc .vmem S512x128 .f32) (harg1 : arg1.IsWhole) (arg2 : Memref sig .tc .vmem S512x4096 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S512x4096 .f32) (harg9 : arg9.IsWhole)
    (x0 : Vec F S512x128 .f32) (x1 : Vec F S512x4096 .f32) (x2 : Vec F S128x256 .f32) (x3 : Vec F S1x256 .f32) (x4 : Vec F S256x256 .f32) (x5 : Vec F S1x256 .f32) (x6 : Vec F S256x128 .f32) (x7 : Vec F S1x128 .f32) :
    { L8 : List (View.Piece (Elt F) S512x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8)) -∗ K ⟨⟩))
          ⊢ wp frame (wpE (defs₀ (F := F)) Variants.none c none) E (cc0__rollout_kernel i arg1 harg1 arg2 harg2 arg3 harg3 arg4 harg4 arg5 harg5 arg6 harg6 arg7 harg7 arg8 harg8 arg9 harg9) K } := by
  refine ⟨?_, fun E K => ?run⟩
  case run =>
    simp only [cc0__rollout_kernel_eq_skeleton]; unfold cc0__rollout_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

end Cert.ReferenceIdeal.Hand

end
-- ==== Proof.RFrame.lean ====
/-
  The frame of the reference program, last part: what the one grid point leaves in the output block (its one store,
  read back), the proof data, the body obligation, the run and the frame.
-/
import proofs.«146222_g2000209494350815_pallasbulk_913_23_alg».proof.Proof.RRun

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x4096 .f32 := win0_8.stage (cfg0.slots t 8)
abbrev hs0_8 (t : Fin cfg0.N) : (ms0_8 t).IsWhole := hstage0_8 ((cfg0.slots t 8).cast nbuf0_8)

/-- The body's one store is the whole output block: it covers it. -/
theorem cover0_8 (c : Dev nD) (i : grid0.Coords) (arg1 : Memref sig .tc .vmem S512x128 .f32) (harg1 : arg1.IsWhole) (arg2 : Memref sig .tc .vmem S512x4096 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S512x4096 .f32) (harg9 : arg9.IsWhole)
    (x0 : Vec F S512x128 .f32) (x1 : Vec F S512x4096 .f32) (x2 : Vec F S128x256 .f32) (x3 : Vec F S1x256 .f32) (x4 : Vec F S256x256 .f32) (x5 : Vec F S1x256 .f32) (x6 : Vec F S256x128 .f32) (x7 : Vec F S1x128 .f32) (y : S512x4096.Idx) :
    ∃ pc ∈ (kernelRun0 c i arg1 harg1 arg2 harg2 arg3 harg3 arg4 harg4 arg5 harg5 arg6 harg6 arg7 harg7 arg8 harg8 arg9 harg9 x0 x1 x2 x3 x4 x5 x6 x7).1, y ∈ pc.1.set :=
  View.cover_of_tiledL (kernelRun0 c i arg1 harg1 arg2 harg2 arg3 harg3 arg4 harg4 arg5 harg5 arg6 harg6 arg7 harg7 arg8 harg8 arg9 harg9 x0 x1 x2 x3 x4 x5 x6 x7).1 S512x4096.size (by sl_kernel_rfl) y

/-- What the body leaves in the output window's buffer: its piece read back. -/
def out0_8 (c : Dev nD) (i : grid0.Coords) (arg1 : Memref sig .tc .vmem S512x128 .f32) (harg1 : arg1.IsWhole) (arg2 : Memref sig .tc .vmem S512x4096 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S512x4096 .f32) (harg9 : arg9.IsWhole)
    (x0 : Vec F S512x128 .f32) (x1 : Vec F S512x4096 .f32) (x2 : Vec F S128x256 .f32) (x3 : Vec F S1x256 .f32) (x4 : Vec F S256x256 .f32) (x5 : Vec F S1x256 .f32) (x6 : Vec F S256x128 .f32) (x7 : Vec F S1x128 .f32) : Vec F S512x4096 .f32 :=
  VO0_8.read (Elt F) (VO0_8.writes (Elt F) VO0_8.junk (kernelRun0 c i arg1 harg1 arg2 harg2 arg3 harg3 arg4 harg4 arg5 harg5 arg6 harg6 arg7 harg7 arg8 harg8 arg9 harg9 x0 x1 x2 x3 x4 x5 x6 x7).1)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  unfold out0_8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0 c (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover0_8 c _ _ _ _ _ _ _ _ _ _ _ _ _ _ _ _ _ _ _ _ _ _ _ _ _ _ _ )

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.ReferenceIdeal.Hand

end
-- ==== Proof.RBlocks.lean ====
/-
  The rollout's arithmetic on whole arrays, as a regular recursion.

  All 512 rows are advanced together. With W1, W2, W3 the three weight matrices, c1, c2, c3 the three bias rows
  repeated on every row, and N the noise array scaled by sigma (one block of 128 columns per step), one step sends
  the state X (512 rows of 128 features) to
      H1 = relu(X·W1 + c1),  H2 = relu(H1·W2 + c2),  P = H2·W3 + c3        (the step's prediction)
      X' = (X + P) + N[:, 128·t : 128·t + 128]                              (the next state).
  The program writes these 32 steps out one after another; here they are one recursion on the step number, each
  layer spelled with exactly the operations the program uses, so that every written-out step is a step of the
  recursion by unfolding definitions.
-/
import proofs.«146222_g2000209494350815_pallasbulk_913_23_alg».proof.Proof.Gen.ReferenceIdeal.Skeleton

noncomputable section

namespace Cert.ReferenceIdeal.RefValue

open Idealize.ShloMosaic Idealize.SL.Sem Cert.ReferenceIdeal Cert.ReferenceIdeal.Gen

variable {F : FTy → Type} [FloatOps F]

/-- First hidden layer on all rows: relu(x·W1 + c1), the product taken into a zero accumulator. -/
def rH1 (w1 : Vec F S128x256 .f32) (c1 : FVec F S512x256 .f32) (x : FVec F S512x128 .f32) : FVec F S512x256 .f32 :=
  maximumf (addf (matmul dot_S512x128_S128x256_S512x256_1_0_0_1_n_n none x w1 (constant S512x256 .f32 0x00000000#32)) c1)
    (broadcast S512x256 (Scalar.ofBits .f32 0x00000000#32))

/-- Second hidden layer on all rows: relu(h·W2 + c2). -/
def rH2 (w2 : Vec F S256x256 .f32) (c2 : FVec F S512x256 .f32) (h : FVec F S512x256 .f32) : FVec F S512x256 .f32 :=
  maximumf (addf (matmul dot_S512x256_S256x256_S512x256_1_0_0_1_n_n none h w2 (constant S512x256 .f32 0x00000000#32)) c2)
    (broadcast S512x256 (Scalar.ofBits .f32 0x00000000#32))

/-- Output layer on all rows: h·W3 + c3. -/
def rF (w3 : Vec F S256x128 .f32) (c3 : FVec F S512x128 .f32) (h : FVec F S512x256 .f32) : FVec F S512x128 .f32 :=
  addf (matmul dot_S512x256_S256x128_S512x128_1_0_0_1_n_n none h w3 (constant S512x128 .f32 0x00000000#32)) c3

/-- The next state: (x + f) + n, in this order. -/
def rNext (x f n : FVec F S512x128 .f32) : FVec F S512x128 .f32 := addf (addf x f) n

/-- Columns 128·t … 128·t + 127 lie inside the 4096 columns for every step number below 32; the step number is
    taken modulo 32 so that the statement needs no hypothesis. -/
theorem slice_ok (t : ℕ) : S512x4096.Slices ![0, 128 * (t % 32)] S512x128 := by
  refine ⟨rfl, fun a => ?_⟩
  have h := Nat.mod_lt t (show 32 > 0 by decide)
  match a with
  | ⟨0, _⟩ => show 0 + 512 ≤ 512; omega
  | ⟨1, _⟩ => show 128 * (t % 32) + 128 ≤ 4096; omega

/-- Step `t`'s block of 128 columns of a [512, 4096] array. -/
def nsl (n : FVec F S512x4096 .f32) (t : ℕ) : FVec F S512x128 .f32 :=
  extractStridedSlice S512x128 ![0, 128 * (t % 32)] n (slice_ok t)

section Recursion

variable (w1 : Vec F S128x256 .f32) (w2 : Vec F S256x256 .f32) (w3 : Vec F S256x128 .f32)
  (b1 : Vec F S1x256 .f32) (b2 : Vec F S1x256 .f32) (b3 : Vec F S1x128 .f32)
  (ns : Vec F S512x4096 .f32) (x0 : Vec F S512x128 .f32)

/-- The network on all rows of a state: its prediction. The bias rows are repeated on the 512 rows, as the program
    does once at its start. -/
def rP (x : FVec F S512x128 .f32) : FVec F S512x128 .f32 :=
  rF w3 (k0_pay5 b3) (rH2 w2 (k0_pay4 b2) (rH1 w1 (k0_pay3 b1) x))

/-- The state before step `t`: the start, then each step adds the prediction and the step's scaled noise. -/
def RX : ℕ → FVec F S512x128 .f32
  | 0 => k0_pay7 x0
  | t + 1 => rNext (RX t) (rP w1 w2 w3 b1 b2 b3 (RX t)) (nsl (k0_pay6 ns) t)

/-- First hidden layer at step `t`. -/
def RH1 (t : ℕ) : FVec F S512x256 .f32 := rH1 w1 (k0_pay3 b1) (RX w1 w2 w3 b1 b2 b3 ns x0 t)
/-- Second hidden layer at step `t`. -/
def RH2 (t : ℕ) : FVec F S512x256 .f32 := rH2 w2 (k0_pay4 b2) (RH1 w1 w2 w3 b1 b2 b3 ns x0 t)
/-- The prediction at step `t`. -/
def RP (t : ℕ) : FVec F S512x128 .f32 := rF w3 (k0_pay5 b3) (RH2 w1 w2 w3 b1 b2 b3 ns x0 t)

theorem RX_zero : RX w1 w2 w3 b1 b2 b3 ns x0 0 = k0_pay7 x0 := rfl

theorem RX_succ (t : ℕ) : RX w1 w2 w3 b1 b2 b3 ns x0 (t + 1)
    = rNext (RX w1 w2 w3 b1 b2 b3 ns x0 t) (RP w1 w2 w3 b1 b2 b3 ns x0 t) (nsl (k0_pay6 ns) t) := rfl

theorem RP_eq (t : ℕ) : RP w1 w2 w3 b1 b2 b3 ns x0 t = rP w1 w2 w3 b1 b2 b3 (RX w1 w2 w3 b1 b2 b3 ns x0 t) := rfl

/-- The 32 predictions side by side: the [512, 4096] array the program stores. -/
def RCat : FVec F S512x4096 .f32 :=
  k0_pay2 (RP w1 w2 w3 b1 b2 b3 ns x0 0) (RP w1 w2 w3 b1 b2 b3 ns x0 1) (RP w1 w2 w3 b1 b2 b3 ns x0 2) (RP w1 w2 w3 b1 b2 b3 ns x0 3)
    (RP w1 w2 w3 b1 b2 b3 ns x0 4) (RP w1 w2 w3 b1 b2 b3 ns x0 5) (RP w1 w2 w3 b1 b2 b3 ns x0 6) (RP w1 w2 w3 b1 b2 b3 ns x0 7)
    (RP w1 w2 w3 b1 b2 b3 ns x0 8) (RP w1 w2 w3 b1 b2 b3 ns x0 9) (RP w1 w2 w3 b1 b2 b3 ns x0 10) (RP w1 w2 w3 b1 b2 b3 ns x0 11)
    (RP w1 w2 w3 b1 b2 b3 ns x0 12) (RP w1 w2 w3 b1 b2 b3 ns x0 13) (RP w1 w2 w3 b1 b2 b3 ns x0 14) (RP w1 w2 w3 b1 b2 b3 ns x0 15)
    (RP w1 w2 w3 b1 b2 b3 ns x0 16) (RP w1 w2 w3 b1 b2 b3 ns x0 17) (RP w1 w2 w3 b1 b2 b3 ns x0 18) (RP w1 w2 w3 b1 b2 b3 ns x0 19)
    (RP w1 w2 w3 b1 b2 b3 ns x0 20) (RP w1 w2 w3 b1 b2 b3 ns x0 21) (RP w1 w2 w3 b1 b2 b3 ns x0 22) (RP w1 w2 w3 b1 b2 b3 ns x0 23)
    (RP w1 w2 w3 b1 b2 b3 ns x0 24) (RP w1 w2 w3 b1 b2 b3 ns x0 25) (RP w1 w2 w3 b1 b2 b3 ns x0 26) (RP w1 w2 w3 b1 b2 b3 ns x0 27)
    (RP w1 w2 w3 b1 b2 b3 ns x0 28) (RP w1 w2 w3 b1 b2 b3 ns x0 29) (RP w1 w2 w3 b1 b2 b3 ns x0 30) (RP w1 w2 w3 b1 b2 b3 ns x0 31)

end Recursion

end Cert.ReferenceIdeal.RefValue

end
-- ==== Proof.RPay1.lean ====
/-
  Each written-out piece of the program's body is a value of the recursion.

  The program's body is 32 steps written one after another and cut into consecutive parts; a part hands the next
  one the current state and, where the cut falls inside a step, the hidden layer computed so far. For every piece,
  once the values handed in are the recursion's own (the state before step t, its first or second hidden layer),
  the piece is again a value of the recursion: the state before the next step, a hidden layer, or a prediction.
  Every equation compares one step with one step, the earlier state being the same term on both sides.
-/
import proofs.«146222_g2000209494350815_pallasbulk_913_23_alg».proof.Proof.RBlocks

noncomputable section

namespace Cert.ReferenceIdeal.RefValue

open Idealize.ShloMosaic Idealize.SL.Sem Cert.ReferenceIdeal Cert.ReferenceIdeal.Gen

variable {F : FTy → Type} [FloatOps F]

variable (w1 : Vec F S128x256 .f32) (w2 : Vec F S256x256 .f32) (w3 : Vec F S256x128 .f32)
  (b1 : Vec F S1x256 .f32) (b2 : Vec F S1x256 .f32) (b3 : Vec F S1x128 .f32)
  (ns : Vec F S512x4096 .f32) (x0 : Vec F S512x128 .f32)

-- the state, the first and second hidden layers and the prediction at a step, for the arrays above
local notation "sX" => RX w1 w2 w3 b1 b2 b3 ns x0
local notation "sG" => RH1 w1 w2 w3 b1 b2 b3 ns x0
local notation "sH" => RH2 w1 w2 w3 b1 b2 b3 ns x0
local notation "sP" => RP w1 w2 w3 b1 b2 b3 ns x0
-- the three bias rows repeated on the 512 rows, and the noise scaled by sigma
local notation "c1" => k0_pay3 b1
local notation "c2" => k0_pay4 b2
local notation "c3" => k0_pay5 b3
local notation "cn" => k0_pay6 ns

/-- the prediction at step 0. -/
theorem pay8 : k0_pay8 w1 w2 w3 b1 b2 b3 x0 = sP 0 := rfl
/-- the state before step 1. -/
theorem pay9 : k0_pay9 w1 w2 w3 b1 b2 b3 ns x0 = sX 1 := rfl
/-- the first hidden layer at step 1. -/
theorem pay10 : k0_pay10 w1 w2 w3 b1 b2 b3 ns x0 = sG 1 := rfl
/-- the prediction at step 1. -/
theorem pay11 : k0_pay11 w2 w3 c2 c3 (sG 1) = sP 1 := rfl
/-- the state before step 2. -/
theorem pay12 : k0_pay12 w2 w3 c2 c3 cn (sX 1) (sG 1) = sX 2 := rfl
/-- the prediction at step 2. -/
theorem pay13 : k0_pay13 w1 w2 w3 c1 c2 c3 cn (sX 1) (sG 1) = sP 2 := rfl
/-- the state before step 3. -/
theorem pay14 : k0_pay14 w1 w2 w3 c1 c2 c3 cn (sX 1) (sG 1) = sX 3 := rfl
/-- the prediction at step 3. -/
theorem pay15 : k0_pay15 w1 w2 w3 c1 c2 c3 cn (sX 1) (sG 1) = sP 3 := rfl
/-- the state before step 4. -/
theorem pay16 : k0_pay16 w1 w2 w3 c1 c2 c3 cn (sX 1) (sG 1) = sX 4 := rfl
/-- the second hidden layer at step 4. -/
theorem pay17 : k0_pay17 w1 w2 w3 c1 c2 c3 cn (sX 1) (sG 1) = sH 4 := rfl
/-- the prediction at step 4. -/
theorem pay18 : k0_pay18 w3 c3 (sH 4) = sP 4 := rfl
/-- the state before step 5. -/
theorem pay19 : k0_pay19 w3 c3 cn (sX 4) (sH 4) = sX 5 := rfl
/-- the prediction at step 5. -/
theorem pay20 : k0_pay20 w1 w2 w3 c1 c2 c3 cn (sX 4) (sH 4) = sP 5 := rfl
/-- the state before step 6. -/
theorem pay21 : k0_pay21 w1 w2 w3 c1 c2 c3 cn (sX 4) (sH 4) = sX 6 := rfl
/-- the prediction at step 6. -/
theorem pay22 : k0_pay22 w1 w2 w3 c1 c2 c3 cn (sX 4) (sH 4) = sP 6 := rfl
/-- the state before step 7. -/
theorem pay23 : k0_pay23 w1 w2 w3 c1 c2 c3 cn (sX 4) (sH 4) = sX 7 := rfl
/-- the prediction at step 7. -/
theorem pay24 : k0_pay24 w1 w2 w3 c1 c2 c3 cn (sX 4) (sH 4) = sP 7 := rfl
/-- the state before step 8. -/
theorem pay25 : k0_pay25 w1 w2 w3 c1 c2 c3 cn (sX 4) (sH 4) = sX 8 := rfl
/-- the prediction at step 8. -/
theorem pay26 : k0_pay26 w1 w2 w3 c1 c2 c3 (sX 8) = sP 8 := rfl
/-- the state before step 9. -/
theorem pay27 : k0_pay27 w1 w2 w3 c1 c2 c3 cn (sX 8) = sX 9 := rfl
/-- the prediction at step 9. -/
theorem pay28 : k0_pay28 w1 w2 w3 c1 c2 c3 cn (sX 8) = sP 9 := rfl
/-- the state before step 10. -/
theorem pay29 : k0_pay29 w1 w2 w3 c1 c2 c3 cn (sX 8) = sX 10 := rfl
/-- the prediction at step 10. -/
theorem pay30 : k0_pay30 w1 w2 w3 c1 c2 c3 cn (sX 8) = sP 10 := rfl
/-- the state before step 11. -/
theorem pay31 : k0_pay31 w1 w2 w3 c1 c2 c3 cn (sX 8) = sX 11 := rfl
/-- the first hidden layer at step 11. -/
theorem pay32 : k0_pay32 w1 w2 w3 c1 c2 c3 cn (sX 8) = sG 11 := rfl
/-- the prediction at step 11. -/
theorem pay33 : k0_pay33 w2 w3 c2 c3 (sG 11) = sP 11 := rfl
/-- the state before step 12. -/
theorem pay34 : k0_pay34 w2 w3 c2 c3 cn (sX 11) (sG 11) = sX 12 := rfl
/-- the prediction at step 12. -/
theorem pay35 : k0_pay35 w1 w2 w3 c1 c2 c3 cn (sX 11) (sG 11) = sP 12 := rfl
/-- the state before step 13. -/
theorem pay36 : k0_pay36 w1 w2 w3 c1 c2 c3 cn (sX 11) (sG 11) = sX 13 := rfl
/-- the prediction at step 13. -/
theorem pay37 : k0_pay37 w1 w2 w3 c1 c2 c3 cn (sX 11) (sG 11) = sP 13 := rfl
/-- the state before step 14. -/
theorem pay38 : k0_pay38 w1 w2 w3 c1 c2 c3 cn (sX 11) (sG 11) = sX 14 := rfl
/-- the second hidden layer at step 14. -/
theorem pay39 : k0_pay39 w1 w2 w3 c1 c2 c3 cn (sX 11) (sG 11) = sH 14 := rfl
/-- the prediction at step 14. -/
theorem pay40 : k0_pay40 w3 c3 (sH 14) = sP 14 := rfl
/-- the state before step 15. -/
theorem pay41 : k0_pay41 w3 c3 cn (sX 14) (sH 14) = sX 15 := rfl
/-- the prediction at step 15. -/
theorem pay42 : k0_pay42 w1 w2 w3 c1 c2 c3 cn (sX 14) (sH 14) = sP 15 := rfl
/-- the state before step 16. -/
theorem pay43 : k0_pay43 w1 w2 w3 c1 c2 c3 cn (sX 14) (sH 14) = sX 16 := rfl
/-- the prediction at step 16. -/
theorem pay44 : k0_pay44 w1 w2 w3 c1 c2 c3 cn (sX 14) (sH 14) = sP 16 := rfl
/-- the state before step 17. -/
theorem pay45 : k0_pay45 w1 w2 w3 c1 c2 c3 cn (sX 14) (sH 14) = sX 17 := rfl
/-- the prediction at step 17. -/
theorem pay46 : k0_pay46 w1 w2 w3 c1 c2 c3 cn (sX 14) (sH 14) = sP 17 := rfl
/-- the state before step 18. -/
theorem pay47 : k0_pay47 w1 w2 w3 c1 c2 c3 cn (sX 14) (sH 14) = sX 18 := rfl
/-- the prediction at step 18. -/
theorem pay48 : k0_pay48 w1 w2 w3 c1 c2 c3 (sX 18) = sP 18 := rfl
/-- the state before step 19. -/
theorem pay49 : k0_pay49 w1 w2 w3 c1 c2 c3 cn (sX 18) = sX 19 := rfl
/-- the prediction at step 19. -/
theorem pay50 : k0_pay50 w1 w2 w3 c1 c2 c3 cn (sX 18) = sP 19 := rfl
/-- the state before step 20. -/
theorem pay51 : k0_pay51 w1 w2 w3 c1 c2 c3 cn (sX 18) = sX 20 := rfl
/-- the prediction at step 20. -/
theorem pay52 : k0_pay52 w1 w2 w3 c1 c2 c3 cn (sX 18) = sP 20 := rfl
/-- the state before step 21. -/
theorem pay53 : k0_pay53 w1 w2 w3 c1 c2 c3 cn (sX 18) = sX 21 := rfl
/-- the first hidden layer at step 21. -/
theorem pay54 : k0_pay54 w1 w2 w3 c1 c2 c3 cn (sX 18) = sG 21 := rfl
/-- the prediction at step 21. -/
theorem pay55 : k0_pay55 w2 w3 c2 c3 (sG 21) = sP 21 := rfl
/-- the state before step 22. -/
theorem pay56 : k0_pay56 w2 w3 c2 c3 cn (sX 21) (sG 21) = sX 22 := rfl
/-- the prediction at step 22. -/
theorem pay57 : k0_pay57 w1 w2 w3 c1 c2 c3 cn (sX 21) (sG 21) = sP 22 := rfl
/-- the state before step 23. -/
theorem pay58 : k0_pay58 w1 w2 w3 c1 c2 c3 cn (sX 21) (sG 21) = sX 23 := rfl
/-- the prediction at step 23. -/
theorem pay59 : k0_pay59 w1 w2 w3 c1 c2 c3 cn (sX 21) (sG 21) = sP 23 := rfl
/-- the state before step 24. -/
theorem pay60 : k0_pay60 w1 w2 w3 c1 c2 c3 cn (sX 21) (sG 21) = sX 24 := rfl
/-- the second hidden layer at step 24. -/
theorem pay61 : k0_pay61 w1 w2 w3 c1 c2 c3 cn (sX 21) (sG 21) = sH 24 := rfl
/-- the prediction at step 24. -/
theorem pay62 : k0_pay62 w3 c3 (sH 24) = sP 24 := rfl
/-- the state before step 25. -/
theorem pay63 : k0_pay63 w3 c3 cn (sX 24) (sH 24) = sX 25 := rfl
/-- the prediction at step 25. -/
theorem pay64 : k0_pay64 w1 w2 w3 c1 c2 c3 cn (sX 24) (sH 24) = sP 25 := rfl
/-- the state before step 26. -/
theorem pay65 : k0_pay65 w1 w2 w3 c1 c2 c3 cn (sX 24) (sH 24) = sX 26 := rfl
/-- the prediction at step 26. -/
theorem pay66 : k0_pay66 w1 w2 w3 c1 c2 c3 cn (sX 24) (sH 24) = sP 26 := rfl
/-- the state before step 27. -/
theorem pay67 : k0_pay67 w1 w2 w3 c1 c2 c3 cn (sX 24) (sH 24) = sX 27 := rfl
/-- the prediction at step 27. -/
theorem pay68 : k0_pay68 w1 w2 w3 c1 c2 c3 cn (sX 24) (sH 24) = sP 27 := rfl
/-- the state before step 28. -/
theorem pay69 : k0_pay69 w1 w2 w3 c1 c2 c3 cn (sX 24) (sH 24) = sX 28 := rfl
/-- the prediction at step 28. -/
theorem pay70 : k0_pay70 w1 w2 w3 c1 c2 c3 (sX 28) = sP 28 := rfl
/-- the state before step 29. -/
theorem pay71 : k0_pay71 w1 w2 w3 c1 c2 c3 cn (sX 28) = sX 29 := rfl
/-- the prediction at step 29. -/
theorem pay72 : k0_pay72 w1 w2 w3 c1 c2 c3 cn (sX 28) = sP 29 := rfl
/-- the state before step 30. -/
theorem pay73 : k0_pay73 w1 w2 w3 c1 c2 c3 cn (sX 28) = sX 30 := rfl
/-- the prediction at step 30. -/
theorem pay74 : k0_pay74 w1 w2 w3 c1 c2 c3 cn (sX 28) = sP 30 := rfl
/-- the first hidden layer at step 31. -/
theorem pay75 : k0_pay75 w1 w2 w3 c1 c2 c3 cn (sX 28) = sG 31 := rfl
/-- the prediction at step 31. -/
theorem pay1 : k0_pay1 w2 w3 c2 c3 (sG 31) = sP 31 := rfl

end Cert.ReferenceIdeal.RefValue

end
-- ==== Proof.RGlue.lean ====
/-
  The body's one store holds the 32 predictions of the recursion side by side.

  The body is run part by part, and every value a part returns has a name: the loaded blocks, the repeated bias rows,
  the scaled noise, and then per part the predictions it produced and the state (or state and hidden layer) it hands
  on. Each named value is one written-out piece applied to earlier named values, so, in the order they are made, each
  is a value of the recursion by the piece's one-step equation. The store's value is then the concatenation of the
  predictions at steps 0 … 31.
-/
import proofs.«146222_g2000209494350815_pallasbulk_913_23_alg».proof.Proof.RRun
import proofs.«146222_g2000209494350815_pallasbulk_913_23_alg».proof.Proof.RPay1
import Idealize.ShloMosaic.Lib.Pipeline.Value

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Hand

variable {F : FTy → Type} [FloatOps F]

theorem hz : (![0, 0] : Fin 2 → Nat) = fun _ => 0 := funext fun a => by fin_cases a <;> rfl

variable (c : Dev nD)
  (arg1 : Memref sig .tc .vmem S512x128 .f32) (harg1 : arg1.IsWhole) (arg2 : Memref sig .tc .vmem S512x4096 .f32) (harg2 : arg2.IsWhole)
  (arg3 : Memref sig .tc .vmem S128x256 .f32) (harg3 : arg3.IsWhole) (arg4 : Memref sig .tc .vmem S1x256 .f32) (harg4 : arg4.IsWhole)
  (arg5 : Memref sig .tc .vmem S256x256 .f32) (harg5 : arg5.IsWhole) (arg6 : Memref sig .tc .vmem S1x256 .f32) (harg6 : arg6.IsWhole)
  (arg7 : Memref sig .tc .vmem S256x128 .f32) (harg7 : arg7.IsWhole) (arg8 : Memref sig .tc .vmem S1x128 .f32) (harg8 : arg8.IsWhole)
  (x0 : Vec F S512x128 .f32) (x1 : Vec F S512x4096 .f32) (x2 : Vec F S128x256 .f32) (x3 : Vec F S1x256 .f32)
  (x4 : Vec F S256x256 .f32) (x5 : Vec F S1x256 .f32) (x6 : Vec F S256x128 .f32) (x7 : Vec F S1x128 .f32)

/-! ## Each named value, in the order the run makes them

A load of a whole block through the zero-offset rectangle is the block; the recursion's arrays are
(W1, W2, W3, b1, b2, b3, noise, start) = (x2, x4, x6, x3, x5, x7, x1, x0). -/

theorem r_eq : kernelRun0.sl.r c arg3 harg3 x2 = x2 := by
  unfold kernelRun0.sl.r
  simp only [View.readAt_eq_ld, harg3.read_unread, View.ld_unit_zero (S := S128x256) hz]

theorem r_1_eq : kernelRun0.sl.r_1 c arg5 harg5 x4 = x4 := by
  unfold kernelRun0.sl.r_1
  simp only [View.readAt_eq_ld, harg5.read_unread, View.ld_unit_zero (S := S256x256) hz]

theorem r_2_eq : kernelRun0.sl.r_2 c arg7 harg7 x6 = x6 := by
  unfold kernelRun0.sl.r_2
  simp only [View.readAt_eq_ld, harg7.read_unread, View.ld_unit_zero (S := S256x128) hz]

theorem r_3_eq : kernelRun0.sl.r_3 c arg4 harg4 x3 = k0_pay3 x3 := by
  unfold kernelRun0.sl.r_3
  simp only [View.readAt_eq_ld, harg4.read_unread, View.ld_unit_zero (S := S1x256) hz]

theorem r_4_eq : kernelRun0.sl.r_4 c arg6 harg6 x5 = k0_pay4 x5 := by
  unfold kernelRun0.sl.r_4
  simp only [View.readAt_eq_ld, harg6.read_unread, View.ld_unit_zero (S := S1x256) hz]

theorem r_5_eq : kernelRun0.sl.r_5 c arg8 harg8 x7 = k0_pay5 x7 := by
  unfold kernelRun0.sl.r_5
  simp only [View.readAt_eq_ld, harg8.read_unread, View.ld_unit_zero (S := S1x128) hz]

theorem r_6_eq : kernelRun0.sl.r_6 c arg2 harg2 x1 = k0_pay6 x1 := by
  unfold kernelRun0.sl.r_6
  simp only [View.readAt_eq_ld, harg2.read_unread, View.ld_unit_zero (S := S512x4096) hz]

theorem r_7_eq : kernelRun0.sl.r_7 c arg1 harg1 arg3 harg3 arg4 harg4 arg5 harg5 arg6 harg6 arg7 harg7 arg8 harg8 x0 x2 x3 x4 x5 x6 x7 = RP x2 x4 x6 x3 x5 x7 x1 x0 0 := by
  unfold kernelRun0.sl.r_7
  simp only [View.readAt_eq_ld, harg3.read_unread, harg5.read_unread, harg7.read_unread, harg4.read_unread, harg6.read_unread, harg8.read_unread, harg1.read_unread, View.ld_unit_zero (S := S128x256) hz, View.ld_unit_zero (S := S256x256) hz, View.ld_unit_zero (S := S256x128) hz, View.ld_unit_zero (S := S1x256) hz, View.ld_unit_zero (S := S1x128) hz, View.ld_unit_zero (S := S512x128) hz]
  exact pay8 x2 x4 x6 x3 x5 x7 x1 x0

theorem r_8_eq : kernelRun0.sl.r_8 c arg1 harg1 arg2 harg2 arg3 harg3 arg4 harg4 arg5 harg5 arg6 harg6 arg7 harg7 arg8 harg8 x0 x1 x2 x3 x4 x5 x6 x7 = RX x2 x4 x6 x3 x5 x7 x1 x0 1 := by
  unfold kernelRun0.sl.r_8
  simp only [View.readAt_eq_ld, harg3.read_unread, harg5.read_unread, harg7.read_unread, harg4.read_unread, harg6.read_unread, harg8.read_unread, harg2.read_unread, harg1.read_unread, View.ld_unit_zero (S := S128x256) hz, View.ld_unit_zero (S := S256x256) hz, View.ld_unit_zero (S := S256x128) hz, View.ld_unit_zero (S := S1x256) hz, View.ld_unit_zero (S := S1x128) hz, View.ld_unit_zero (S := S512x4096) hz, View.ld_unit_zero (S := S512x128) hz]
  exact pay9 x2 x4 x6 x3 x5 x7 x1 x0

theorem r_9_eq : kernelRun0.sl.r_9 c arg1 harg1 arg2 harg2 arg3 harg3 arg4 harg4 arg5 harg5 arg6 harg6 arg7 harg7 arg8 harg8 x0 x1 x2 x3 x4 x5 x6 x7 = RH1 x2 x4 x6 x3 x5 x7 x1 x0 1 := by
  unfold kernelRun0.sl.r_9
  simp only [View.readAt_eq_ld, harg3.read_unread, harg5.read_unread, harg7.read_unread, harg4.read_unread, harg6.read_unread, harg8.read_unread, harg2.read_unread, harg1.read_unread, View.ld_unit_zero (S := S128x256) hz, View.ld_unit_zero (S := S256x256) hz, View.ld_unit_zero (S := S256x128) hz, View.ld_unit_zero (S := S1x256) hz, View.ld_unit_zero (S := S1x128) hz, View.ld_unit_zero (S := S512x4096) hz, View.ld_unit_zero (S := S512x128) hz]
  exact pay10 x2 x4 x6 x3 x5 x7 x1 x0

theorem r_10_eq : kernelRun0.sl.r_10 c arg1 harg1 arg2 harg2 arg3 harg3 arg4 harg4 arg5 harg5 arg6 harg6 arg7 harg7 arg8 harg8 x0 x1 x2 x3 x4 x5 x6 x7 = RP x2 x4 x6 x3 x5 x7 x1 x0 1 := by
  unfold kernelRun0.sl.r_10
  rw [r_1_eq, r_2_eq, r_4_eq, r_5_eq, r_9_eq]
  exact pay11 x2 x4 x6 x3 x5 x7 x1 x0

theorem r_11_eq : kernelRun0.sl.r_11 c arg1 harg1 arg2 harg2 arg3 harg3 arg4 harg4 arg5 harg5 arg6 harg6 arg7 harg7 arg8 harg8 x0 x1 x2 x3 x4 x5 x6 x7 = RP x2 x4 x6 x3 x5 x7 x1 x0 2 := by
  unfold kernelRun0.sl.r_11
  rw [r_eq, r_1_eq, r_2_eq, r_3_eq, r_4_eq, r_5_eq, r_6_eq, r_8_eq, r_9_eq]
  exact pay13 x2 x4 x6 x3 x5 x7 x1 x0

theorem r_12_eq : kernelRun0.sl.r_12 c arg1 harg1 arg2 harg2 arg3 harg3 arg4 harg4 arg5 harg5 arg6 harg6 arg7 harg7 arg8 harg8 x0 x1 x2 x3 x4 x5 x6 x7 = RP x2 x4 x6 x3 x5 x7 x1 x0 3 := by
  unfold kernelRun0.sl.r_12
  rw [r_eq, r_1_eq, r_2_eq, r_3_eq, r_4_eq, r_5_eq, r_6_eq, r_8_eq, r_9_eq]
  exact pay15 x2 x4 x6 x3 x5 x7 x1 x0

theorem r_13_eq : kernelRun0.sl.r_13 c arg1 harg1 arg2 harg2 arg3 harg3 arg4 harg4 arg5 harg5 arg6 harg6 arg7 harg7 arg8 harg8 x0 x1 x2 x3 x4 x5 x6 x7 = RX x2 x4 x6 x3 x5 x7 x1 x0 4 := by
  unfold kernelRun0.sl.r_13
  rw [r_eq, r_1_eq, r_2_eq, r_3_eq, r_4_eq, r_5_eq, r_6_eq, r_8_eq, r_9_eq]
  exact pay16 x2 x4 x6 x3 x5 x7 x1 x0

theorem r_14_eq : kernelRun0.sl.r_14 c arg1 harg1 arg2 harg2 arg3 harg3 arg4 harg4 arg5 harg5 arg6 harg6 arg7 harg7 arg8 harg8 x0 x1 x2 x3 x4 x5 x6 x7 = RH2 x2 x4 x6 x3 x5 x7 x1 x0 4 := by
  unfold kernelRun0.sl.r_14
  rw [r_eq, r_1_eq, r_2_eq, r_3_eq, r_4_eq, r_5_eq, r_6_eq, r_8_eq, r_9_eq]
  exact pay17 x2 x4 x6 x3 x5 x7 x1 x0

theorem r_15_eq : kernelRun0.sl.r_15 c arg1 harg1 arg2 harg2 arg3 harg3 arg4 harg4 arg5 harg5 arg6 harg6 arg7 harg7 arg8 harg8 x0 x1 x2 x3 x4 x5 x6 x7 = RP x2 x4 x6 x3 x5 x7 x1 x0 4 := by
  unfold kernelRun0.sl.r_15
  rw [r_2_eq, r_5_eq, r_14_eq]
  exact pay18 x2 x4 x6 x3 x5 x7 x1 x0

theorem r_16_eq : kernelRun0.sl.r_16 c arg1 harg1 arg2 harg2 arg3 harg3 arg4 harg4 arg5 harg5 arg6 harg6 arg7 harg7 arg8 harg8 x0 x1 x2 x3 x4 x5 x6 x7 = RP x2 x4 x6 x3 x5 x7 x1 x0 5 := by
  unfold kernelRun0.sl.r_16
  rw [r_eq, r_1_eq, r_2_eq, r_3_eq, r_4_eq, r_5_eq, r_6_eq, r_13_eq, r_14_eq]
  exact pay20 x2 x4 x6 x3 x5 x7 x1 x0

theorem r_17_eq : kernelRun0.sl.r_17 c arg1 harg1 arg2 harg2 arg3 harg3 arg4 harg4 arg5 harg5 arg6 harg6 arg7 harg7 arg8 harg8 x0 x1 x2 x3 x4 x5 x6 x7 = RP x2 x4 x6 x3 x5 x7 x1 x0 6 := by
  unfold kernelRun0.sl.r_17
  rw [r_eq, r_1_eq, r_2_eq, r_3_eq, r_4_eq, r_5_eq, r_6_eq, r_13_eq, r_14_eq]
  exact pay22 x2 x4 x6 x3 x5 x7 x1 x0

theorem r_18_eq : kernelRun0.sl.r_18 c arg1 harg1 arg2 harg2 arg3 harg3 arg4 harg4 arg5 harg5 arg6 harg6 arg7 harg7 arg8 harg8 x0 x1 x2 x3 x4 x5 x6 x7 = RP x2 x4 x6 x3 x5 x7 x1 x0 7 := by
  unfold kernelRun0.sl.r_18
  rw [r_eq, r_1_eq, r_2_eq, r_3_eq, r_4_eq, r_5_eq, r_6_eq, r_13_eq, r_14_eq]
  exact pay24 x2 x4 x6 x3 x5 x7 x1 x0

theorem r_19_eq : kernelRun0.sl.r_19 c arg1 harg1 arg2 harg2 arg3 harg3 arg4 harg4 arg5 harg5 arg6 harg6 arg7 harg7 arg8 harg8 x0 x1 x2 x3 x4 x5 x6 x7 = RX x2 x4 x6 x3 x5 x7 x1 x0 8 := by
  unfold kernelRun0.sl.r_19
  rw [r_eq, r_1_eq, r_2_eq, r_3_eq, r_4_eq, r_5_eq, r_6_eq, r_13_eq, r_14_eq]
  exact pay25 x2 x4 x6 x3 x5 x7 x1 x0

theorem r_20_eq : kernelRun0.sl.r_20 c arg1 harg1 arg2 harg2 arg3 harg3 arg4 harg4 arg5 harg5 arg6 harg6 arg7 harg7 arg8 harg8 x0 x1 x2 x3 x4 x5 x6 x7 = RP x2 x4 x6 x3 x5 x7 x1 x0 8 := by
  unfold kernelRun0.sl.r_20
  rw [r_eq, r_1_eq, r_2_eq, r_3_eq, r_4_eq, r_5_eq, r_19_eq]
  exact pay26 x2 x4 x6 x3 x5 x7 x1 x0

theorem r_21_eq : kernelRun0.sl.r_21 c arg1 harg1 arg2 harg2 arg3 harg3 arg4 harg4 arg5 harg5 arg6 harg6 arg7 harg7 arg8 harg8 x0 x1 x2 x3 x4 x5 x6 x7 = RP x2 x4 x6 x3 x5 x7 x1 x0 9 := by
  unfold kernelRun0.sl.r_21
  rw [r_eq, r_1_eq, r_2_eq, r_3_eq, r_4_eq, r_5_eq, r_6_eq, r_19_eq]
  exact pay28 x2 x4 x6 x3 x5 x7 x1 x0

theorem r_22_eq : kernelRun0.sl.r_22 c arg1 harg1 arg2 harg2 arg3 harg3 arg4 harg4 arg5 harg5 arg6 harg6 arg7 harg7 arg8 harg8 x0 x1 x2 x3 x4 x5 x6 x7 = RP x2 x4 x6 x3 x5 x7 x1 x0 10 := by
  unfold kernelRun0.sl.r_22
  rw [r_eq, r_1_eq, r_2_eq, r_3_eq, r_4_eq, r_5_eq, r_6_eq, r_19_eq]
  exact pay30 x2 x4 x6 x3 x5 x7 x1 x0

theorem r_23_eq : kernelRun0.sl.r_23 c arg1 harg1 arg2 harg2 arg3 harg3 arg4 harg4 arg5 harg5 arg6 harg6 arg7 harg7 arg8 harg8 x0 x1 x2 x3 x4 x5 x6 x7 = RX x2 x4 x6 x3 x5 x7 x1 x0 11 := by
  unfold kernelRun0.sl.r_23
  rw [r_eq, r_1_eq, r_2_eq, r_3_eq, r_4_eq, r_5_eq, r_6_eq, r_19_eq]
  exact pay31 x2 x4 x6 x3 x5 x7 x1 x0

theorem r_24_eq : kernelRun0.sl.r_24 c arg1 harg1 arg2 harg2 arg3 harg3 arg4 harg4 arg5 harg5 arg6 harg6 arg7 harg7 arg8 harg8 x0 x1 x2 x3 x4 x5 x6 x7 = RH1 x2 x4 x6 x3 x5 x7 x1 x0 11 := by
  unfold kernelRun0.sl.r_24
  rw [r_eq, r_1_eq, r_2_eq, r_3_eq, r_4_eq, r_5_eq, r_6_eq, r_19_eq]
  exact pay32 x2 x4 x6 x3 x5 x7 x1 x0

theorem r_25_eq : kernelRun0.sl.r_25 c arg1 harg1 arg2 harg2 arg3 harg3 arg4 harg4 arg5 harg5 arg6 harg6 arg7 harg7 arg8 harg8 x0 x1 x2 x3 x4 x5 x6 x7 = RP x2 x4 x6 x3 x5 x7 x1 x0 11 := by
  unfold kernelRun0.sl.r_25
  rw [r_1_eq, r_2_eq, r_4_eq, r_5_eq, r_24_eq]
  exact pay33 x2 x4 x6 x3 x5 x7 x1 x0

theorem r_26_eq : kernelRun0.sl.r_26 c arg1 harg1 arg2 harg2 arg3 harg3 arg4 harg4 arg5 harg5 arg6 harg6 arg7 harg7 arg8 harg8 x0 x1 x2 x3 x4 x5 x6 x7 = RP x2 x4 x6 x3 x5 x7 x1 x0 12 := by
  unfold kernelRun0.sl.r_26
  rw [r_eq, r_1_eq, r_2_eq, r_3_eq, r_4_eq, r_5_eq, r_6_eq, r_23_eq, r_24_eq]
  exact pay35 x2 x4 x6 x3 x5 x7 x1 x0

theorem r_27_eq : kernelRun0.sl.r_27 c arg1 harg1 arg2 harg2 arg3 harg3 arg4 harg4 arg5 harg5 arg6 harg6 arg7 harg7 arg8 harg8 x0 x1 x2 x3 x4 x5 x6 x7 = RP x2 x4 x6 x3 x5 x7 x1 x0 13 := by
  unfold kernelRun0.sl.r_27
  rw [r_eq, r_1_eq, r_2_eq, r_3_eq, r_4_eq, r_5_eq, r_6_eq, r_23_eq, r_24_eq]
  exact pay37 x2 x4 x6 x3 x5 x7 x1 x0

theorem r_28_eq : kernelRun0.sl.r_28 c arg1 harg1 arg2 harg2 arg3 harg3 arg4 harg4 arg5 harg5 arg6 harg6 arg7 harg7 arg8 harg8 x0 x1 x2 x3 x4 x5 x6 x7 = RX x2 x4 x6 x3 x5 x7 x1 x0 14 := by
  unfold kernelRun0.sl.r_28
  rw [r_eq, r_1_eq, r_2_eq, r_3_eq, r_4_eq, r_5_eq, r_6_eq, r_23_eq, r_24_eq]
  exact pay38 x2 x4 x6 x3 x5 x7 x1 x0

theorem r_29_eq : kernelRun0.sl.r_29 c arg1 harg1 arg2 harg2 arg3 harg3 arg4 harg4 arg5 harg5 arg6 harg6 arg7 harg7 arg8 harg8 x0 x1 x2 x3 x4 x5 x6 x7 = RH2 x2 x4 x6 x3 x5 x7 x1 x0 14 := by
  unfold kernelRun0.sl.r_29
  rw [r_eq, r_1_eq, r_2_eq, r_3_eq, r_4_eq, r_5_eq, r_6_eq, r_23_eq, r_24_eq]
  exact pay39 x2 x4 x6 x3 x5 x7 x1 x0

theorem r_30_eq : kernelRun0.sl.r_30 c arg1 harg1 arg2 harg2 arg3 harg3 arg4 harg4 arg5 harg5 arg6 harg6 arg7 harg7 arg8 harg8 x0 x1 x2 x3 x4 x5 x6 x7 = RP x2 x4 x6 x3 x5 x7 x1 x0 14 := by
  unfold kernelRun0.sl.r_30
  rw [r_2_eq, r_5_eq, r_29_eq]
  exact pay40 x2 x4 x6 x3 x5 x7 x1 x0

theorem r_31_eq : kernelRun0.sl.r_31 c arg1 harg1 arg2 harg2 arg3 harg3 arg4 harg4 arg5 harg5 arg6 harg6 arg7 harg7 arg8 harg8 x0 x1 x2 x3 x4 x5 x6 x7 = RP x2 x4 x6 x3 x5 x7 x1 x0 15 := by
  unfold kernelRun0.sl.r_31
  rw [r_eq, r_1_eq, r_2_eq, r_3_eq, r_4_eq, r_5_eq, r_6_eq, r_28_eq, r_29_eq]
  exact pay42 x2 x4 x6 x3 x5 x7 x1 x0

theorem r_32_eq : kernelRun0.sl.r_32 c arg1 harg1 arg2 harg2 arg3 harg3 arg4 harg4 arg5 harg5 arg6 harg6 arg7 harg7 arg8 harg8 x0 x1 x2 x3 x4 x5 x6 x7 = RP x2 x4 x6 x3 x5 x7 x1 x0 16 := by
  unfold kernelRun0.sl.r_32
  rw [r_eq, r_1_eq, r_2_eq, r_3_eq, r_4_eq, r_5_eq, r_6_eq, r_28_eq, r_29_eq]
  exact pay44 x2 x4 x6 x3 x5 x7 x1 x0

theorem r_33_eq : kernelRun0.sl.r_33 c arg1 harg1 arg2 harg2 arg3 harg3 arg4 harg4 arg5 harg5 arg6 harg6 arg7 harg7 arg8 harg8 x0 x1 x2 x3 x4 x5 x6 x7 = RP x2 x4 x6 x3 x5 x7 x1 x0 17 := by
  unfold kernelRun0.sl.r_33
  rw [r_eq, r_1_eq, r_2_eq, r_3_eq, r_4_eq, r_5_eq, r_6_eq, r_28_eq, r_29_eq]
  exact pay46 x2 x4 x6 x3 x5 x7 x1 x0

theorem r_34_eq : kernelRun0.sl.r_34 c arg1 harg1 arg2 harg2 arg3 harg3 arg4 harg4 arg5 harg5 arg6 harg6 arg7 harg7 arg8 harg8 x0 x1 x2 x3 x4 x5 x6 x7 = RX x2 x4 x6 x3 x5 x7 x1 x0 18 := by
  unfold kernelRun0.sl.r_34
  rw [r_eq, r_1_eq, r_2_eq, r_3_eq, r_4_eq, r_5_eq, r_6_eq, r_28_eq, r_29_eq]
  exact pay47 x2 x4 x6 x3 x5 x7 x1 x0

theorem r_35_eq : kernelRun0.sl.r_35 c arg1 harg1 arg2 harg2 arg3 harg3 arg4 harg4 arg5 harg5 arg6 harg6 arg7 harg7 arg8 harg8 x0 x1 x2 x3 x4 x5 x6 x7 = RP x2 x4 x6 x3 x5 x7 x1 x0 18 := by
  unfold kernelRun0.sl.r_35
  rw [r_eq, r_1_eq, r_2_eq, r_3_eq, r_4_eq, r_5_eq, r_34_eq]
  exact pay48 x2 x4 x6 x3 x5 x7 x1 x0

theorem r_36_eq : kernelRun0.sl.r_36 c arg1 harg1 arg2 harg2 arg3 harg3 arg4 harg4 arg5 harg5 arg6 harg6 arg7 harg7 arg8 harg8 x0 x1 x2 x3 x4 x5 x6 x7 = RP x2 x4 x6 x3 x5 x7 x1 x0 19 := by
  unfold kernelRun0.sl.r_36
  rw [r_eq, r_1_eq, r_2_eq, r_3_eq, r_4_eq, r_5_eq, r_6_eq, r_34_eq]
  exact pay50 x2 x4 x6 x3 x5 x7 x1 x0

theorem r_37_eq : kernelRun0.sl.r_37 c arg1 harg1 arg2 harg2 arg3 harg3 arg4 harg4 arg5 harg5 arg6 harg6 arg7 harg7 arg8 harg8 x0 x1 x2 x3 x4 x5 x6 x7 = RP x2 x4 x6 x3 x5 x7 x1 x0 20 := by
  unfold kernelRun0.sl.r_37
  rw [r_eq, r_1_eq, r_2_eq, r_3_eq, r_4_eq, r_5_eq, r_6_eq, r_34_eq]
  exact pay52 x2 x4 x6 x3 x5 x7 x1 x0

theorem r_38_eq : kernelRun0.sl.r_38 c arg1 harg1 arg2 harg2 arg3 harg3 arg4 harg4 arg5 harg5 arg6 harg6 arg7 harg7 arg8 harg8 x0 x1 x2 x3 x4 x5 x6 x7 = RX x2 x4 x6 x3 x5 x7 x1 x0 21 := by
  unfold kernelRun0.sl.r_38
  rw [r_eq, r_1_eq, r_2_eq, r_3_eq, r_4_eq, r_5_eq, r_6_eq, r_34_eq]
  exact pay53 x2 x4 x6 x3 x5 x7 x1 x0

theorem r_39_eq : kernelRun0.sl.r_39 c arg1 harg1 arg2 harg2 arg3 harg3 arg4 harg4 arg5 harg5 arg6 harg6 arg7 harg7 arg8 harg8 x0 x1 x2 x3 x4 x5 x6 x7 = RH1 x2 x4 x6 x3 x5 x7 x1 x0 21 := by
  unfold kernelRun0.sl.r_39
  rw [r_eq, r_1_eq, r_2_eq, r_3_eq, r_4_eq, r_5_eq, r_6_eq, r_34_eq]
  exact pay54 x2 x4 x6 x3 x5 x7 x1 x0

theorem r_40_eq : kernelRun0.sl.r_40 c arg1 harg1 arg2 harg2 arg3 harg3 arg4 harg4 arg5 harg5 arg6 harg6 arg7 harg7 arg8 harg8 x0 x1 x2 x3 x4 x5 x6 x7 = RP x2 x4 x6 x3 x5 x7 x1 x0 21 := by
  unfold kernelRun0.sl.r_40
  rw [r_1_eq, r_2_eq, r_4_eq, r_5_eq, r_39_eq]
  exact pay55 x2 x4 x6 x3 x5 x7 x1 x0

theorem r_41_eq : kernelRun0.sl.r_41 c arg1 harg1 arg2 harg2 arg3 harg3 arg4 harg4 arg5 harg5 arg6 harg6 arg7 harg7 arg8 harg8 x0 x1 x2 x3 x4 x5 x6 x7 = RP x2 x4 x6 x3 x5 x7 x1 x0 22 := by
  unfold kernelRun0.sl.r_41
  rw [r_eq, r_1_eq, r_2_eq, r_3_eq, r_4_eq, r_5_eq, r_6_eq, r_38_eq, r_39_eq]
  exact pay57 x2 x4 x6 x3 x5 x7 x1 x0

theorem r_42_eq : kernelRun0.sl.r_42 c arg1 harg1 arg2 harg2 arg3 harg3 arg4 harg4 arg5 harg5 arg6 harg6 arg7 harg7 arg8 harg8 x0 x1 x2 x3 x4 x5 x6 x7 = RP x2 x4 x6 x3 x5 x7 x1 x0 23 := by
  unfold kernelRun0.sl.r_42
  rw [r_eq, r_1_eq, r_2_eq, r_3_eq, r_4_eq, r_5_eq, r_6_eq, r_38_eq, r_39_eq]
  exact pay59 x2 x4 x6 x3 x5 x7 x1 x0

theorem r_43_eq : kernelRun0.sl.r_43 c arg1 harg1 arg2 harg2 arg3 harg3 arg4 harg4 arg5 harg5 arg6 harg6 arg7 harg7 arg8 harg8 x0 x1 x2 x3 x4 x5 x6 x7 = RX x2 x4 x6 x3 x5 x7 x1 x0 24 := by
  unfold kernelRun0.sl.r_43
  rw [r_eq, r_1_eq, r_2_eq, r_3_eq, r_4_eq, r_5_eq, r_6_eq, r_38_eq, r_39_eq]
  exact pay60 x2 x4 x6 x3 x5 x7 x1 x0

theorem r_44_eq : kernelRun0.sl.r_44 c arg1 harg1 arg2 harg2 arg3 harg3 arg4 harg4 arg5 harg5 arg6 harg6 arg7 harg7 arg8 harg8 x0 x1 x2 x3 x4 x5 x6 x7 = RH2 x2 x4 x6 x3 x5 x7 x1 x0 24 := by
  unfold kernelRun0.sl.r_44
  rw [r_eq, r_1_eq, r_2_eq, r_3_eq, r_4_eq, r_5_eq, r_6_eq, r_38_eq, r_39_eq]
  exact pay61 x2 x4 x6 x3 x5 x7 x1 x0

theorem r_45_eq : kernelRun0.sl.r_45 c arg1 harg1 arg2 harg2 arg3 harg3 arg4 harg4 arg5 harg5 arg6 harg6 arg7 harg7 arg8 harg8 x0 x1 x2 x3 x4 x5 x6 x7 = RP x2 x4 x6 x3 x5 x7 x1 x0 24 := by
  unfold kernelRun0.sl.r_45
  rw [r_2_eq, r_5_eq, r_44_eq]
  exact pay62 x2 x4 x6 x3 x5 x7 x1 x0

theorem r_46_eq : kernelRun0.sl.r_46 c arg1 harg1 arg2 harg2 arg3 harg3 arg4 harg4 arg5 harg5 arg6 harg6 arg7 harg7 arg8 harg8 x0 x1 x2 x3 x4 x5 x6 x7 = RP x2 x4 x6 x3 x5 x7 x1 x0 25 := by
  unfold kernelRun0.sl.r_46
  rw [r_eq, r_1_eq, r_2_eq, r_3_eq, r_4_eq, r_5_eq, r_6_eq, r_43_eq, r_44_eq]
  exact pay64 x2 x4 x6 x3 x5 x7 x1 x0

theorem r_47_eq : kernelRun0.sl.r_47 c arg1 harg1 arg2 harg2 arg3 harg3 arg4 harg4 arg5 harg5 arg6 harg6 arg7 harg7 arg8 harg8 x0 x1 x2 x3 x4 x5 x6 x7 = RP x2 x4 x6 x3 x5 x7 x1 x0 26 := by
  unfold kernelRun0.sl.r_47
  rw [r_eq, r_1_eq, r_2_eq, r_3_eq, r_4_eq, r_5_eq, r_6_eq, r_43_eq, r_44_eq]
  exact pay66 x2 x4 x6 x3 x5 x7 x1 x0

theorem r_48_eq : kernelRun0.sl.r_48 c arg1 harg1 arg2 harg2 arg3 harg3 arg4 harg4 arg5 harg5 arg6 harg6 arg7 harg7 arg8 harg8 x0 x1 x2 x3 x4 x5 x6 x7 = RP x2 x4 x6 x3 x5 x7 x1 x0 27 := by
  unfold kernelRun0.sl.r_48
  rw [r_eq, r_1_eq, r_2_eq, r_3_eq, r_4_eq, r_5_eq, r_6_eq, r_43_eq, r_44_eq]
  exact pay68 x2 x4 x6 x3 x5 x7 x1 x0

theorem r_49_eq : kernelRun0.sl.r_49 c arg1 harg1 arg2 harg2 arg3 harg3 arg4 harg4 arg5 harg5 arg6 harg6 arg7 harg7 arg8 harg8 x0 x1 x2 x3 x4 x5 x6 x7 = RX x2 x4 x6 x3 x5 x7 x1 x0 28 := by
  unfold kernelRun0.sl.r_49
  rw [r_eq, r_1_eq, r_2_eq, r_3_eq, r_4_eq, r_5_eq, r_6_eq, r_43_eq, r_44_eq]
  exact pay69 x2 x4 x6 x3 x5 x7 x1 x0

theorem r_50_eq : kernelRun0.sl.r_50 c arg1 harg1 arg2 harg2 arg3 harg3 arg4 harg4 arg5 harg5 arg6 harg6 arg7 harg7 arg8 harg8 x0 x1 x2 x3 x4 x5 x6 x7 = RP x2 x4 x6 x3 x5 x7 x1 x0 28 := by
  unfold kernelRun0.sl.r_50
  rw [r_eq, r_1_eq, r_2_eq, r_3_eq, r_4_eq, r_5_eq, r_49_eq]
  exact pay70 x2 x4 x6 x3 x5 x7 x1 x0

theorem r_51_eq : kernelRun0.sl.r_51 c arg1 harg1 arg2 harg2 arg3 harg3 arg4 harg4 arg5 harg5 arg6 harg6 arg7 harg7 arg8 harg8 x0 x1 x2 x3 x4 x5 x6 x7 = RP x2 x4 x6 x3 x5 x7 x1 x0 29 := by
  unfold kernelRun0.sl.r_51
  rw [r_eq, r_1_eq, r_2_eq, r_3_eq, r_4_eq, r_5_eq, r_6_eq, r_49_eq]
  exact pay72 x2 x4 x6 x3 x5 x7 x1 x0

theorem r_52_eq : kernelRun0.sl.r_52 c arg1 harg1 arg2 harg2 arg3 harg3 arg4 harg4 arg5 harg5 arg6 harg6 arg7 harg7 arg8 harg8 x0 x1 x2 x3 x4 x5 x6 x7 = RP x2 x4 x6 x3 x5 x7 x1 x0 30 := by
  unfold kernelRun0.sl.r_52
  rw [r_eq, r_1_eq, r_2_eq, r_3_eq, r_4_eq, r_5_eq, r_6_eq, r_49_eq]
  exact pay74 x2 x4 x6 x3 x5 x7 x1 x0

theorem r_53_eq : kernelRun0.sl.r_53 c arg1 harg1 arg2 harg2 arg3 harg3 arg4 harg4 arg5 harg5 arg6 harg6 arg7 harg7 arg8 harg8 x0 x1 x2 x3 x4 x5 x6 x7 = RH1 x2 x4 x6 x3 x5 x7 x1 x0 31 := by
  unfold kernelRun0.sl.r_53
  rw [r_eq, r_1_eq, r_2_eq, r_3_eq, r_4_eq, r_5_eq, r_6_eq, r_49_eq]
  exact pay75 x2 x4 x6 x3 x5 x7 x1 x0

theorem v430_eq : kernelRun0.sl.v430 c arg1 harg1 arg2 harg2 arg3 harg3 arg4 harg4 arg5 harg5 arg6 harg6 arg7 harg7 arg8 harg8 x0 x1 x2 x3 x4 x5 x6 x7 = RP x2 x4 x6 x3 x5 x7 x1 x0 31 := by
  unfold kernelRun0.sl.v430
  rw [r_1_eq, r_2_eq, r_4_eq, r_5_eq, r_53_eq]
  exact pay1 x2 x4 x6 x3 x5 x7 x1 x0

/-! ## The store -/

/-- The run's one piece: the whole output block, holding the 32 predictions side by side. -/
theorem run_piece (i : grid0.Coords) (arg9 : Memref sig .tc .vmem S512x4096 .f32) (harg9 : arg9.IsWhole) :
    (kernelRun0 c i arg1 harg1 arg2 harg2 arg3 harg3 arg4 harg4 arg5 harg5 arg6 harg6 arg7 harg7 arg8 harg8 arg9 harg9 x0 x1 x2 x3 x4 x5 x6 x7).1
      = [⟨Rect.unit (s := S512x4096) ![0, 0] S512x4096.size inb_S512x4096_S512x4096_0_0, RCat x2 x4 x6 x3 x5 x7 x1 x0⟩] := by
  unfold kernelRun0
  dsimp only
  rw [r_7_eq, r_10_eq, r_11_eq, r_12_eq, r_15_eq, r_16_eq, r_17_eq, r_18_eq, r_20_eq, r_21_eq, r_22_eq, r_25_eq, r_26_eq, r_27_eq, r_30_eq, r_31_eq, r_32_eq, r_33_eq, r_35_eq, r_36_eq, r_37_eq, r_40_eq, r_41_eq, r_42_eq, r_45_eq, r_46_eq, r_47_eq, r_48_eq, r_50_eq, r_51_eq, r_52_eq, v430_eq]
  rfl

end Cert.ReferenceIdeal.RefValue

end
-- ==== Proof.RSem.lean ====
/-
  The recursion on whole arrays, read one entry at a time over the extended reals, is the row-by-row rollout.

  At the ideal values a product into a zero accumulator is the plain sum of products, a bias row repeated on every
  row reads the bias entry of the column, and the block of 128 columns taken for step t reads column 128·t + j. So
  row b of the state array follows the rollout's recurrence for that row, by induction on the step, and the
  prediction array at step t holds the rollout's prediction for each row. Nothing here needs the entries finite.
-/
import proofs.«146222_g2000209494350815_pallasbulk_913_23_alg».proof.Proof.RBlocks
import proofs.«146222_g2000209494350815_pallasbulk_913_23_alg».proof.Proof.RolloutSpec
import proofs.«146222_g2000209494350815_pallasbulk_913_23_alg».proof.Proof.LibPlainDot
import proofs.«146222_g2000209494350815_pallasbulk_913_23_alg».proof.Proof.LibRowLayout
import Idealize.ShloMosaic.Lib.Pipeline.Value

noncomputable section

open scoped BigOperators

namespace Cert.ReferenceIdeal.RefValue

open Idealize.ShloMosaic Idealize.ShloMosaic.ValueIdx Idealize.SL.Sem Cert.ReferenceIdeal Cert.ReferenceIdeal.Gen

/-! ## The three products are plain matrix products -/

theorem plain1 : Cert.LibPlainDot.Plain (A := 512) (K := 128) (B := 256) dot_S512x128_S128x256_S512x256_1_0_0_1_n_n :=
  ⟨rfl, rfl, rfl, rfl, rfl, rfl⟩
theorem plain2 : Cert.LibPlainDot.Plain (A := 512) (K := 256) (B := 256) dot_S512x256_S256x256_S512x256_1_0_0_1_n_n :=
  ⟨rfl, rfl, rfl, rfl, rfl, rfl⟩
theorem plain3 : Cert.LibPlainDot.Plain (A := 512) (K := 256) (B := 128) dot_S512x256_S256x128_S512x128_1_0_0_1_n_n :=
  ⟨rfl, rfl, rfl, rfl, rfl, rfl⟩

/-! ## The layers at an entry -/

theorem rH1_apply (w1 : FVec Ideal S128x256 .f32) (c1 : FVec Ideal S512x256 .f32) (x : FVec Ideal S512x128 .f32)
    (b : Fin 512) (k : Fin 256) :
    rH1 (F := Ideal) w1 c1 x (ix2 b k) = max ((∑ κ : Fin 128, x (ix2 b κ) * w1 (ix2 κ k)) + c1 (ix2 b k)) 0 := by
  unfold rH1
  rw [maximumf_apply, addf_apply, broadcast_apply]
  exact congrArg₂ max (congrArg (· + c1 (ix2 b k)) (plain1.matmul_zero_apply none x w1 b k)) Ideal.ofBits_zero_f32

theorem rH2_apply (w2 : FVec Ideal S256x256 .f32) (c2 : FVec Ideal S512x256 .f32) (h : FVec Ideal S512x256 .f32)
    (b : Fin 512) (k : Fin 256) :
    rH2 (F := Ideal) w2 c2 h (ix2 b k) = max ((∑ κ : Fin 256, h (ix2 b κ) * w2 (ix2 κ k)) + c2 (ix2 b k)) 0 := by
  unfold rH2
  rw [maximumf_apply, addf_apply, broadcast_apply]
  exact congrArg₂ max (congrArg (· + c2 (ix2 b k)) (plain2.matmul_zero_apply none h w2 b k)) Ideal.ofBits_zero_f32

theorem rF_apply (w3 : FVec Ideal S256x128 .f32) (c3 : FVec Ideal S512x128 .f32) (h : FVec Ideal S512x256 .f32)
    (b : Fin 512) (j : Fin 128) :
    rF (F := Ideal) w3 c3 h (ix2 b j) = (∑ κ : Fin 256, h (ix2 b κ) * w3 (ix2 κ j)) + c3 (ix2 b j) := by
  unfold rF
  rw [addf_apply]
  exact congrArg (· + c3 (ix2 b j)) (plain3.matmul_zero_apply none h w3 b j)

/-! ## The repeated bias rows, the scaled noise and the start at an entry -/

theorem bias1_apply (v : FVec Ideal S1x256 .f32) (b : Fin 512) (k : Fin 256) : k0_pay3 (F := Ideal) v (ix2 b k) = v (ix2 0 k) := by
  unfold k0_pay3
  rw [shapeCast_self]
  exact Cert.LibRowLayout.broadcastTo_1b_ab_apply (a := 512) (b := 256) v _ b k

theorem bias2_apply (v : FVec Ideal S1x256 .f32) (b : Fin 512) (k : Fin 256) : k0_pay4 (F := Ideal) v (ix2 b k) = v (ix2 0 k) := by
  unfold k0_pay4
  rw [shapeCast_self]
  exact Cert.LibRowLayout.broadcastTo_1b_ab_apply (a := 512) (b := 256) v _ b k

theorem bias3_apply (v : FVec Ideal S1x128 .f32) (b : Fin 512) (j : Fin 128) : k0_pay5 (F := Ideal) v (ix2 b j) = v (ix2 0 j) := by
  unfold k0_pay5
  rw [shapeCast_self]
  exact Cert.LibRowLayout.broadcastTo_1b_ab_apply (a := 512) (b := 128) v _ b j

theorem scaled_apply (n : FVec Ideal S512x4096 .f32) (i : S512x4096.Idx) : k0_pay6 (F := Ideal) n i = n i * Cert.Rollout.sigma := by
  unfold k0_pay6
  rw [shapeCast_self]
  rfl

theorem start_eq (x : FVec Ideal S512x128 .f32) : k0_pay7 (F := Ideal) x = x := by
  unfold k0_pay7
  rw [shapeCast_self]

/-- Step `t`'s block of columns at `(b, j)` is column `128·t + j` of row `b`. -/
theorem nsl_apply (n : FVec Ideal S512x4096 .f32) (t : Fin 32) (b : Fin 512) (j : Fin 128) :
    nsl (F := Ideal) n t.val (ix2 b j) = n (ix2 b (⟨128 * t.val + j.val, by omega⟩ : Fin 4096)) := by
  unfold nsl
  refine extractStridedSlice_apply _ n _ (ix2 b j) (ix2 b (⟨128 * t.val + j.val, by omega⟩ : Fin 4096)) fun a => ?_
  match a with
  | ⟨0, _⟩ => show b.val = 0 + b.val; omega
  | ⟨1, _⟩ => show 128 * t.val + j.val = 128 * (t.val % 32) + j.val; rw [Nat.mod_eq_of_lt t.isLt]

/-! ## One row of the network -/

section Rows

variable (w1 : FVec Ideal S128x256 .f32) (w2 : FVec Ideal S256x256 .f32) (w3 : FVec Ideal S256x128 .f32)
  (b1 : FVec Ideal S1x256 .f32) (b2 : FVec Ideal S1x256 .f32) (b3 : FVec Ideal S1x128 .f32)
  (ns : FVec Ideal S512x4096 .f32) (x0 : FVec Ideal S512x128 .f32)

theorem rH1_row (X : FVec Ideal S512x128 .f32) (v : Fin 128 → EReal) (b : Fin 512) (hX : ∀ j, X (ix2 b j) = v j) (k : Fin 256) :
    rH1 (F := Ideal) w1 (k0_pay3 b1) X (ix2 b k) = Cert.Rollout.hid1 w1 b1 v k := by
  rw [rH1_apply, bias1_apply]
  unfold Cert.Rollout.hid1
  simp only [hX]

theorem rH2_row (H : FVec Ideal S512x256 .f32) (h : Fin 256 → EReal) (b : Fin 512) (hH : ∀ k, H (ix2 b k) = h k) (k : Fin 256) :
    rH2 (F := Ideal) w2 (k0_pay4 b2) H (ix2 b k) = Cert.Rollout.hid2 w2 b2 h k := by
  rw [rH2_apply, bias2_apply]
  unfold Cert.Rollout.hid2
  simp only [hH]

theorem rF_row (H : FVec Ideal S512x256 .f32) (h : Fin 256 → EReal) (b : Fin 512) (hH : ∀ k, H (ix2 b k) = h k) (j : Fin 128) :
    rF (F := Ideal) w3 (k0_pay5 b3) H (ix2 b j) = Cert.Rollout.outp w3 b3 h j := by
  rw [rF_apply, bias3_apply]
  unfold Cert.Rollout.outp
  simp only [hH]

/-- The network on all rows, at row `b`, is the network on that row. -/
theorem rP_row (X : FVec Ideal S512x128 .f32) (v : Fin 128 → EReal) (b : Fin 512) (hX : ∀ j, X (ix2 b j) = v j) (j : Fin 128) :
    rP (F := Ideal) w1 w2 w3 b1 b2 b3 X (ix2 b j) = Cert.Rollout.fnet w1 b1 w2 b2 w3 b3 v j := by
  unfold rP Cert.Rollout.fnet
  exact rF_row w3 b3 _ _ b (fun k => rH2_row w2 b2 _ _ b (fun k' => rH1_row w1 b1 X v b hX k') k) j

/-! ## The recursion, row by row -/

variable (xs : Fin 512 → Fin 128 → EReal) (nz : Fin 512 → ℕ → Fin 128 → EReal)

/-- Row `b` of the state before step `t` is the rollout's state of that row, when the start array's row `b` is the
    row's start and the noise array's columns `128·t …` of row `b` are the row's noise at step `t`. -/
theorem RX_apply (hx : ∀ b j, x0 (ix2 b j) = xs b j)
    (hn : ∀ (b : Fin 512) (t : Fin 32) (j : Fin 128), ns (ix2 b (⟨128 * t.val + j.val, by omega⟩ : Fin 4096)) = nz b t.val j)
    (t : ℕ) (ht : t ≤ 32) (b : Fin 512) (j : Fin 128) :
    RX (F := Ideal) w1 w2 w3 b1 b2 b3 ns x0 t (ix2 b j) = Cert.Rollout.state w1 b1 w2 b2 w3 b3 (xs b) (nz b) t j := by
  induction t generalizing j with
  | zero =>
    rw [RX_zero, start_eq]
    exact hx b j
  | succ t ih =>
    have ht' : t < 32 := by omega
    rw [RX_succ]
    unfold rNext
    rw [addf_apply, addf_apply, RP_eq,
      rP_row w1 w2 w3 b1 b2 b3 _ (Cert.Rollout.state w1 b1 w2 b2 w3 b3 (xs b) (nz b) t) b (fun j' => ih (by omega) j') j,
      ih (by omega) j, nsl_apply _ ⟨t, ht'⟩ b j, scaled_apply, hn b ⟨t, ht'⟩ j]
    rfl

/-- Row `b` of the prediction array at step `t` is the rollout's prediction for that row. -/
theorem RP_apply (hx : ∀ b j, x0 (ix2 b j) = xs b j)
    (hn : ∀ (b : Fin 512) (t : Fin 32) (j : Fin 128), ns (ix2 b (⟨128 * t.val + j.val, by omega⟩ : Fin 4096)) = nz b t.val j)
    (t : Fin 32) (b : Fin 512) (j : Fin 128) :
    RP (F := Ideal) w1 w2 w3 b1 b2 b3 ns x0 t.val (ix2 b j) = Cert.Rollout.pred w1 b1 w2 b2 w3 b3 (xs b) (nz b) t.val j := by
  rw [RP_eq]
  unfold Cert.Rollout.pred
  exact rP_row w1 w2 w3 b1 b2 b3 _ _ b (fun j' => RX_apply w1 w2 w3 b1 b2 b3 ns x0 xs nz hx hn t.val (by omega) b j') j

/-! ## The 32 predictions side by side, at an entry -/

/-- Column `128·t + j` of the stored array is column `j` of the prediction at step `t`. -/
theorem RCat_apply (t : Fin 32) (b : Fin 512) (j : Fin 128) :
    RCat (F := Ideal) w1 w2 w3 b1 b2 b3 ns x0 (ix2 b (⟨128 * t.val + j.val, by omega⟩ : Fin 4096))
      = RP (F := Ideal) w1 w2 w3 b1 b2 b3 ns x0 t.val (ix2 b j) := by
  have e : RCat (F := Ideal) w1 w2 w3 b1 b2 b3 ns x0
      = concatenate S512x4096 1 (List.ofFn fun n : Fin 32 =>
          (⟨S512x128, RP (F := Ideal) w1 w2 w3 b1 b2 b3 ns x0 n.val⟩ : (s : Shape) × (s.Idx → Ideal .f32)))
          (by exact concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x4096_d1) := rfl
  rw [e]
  refine concatenate_ofFn_apply (t := S512x4096) (s₁ := S512x128) (1 : Fin 2)
    (fun n : Fin 32 => RP (F := Ideal) w1 w2 w3 b1 b2 b3 ns x0 n.val) _ rfl 128 rfl _ t ?_ (ix2 b j) ?_ fun a ha => ?_
  · show (128 * t.val + j.val) / 128 = t.val
    have := j.isLt; omega
  · show j.val = (128 * t.val + j.val) % 128
    have := j.isLt; omega
  · match a with
    | ⟨0, _⟩ => rfl
    | ⟨1, _⟩ => exact absurd rfl ha

end Rows

end Cert.ReferenceIdeal.RefValue

end
-- ==== Proof.RValue.lean ====
/-
  The reference program's result is the rollout.

  Around its one region the program slices x[:, 0, :] and flattens it to the [512, 128] start, flattens the noise
  [512, 32, 128] to [512, 4096] (so that step t's noise sits in columns 128·t … 128·t + 127), and afterwards unflattens
  the region's [512, 4096] output to [512, 32, 128]. The region's grid has one point and every window's block is the
  whole array, so each input block is the array as the region finds it and the output array ends as the one block the
  body wrote. With the body's block the 32 predictions of the array-level recursion side by side, entry (b, t, j) of
  the result is column 128·t + j of row b of that block: the recursion's prediction at step t, row b, feature j, which
  is the rollout's.

  The statement is made for ANY proof data of the region whose arrays are the region-entry contents and whose output
  buffer after the body is that block, and any run to the frame post over them; nothing here looks inside the run.
-/
import proofs.«146222_g2000209494350815_pallasbulk_913_23_alg».proof.Proof.Gen.ReferenceIdeal.Launch
import proofs.«146222_g2000209494350815_pallasbulk_913_23_alg».proof.Proof.Gen.ReferenceIdeal.Points
import proofs.«146222_g2000209494350815_pallasbulk_913_23_alg».proof.Proof.RSem
import Idealize.ShloMosaic.Lib.Pipeline.FrameBody
import Idealize.ShloMosaic.Lib.Pipeline.FrameSuffix
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen Idealize.ShloMosaic.ValueIdx

/-! ## The arrays as the region finds them -/

section Entry

variable {F : FTy → Type} [FloatOps F]
variable (m : (ℓ : Loc nD τ sig) → Buf (Elt F) ℓ)

/-- A core's buffer contents when the region is entered: after the host operations before it. -/
abbrev V0 (c : Dev nD) : Valuation τ sig (Elt F) := StableHlo.after (List.flatten [hostOps0]) (fun b => m (c, b))
/-- The same read at one buffer. -/
abbrev V (c : Dev nD) (b : Ref sig .tc) : Buf (Elt F) ((c : Thread nD τ).loc b) := V0 m c (Proc.devRef .tc b)

/-- A window's block at a grid point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The start array: x[:, 0, :] flattened to [512, 128]. -/
theorem V_v1 (c : Dev nD) : (V m c main_v1 : S512x128.Idx → Elt F .f32)
    = shapeCast S512x128 (extractStridedSlice S512x1x128 ![0, 0, 0] (m ((c : Thread nD τ).loc main_arg0) : S512x33x128.Idx → Elt F .f32) slices_S512x33x128_S512x1x128_0_0_0) shapeCasts_S512x1x128_S512x128 := by
  show StableHlo.after hostOps0 (fun b => m (c, b)) (Proc.devRef .tc main_v1) = _
  after_results
  rfl

/-- The noise array flattened to [512, 4096]. -/
theorem V_v2 (c : Dev nD) : (V m c main_v2 : S512x4096.Idx → Elt F .f32)
    = shapeCast S512x4096 (m ((c : Thread nD τ).loc main_arg7) : S512x32x128.Idx → Elt F .f32) shapeCasts_S512x32x128_S512x4096 := by
  show StableHlo.after hostOps0 (fun b => m (c, b)) (Proc.devRef .tc main_v2) = _
  after_results
  rfl

-- no host operation before the region writes an argument
theorem V_arg0 (c : Dev nD) : V m c main_arg0 = m ((c : Thread nD τ).loc main_arg0) := by
  show StableHlo.after hostOps0 (fun b => m (c, b)) (Proc.devRef .tc main_arg0) = _
  after_results
theorem V_arg1 (c : Dev nD) : V m c main_arg1 = m ((c : Thread nD τ).loc main_arg1) := by
  show StableHlo.after hostOps0 (fun b => m (c, b)) (Proc.devRef .tc main_arg1) = _
  after_results
theorem V_arg2 (c : Dev nD) : V m c main_arg2 = m ((c : Thread nD τ).loc main_arg2) := by
  show StableHlo.after hostOps0 (fun b => m (c, b)) (Proc.devRef .tc main_arg2) = _
  after_results
theorem V_arg3 (c : Dev nD) : V m c main_arg3 = m ((c : Thread nD τ).loc main_arg3) := by
  show StableHlo.after hostOps0 (fun b => m (c, b)) (Proc.devRef .tc main_arg3) = _
  after_results
theorem V_arg4 (c : Dev nD) : V m c main_arg4 = m ((c : Thread nD τ).loc main_arg4) := by
  show StableHlo.after hostOps0 (fun b => m (c, b)) (Proc.devRef .tc main_arg4) = _
  after_results
theorem V_arg5 (c : Dev nD) : V m c main_arg5 = m ((c : Thread nD τ).loc main_arg5) := by
  show StableHlo.after hostOps0 (fun b => m (c, b)) (Proc.devRef .tc main_arg5) = _
  after_results
theorem V_arg6 (c : Dev nD) : V m c main_arg6 = m ((c : Thread nD τ).loc main_arg6) := by
  show StableHlo.after hostOps0 (fun b => m (c, b)) (Proc.devRef .tc main_arg6) = _
  after_results
theorem V_arg7 (c : Dev nD) : V m c main_arg7 = m ((c : Thread nD τ).loc main_arg7) := by
  show StableHlo.after hostOps0 (fun b => m (c, b)) (Proc.devRef .tc main_arg7) = _
  after_results

-- the grid has one point and every block is the whole array: a block is the array
theorem iblk0 (c : Dev nD) (t : Fin cfg0.N) : (iblk m c 0 t : Vec F S512x128 .f32) = V m c main_v1 := by
  obtain rfl := fin_N0 t
  unfold iblk
  have hz' : (fun a => win0_0.index t0_0 a * main_v1.ty.shape.size a) = fun _ => 0 := funext fun a => by fin_cases a <;> decide
  exact Memref.read_access_unit_zero (Elt F) main_v1 hz' (fun a => by rw [congrFun hz' a]; simp) (V m c main_v1)
theorem iblk1 (c : Dev nD) (t : Fin cfg0.N) : (iblk m c 1 t : Vec F S512x4096 .f32) = V m c main_v2 := by
  obtain rfl := fin_N0 t
  unfold iblk
  have hz' : (fun a => win0_1.index t0_0 a * main_v2.ty.shape.size a) = fun _ => 0 := funext fun a => by fin_cases a <;> decide
  exact Memref.read_access_unit_zero (Elt F) main_v2 hz' (fun a => by rw [congrFun hz' a]; simp) (V m c main_v2)
theorem iblk2 (c : Dev nD) (t : Fin cfg0.N) : (iblk m c 2 t : Vec F S128x256 .f32) = V m c main_arg1 := by
  obtain rfl := fin_N0 t
  unfold iblk
  have hz' : (fun a => win0_2.index t0_0 a * main_arg1.ty.shape.size a) = fun _ => 0 := funext fun a => by fin_cases a <;> decide
  exact Memref.read_access_unit_zero (Elt F) main_arg1 hz' (fun a => by rw [congrFun hz' a]; simp) (V m c main_arg1)
theorem iblk3 (c : Dev nD) (t : Fin cfg0.N) : (iblk m c 3 t : Vec F S1x256 .f32) = V m c main_arg2 := by
  obtain rfl := fin_N0 t
  unfold iblk
  have hz' : (fun a => win0_3.index t0_0 a * main_arg2.ty.shape.size a) = fun _ => 0 := funext fun a => by fin_cases a <;> decide
  exact Memref.read_access_unit_zero (Elt F) main_arg2 hz' (fun a => by rw [congrFun hz' a]; simp) (V m c main_arg2)
theorem iblk4 (c : Dev nD) (t : Fin cfg0.N) : (iblk m c 4 t : Vec F S256x256 .f32) = V m c main_arg3 := by
  obtain rfl := fin_N0 t
  unfold iblk
  have hz' : (fun a => win0_4.index t0_0 a * main_arg3.ty.shape.size a) = fun _ => 0 := funext fun a => by fin_cases a <;> decide
  exact Memref.read_access_unit_zero (Elt F) main_arg3 hz' (fun a => by rw [congrFun hz' a]; simp) (V m c main_arg3)
theorem iblk5 (c : Dev nD) (t : Fin cfg0.N) : (iblk m c 5 t : Vec F S1x256 .f32) = V m c main_arg4 := by
  obtain rfl := fin_N0 t
  unfold iblk
  have hz' : (fun a => win0_5.index t0_0 a * main_arg4.ty.shape.size a) = fun _ => 0 := funext fun a => by fin_cases a <;> decide
  exact Memref.read_access_unit_zero (Elt F) main_arg4 hz' (fun a => by rw [congrFun hz' a]; simp) (V m c main_arg4)
theorem iblk6 (c : Dev nD) (t : Fin cfg0.N) : (iblk m c 6 t : Vec F S256x128 .f32) = V m c main_arg5 := by
  obtain rfl := fin_N0 t
  unfold iblk
  have hz' : (fun a => win0_6.index t0_0 a * main_arg5.ty.shape.size a) = fun _ => 0 := funext fun a => by fin_cases a <;> decide
  exact Memref.read_access_unit_zero (Elt F) main_arg5 hz' (fun a => by rw [congrFun hz' a]; simp) (V m c main_arg5)
theorem iblk7 (c : Dev nD) (t : Fin cfg0.N) : (iblk m c 7 t : Vec F S1x128 .f32) = V m c main_arg6 := by
  obtain rfl := fin_N0 t
  unfold iblk
  have hz' : (fun a => win0_7.index t0_0 a * main_arg6.ty.shape.size a) = fun _ => 0 := funext fun a => by fin_cases a <;> decide
  exact Memref.read_access_unit_zero (Elt F) main_arg6 hz' (fun a => by rw [congrFun hz' a]; simp) (V m c main_arg6)

/-- The output array after the region is the one block the body wrote, whatever that block is. -/
theorem final8 {c : Dev nD} (dat : Dat τ (Elt F) Unit ℕ (UR sig nD τ) ℕ cfg0 c) (G : Vec F S512x4096 .f32)
    (hafter : ∀ t, dat.after 8 t = G) : dat.arrAt 8 cfg0.N = G :=
  dat.arrAt_eq_of_cover 8 G
    (fun t _ => by
      obtain rfl := fin_N0 t
      show (cfg0.win 8).cut (grid0.coords t0_0) (dat.after 8 t0_0) = _
      rw [hafter]
      have hz' : (fun a => win0_8.index t0_0 a * main_v3.ty.shape.size a) = fun _ => 0 := funext fun a => by fin_cases a <;> decide
      exact (Memref.read_access_unit_zero (Elt F) main_v3 hz' (fun a => by rw [congrFun hz' a]; simp) G).symm)
    (fun i => ⟨t0_0, flush0_8 t0_0, by
      show i ∈ ((View.whole main_v3).slice (win0_8.rect t0_0)).set
      rw [View.set_slice_whole, Rect.mem_set_unit]
      intro a
      have h0 : (i 0 : Nat) < 512 := (i 0).isLt
      have h1 : (i 1 : Nat) < 4096 := (i 1).isLt
      match a with
      | ⟨0, _⟩ =>
        show win0_8.index t0_0 0 * win0_8.size 0 ≤ (i 0 : Nat) ∧ (i 0 : Nat) < win0_8.index t0_0 0 * win0_8.size 0 + win0_8.xsize (grid0.coords t0_0) 0
        rw [show win0_8.index t0_0 0 * win0_8.size 0 = 0 from by decide +kernel, show win0_8.xsize (grid0.coords t0_0) 0 = 512 from by decide +kernel]; omega
      | ⟨1, _⟩ =>
        show win0_8.index t0_0 1 * win0_8.size 1 ≤ (i 1 : Nat) ∧ (i 1 : Nat) < win0_8.index t0_0 1 * win0_8.size 1 + win0_8.xsize (grid0.coords t0_0) 1
        rw [show win0_8.index t0_0 1 * win0_8.size 1 = 0 from by decide +kernel, show win0_8.xsize (grid0.coords t0_0) 1 = 4096 from by decide +kernel]; omega⟩)

/-! ## The host operation after the region -/

/-- The result buffer after the program: the region's output array unflattened to [512, 32, 128]. -/
theorem tail_v4 (dats : (p : Fin 1) → (c : Dev nD) → Dat τ (Elt F) Unit ℕ (UR sig nD τ) ℕ (cfgs p) c) (c : Dev nD) :
    (Pipeline.afterTail₀ cfgs dats 0 (V0 m) [hostOps1] c main_v4 : S512x32x128.Idx → Elt F .f32)
      = shapeCast S512x32x128 ((dats 0 c).arrAt 8 cfg0.N : S512x4096.Idx → Elt F .f32) shapeCasts_S512x4096_S512x32x128 := by
  unfold Pipeline.afterTail₀
  show StableHlo.after hostOps1 _ (Proc.devRef .tc main_v4) = _
  after_results
  rw [show Pipeline.withArrays (cfgs 0).spec c (V0 m c) (fun w => (dats 0 c).arrAt w (cfgs 0).N) (Proc.devRef .tc main_v3)
      = (dats 0 c).arrAt 8 cfg0.N from Pipeline.withArrays_arr spec0 launch0.win.arr_inj c _ _ 8]
  rfl

/-- It leaves x as launched … -/
theorem tail_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  show StableHlo.after hostOps1 _ (Proc.devRef .tc main_arg0) = _
  after_results
  rw [Pipeline.withArrays_of_ne _ c (V0 m c) _ main_arg0 (by exact (by decide : ∀ w, Pipeline.arrRef spec0 w ≠ main_arg0))]
  exact V_arg0 m c

/-- … and the noise as launched. -/
theorem tail_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  show StableHlo.after hostOps1 _ (Proc.devRef .tc main_arg7) = _
  after_results
  rw [Pipeline.withArrays_of_ne _ c (V0 m c) _ main_arg7 (by exact (by decide : ∀ w, Pipeline.arrRef spec0 w ≠ main_arg7))]
  exact V_arg7 m c

end Entry

/-! ## The host reshapes at an entry -/

/-- The start array at (b, j) is x at (b, 0, j): both casts keep the row-major position. -/
theorem x0_apply {α : Type} (x : S512x33x128.Idx → α) (b : Fin 512) (j : Fin 128) :
    shapeCast S512x128 (extractStridedSlice S512x1x128 ![0, 0, 0] x slices_S512x33x128_S512x1x128_0_0_0) shapeCasts_S512x1x128_S512x128 (ix2 b j)
      = x (ix3 b (0 : Fin 33) j) := by
  rw [shapeCast_apply _ _ (ix2 b j) (ix3 b (0 : Fin 1) j) (by
    rw [Shape.rowMajor_val_two, Shape.rowMajor_val_three]
    show (b.val * 1 + 0) * 128 + j.val = b.val * 128 + j.val
    omega)]
  refine extractStridedSlice_apply _ x _ (ix3 b (0 : Fin 1) j) (ix3 b (0 : Fin 33) j) fun a => ?_
  match a with
  | ⟨0, _⟩ => show b.val = 0 + b.val; omega
  | ⟨1, _⟩ => rfl
  | ⟨2, _⟩ => show j.val = 0 + j.val; omega

/-- The flattened noise at (b, 128·t + j) is the noise at (b, t, j): (b·32 + t)·128 + j = b·4096 + (128·t + j). -/
theorem ns_apply {α : Type} (ns : S512x32x128.Idx → α) (b : Fin 512) (t : Fin 32) (j : Fin 128) :
    shapeCast S512x4096 ns shapeCasts_S512x32x128_S512x4096 (ix2 b (⟨128 * t.val + j.val, by omega⟩ : Fin 4096)) = ns (ix3 b t j) :=
  shapeCast_apply ns _ _ _ (by
    rw [Shape.rowMajor_val_two, Shape.rowMajor_val_three]
    show (b.val * 32 + t.val) * 128 + j.val = b.val * 4096 + (128 * t.val + j.val)
    omega)

/-- The unflattened output at (b, t, j) is the output at (b, 128·t + j). -/
theorem out_apply {α : Type} (y : S512x4096.Idx → α) (b : Fin 512) (t : Fin 32) (j : Fin 128) :
    shapeCast S512x32x128 y shapeCasts_S512x4096_S512x32x128 (ix3 b t j) = y (ix2 b (⟨128 * t.val + j.val, by omega⟩ : Fin 4096)) :=
  shapeCast_apply y _ _ _ (by
    rw [Shape.rowMajor_val_two, Shape.rowMajor_val_three]
    show b.val * 4096 + (128 * t.val + j.val) = (b.val * 32 + t.val) * 128 + j.val
    omega)

/-- The unflattened concatenation of the recursion's predictions, from the flattened inputs, is the rollout's result. -/
theorem result_of_arrays (w1 : FVec Ideal S128x256 .f32) (w2 : FVec Ideal S256x256 .f32) (w3 : FVec Ideal S256x128 .f32)
    (b1 : FVec Ideal S1x256 .f32) (b2 : FVec Ideal S1x256 .f32) (b3 : FVec Ideal S1x128 .f32)
    (x : FVec Ideal S512x33x128 .f32) (ns : FVec Ideal S512x32x128 .f32) :
    shapeCast S512x32x128
        (RCat (F := Ideal) w1 w2 w3 b1 b2 b3 (shapeCast S512x4096 ns shapeCasts_S512x32x128_S512x4096)
          (shapeCast S512x128 (extractStridedSlice S512x1x128 ![0, 0, 0] x slices_S512x33x128_S512x1x128_0_0_0) shapeCasts_S512x1x128_S512x128))
        shapeCasts_S512x4096_S512x32x128
      = Cert.Rollout.result w1 b1 w2 b2 w3 b3 x ns := by
  funext i
  obtain ⟨b, t, j, rfl⟩ : ∃ (b : Fin 512) (t : Fin 32) (j : Fin 128), i = ix3 b t j := ⟨i 0, i 1, i 2, eq_ix3 i⟩
  rw [out_apply, RCat_apply, Cert.Rollout.result_ix3]
  unfold Cert.Rollout.entry
  exact RP_apply w1 w2 w3 b1 b2 b3 _ _ (Cert.Rollout.start x) (Cert.Rollout.noise ns)
    (fun b j => x0_apply x b j) (fun b t j => (ns_apply ns b t j).trans (Cert.Rollout.noise_lt ns b t j).symm) t b j

/-! ## The run -/

section Run

variable (m : (ℓ : Loc nD τ sig) → Buf (Elt Ideal) ℓ) (ρ : Dev nD → PrngReg)

/-- From any run of the program to the frame post over proof data whose arrays are the region-entry contents (`hA`)
    and whose output buffer after the body is the 32 predictions of the recursion over the input blocks (`hafter`):
    the result buffer ends at the rollout of the arguments, and the eight arguments end as launched. -/
theorem value_of_frame_run
    (dats : (p : Fin 1) → (c : Dev nD) → Dat τ (Elt Ideal) Unit ℕ (UR sig nD τ) ℕ (cfgs p) c)
    (hA : ∀ c w, (dats 0 c).A w = V m c (Pipeline.arrRef spec0 w))
    (hafter : ∀ (c : Dev nD) (t : Fin cfg0.N), (dats 0 c).after 8 t
      = RCat (F := Ideal) (iblk m c 2 t) (iblk m c 4 t) (iblk m c 6 t) (iblk m c 3 t) (iblk m c 5 t) (iblk m c 7 t) (iblk m c 1 t) (iblk m c 0 t))
    (h : θ_run (defs (F := Ideal)) (onTc (τ := τ) (main (F := Ideal))) (s₀ m ρ)
      (Pipeline.FramePost cfgs dats 0 (Pipeline.afterTail₀ cfgs dats 0 (V0 m) [hostOps1]))) :
    θ_run (defs (F := Ideal)) (onTc (τ := τ) (main (F := Ideal))) ⟨m, fun _ => 0, ρ⟩ (fun r => ∀ c : Dev nD,
      r.2.mem ((c.tc : Thread nD τ).loc main_v4)
        = Cert.Rollout.result (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg0)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ⟨?_, ?_, ?_, ?_, ?_, ?_, ?_, ?_, ?_⟩) h
  · have hG : (dats 0 c).arrAt 8 cfg0.N
        = RCat (F := Ideal) (V m c main_arg1) (V m c main_arg3) (V m c main_arg5) (V m c main_arg2) (V m c main_arg4) (V m c main_arg6)
            (V m c main_v2) (V m c main_v1) :=
      final8 (dats 0 c) _ (fun t => by
        rw [hafter c t, iblk2 m c t, iblk4 m c t, iblk6 m c t, iblk3 m c t, iblk5 m c t, iblk7 m c t, iblk1 m c t, iblk0 m c t])
    refine ((h c).2 main_v4 (Pipeline.mem_restRefs_of main_v4 (by decide) (by decide))).trans ?_
    rw [tail_v4 m dats c, hG, V_arg1 m c, V_arg3 m c, V_arg5 m c, V_arg2 m c, V_arg4 m c, V_arg6 m c, V_v2 m c, V_v1 m c]
    exact result_of_arrays _ _ _ _ _ _ _ _
  · exact ((h c).2 main_arg0 (Pipeline.mem_restRefs_of main_arg0 (by decide) (by decide))).trans (tail_arg0 m dats c)
  · exact ((h c).1 2).trans (((dats 0 c).arrAt_in 2 rfl _).trans ((hA c 2).trans (V_arg1 m c)))
  · exact ((h c).1 3).trans (((dats 0 c).arrAt_in 3 rfl _).trans ((hA c 3).trans (V_arg2 m c)))
  · exact ((h c).1 4).trans (((dats 0 c).arrAt_in 4 rfl _).trans ((hA c 4).trans (V_arg3 m c)))
  · exact ((h c).1 5).trans (((dats 0 c).arrAt_in 5 rfl _).trans ((hA c 5).trans (V_arg4 m c)))
  · exact ((h c).1 6).trans (((dats 0 c).arrAt_in 6 rfl _).trans ((hA c 6).trans (V_arg5 m c)))
  · exact ((h c).1 7).trans (((dats 0 c).arrAt_in 7 rfl _).trans ((hA c 7).trans (V_arg6 m c)))
  · exact ((h c).2 main_arg7 (Pipeline.mem_restRefs_of main_arg7 (by decide) (by decide))).trans (tail_arg7 m dats c)

end Run

end Cert.ReferenceIdeal.RefValue

end
-- ==== Proof.RValueRun.lean ====
/-
  The reference program's run, read: its result is the rollout of its arguments.

  The body leaves in the output block its one store read back, which is the recursion's 32 predictions side by side;
  so the program's own proof data meet the hypotheses under which the result buffer ends at the rollout, and its run
  to the frame post gives the statement.
-/
import proofs.«146222_g2000209494350815_pallasbulk_913_23_alg».proof.Proof.RFrame
import proofs.«146222_g2000209494350815_pallasbulk_913_23_alg».proof.Proof.RGlue
import proofs.«146222_g2000209494350815_pallasbulk_913_23_alg».proof.Proof.RValue

set_option maxRecDepth 16384

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen

/-- What the body leaves in the output block: the 32 predictions of the recursion over the input blocks. -/
theorem out_eq {F : FTy → Type} [FloatOps F] (c : Dev nD) (i : grid0.Coords)
    (arg1 : Memref sig .tc .vmem S512x128 .f32) (harg1 : arg1.IsWhole) (arg2 : Memref sig .tc .vmem S512x4096 .f32) (harg2 : arg2.IsWhole)
    (arg3 : Memref sig .tc .vmem S128x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S256x128 .f32) (harg7 : arg7.IsWhole) (arg8 : Memref sig .tc .vmem S1x128 .f32) (harg8 : arg8.IsWhole)
    (arg9 : Memref sig .tc .vmem S512x4096 .f32) (harg9 : arg9.IsWhole)
    (x0 : Vec F S512x128 .f32) (x1 : Vec F S512x4096 .f32) (x2 : Vec F S128x256 .f32) (x3 : Vec F S1x256 .f32)
    (x4 : Vec F S256x256 .f32) (x5 : Vec F S1x256 .f32) (x6 : Vec F S256x128 .f32) (x7 : Vec F S1x128 .f32) :
    Hand.out0_8 c i arg1 harg1 arg2 harg2 arg3 harg3 arg4 harg4 arg5 harg5 arg6 harg6 arg7 harg7 arg8 harg8 arg9 harg9 x0 x1 x2 x3 x4 x5 x6 x7
      = RCat x2 x4 x6 x3 x5 x7 x1 x0 := by
  unfold Hand.out0_8
  rw [View.read_writes_junk_eq_canon, run_piece, View.canon_unit_zero hz]

/-- Every weakly fair execution of the reference program terminates with its result buffer at the rollout of its
    arguments and the eight arguments as launched. -/
theorem value_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
        = Cert.Rollout.result (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg0)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  value_of_frame_run m ρ (Hand.dats m) (Hand.A_eq m)
    (fun c t => (Hand.after0_8 m c t).trans (out_eq c _ _ _ _ _ _ _ _ _ _ _ _ _ _ _ _ _ _ _ _ _ _ _ _ _ _ _))
    (Hand.run_main m ρ)

end Cert.ReferenceIdeal.RefValue

end
-- ==== Proof.lean ====
/-
  Three programs compute one autoregressive rollout of a three-layer network over 512 batch rows and 32 steps: the
  kernel (four grid points of eight steps, the rows in two halves, the state carried between points in a scratch buffer
  with a constant-one column so that the first layer's bias rides the product), its idealization (the same text read over
  the extended reals), and the reference (one grid point of 32 unrolled steps). Each program runs to the end leaving its
  arguments unchanged (the three frames); the idealization rewrote nothing (preserves); and over the extended reals the
  kernel's and the reference's result arrays are both the rollout's result `Cert.Rollout.result` of the arguments, so they
  are equal wherever the arguments agree (algebraic). The two sides differ only by regrouping sums of extended reals — the
  bias inside or outside the first product, b3 and the scaled noise added in another order — which needs no finiteness.
-/
import proofs.«146222_g2000209494350815_pallasbulk_913_23_alg».proof.Defs
import proofs.«146222_g2000209494350815_pallasbulk_913_23_alg».proof.Proof.Gen.Kernel
import proofs.«146222_g2000209494350815_pallasbulk_913_23_alg».proof.Proof.Gen.KernelIdeal
import proofs.«146222_g2000209494350815_pallasbulk_913_23_alg».proof.Proof.Gen.ReferenceIdeal
import proofs.«146222_g2000209494350815_pallasbulk_913_23_alg».proof.Proof.Gen.Pre_finite_inputs
import proofs.«146222_g2000209494350815_pallasbulk_913_23_alg».proof.Proof.KBFrame
import proofs.«146222_g2000209494350815_pallasbulk_913_23_alg».proof.Proof.KIValue
import proofs.«146222_g2000209494350815_pallasbulk_913_23_alg».proof.Proof.RValueRun

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ => Cert.ReferenceIdeal.Hand.frame (F := Ideal) m ρ

/-- The ideal pass rewrote no operation. -/
theorem preserves : Cert.preserves_Kernel_KernelIdeal := trivial

/-- Both idealized programs end with the rollout's result of their arguments, which agree. -/
theorem algebraic : Cert.algebraic_KernelIdeal_ReferenceIdeal := by
  intro m ρ m' ρ' _ hagree
  refine ⟨_, Cert.KernelIdeal.KValue.value_run m ρ, ?_⟩
  refine (θ_run Cert.ReferenceIdeal.defs _ _).mono (fun _ h c => ⟨(h c).1.trans ?_, (h c).2⟩)
    (Cert.ReferenceIdeal.RefValue.value_run m' ρ')
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
